-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x1024 : Shape := ⟨3, ![2, 4096, 1024]⟩
abbrev S8192x2 : Shape := ⟨2, ![8192, 2]⟩
abbrev S8x1024x4096 : Shape := ⟨3, ![8, 1024, 4096]⟩
abbrev S8x2048x1024 : Shape := ⟨3, ![8, 2048, 1024]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S8192x2 : S_.BroadcastsInDim S8192x2 (![] : Fin 0 → Fin S8192x2.rank)
  reducesTo_S8192x2_S_d0_1 : S8192x2.ReducesTo [0, 1] S_
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x2048x1024 : S_.BroadcastsInDim S8x2048x1024 (![] : Fin 0 → Fin S8x2048x1024.rank)
  reducesTo_S8x2048x1024_S_d0_1_2 : S8x2048x1024.ReducesTo [0, 1, 2] S_

variable [Facts]

def fn_part1 {F : FTy → Type} [FloatOps F] (main_v13 : IVec S_ 1) (main_v16 : IVec S8x2048x1024 1) : IVec S_ 1 :=
  let main_c_5 : IVec S_ 1 := constantI S_ 1 1#1
  let main_v17 : IVec S_ 1 := (fun x v => Host.reduce IntOp.andi x v reducesTo_S8x2048x1024_S_d0_1_2 h_S_) main_v16 main_c_5
  let main_v18 : IVec S_ 1 := andi main_v13 main_v17
  main_v18

def fn {F : FTy → Type} [FloatOps F] (main_arg0 : FVec F S2x4096x1024 .f32) (main_arg1 : FVec F S8192x2 .f32) (main_arg2 : IVec S8192x2 32) (main_arg3 : FVec F S8x1024x4096 .f32) (main_arg4 : FVec F S8x2048x1024 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S8192x2 .f32 := Host.absf main_arg1
  let main_cst_0 : FVec F S_ .f32 := constant S_ .f32 0x7F800000#32
  let main_v5 : FVec F S8192x2 .f32 := broadcastInDim S8192x2 ![] bcast_S_S8192x2 main_cst_0
  let main_v6 : IVec S8192x2 1 := cmpf .olt main_v4 main_v5
  let main_c_1 : IVec S_ 1 := constantI S_ 1 1#1
  let main_v7 : IVec S_ 1 := (fun x v => Host.reduce IntOp.andi x v reducesTo_S8192x2_S_d0_1 h_S_) main_v6 main_c_1
  let main_v8 : IVec S_ 1 := andi main_v3 main_v7
  let main_v9 : FVec F S8x1024x4096 .f32 := Host.absf main_arg3
  let main_cst_2 : FVec F S_ .f32 := constant S_ .f32 0x7F800000#32
  let main_v10 : FVec F S8x1024x4096 .f32 := broadcastInDim S8x1024x4096 ![] bcast_S_S8x1024x4096 main_cst_2
  let main_v11 : IVec S8x1024x4096 1 := cmpf .olt main_v9 main_v10
  let main_c_3 : IVec S_ 1 := constantI S_ 1 1#1
  let main_v12 : IVec S_ 1 := (fun x v => Host.reduce IntOp.andi x v reducesTo_S8x1024x4096_S_d0_1_2 h_S_) main_v11 main_c_3
  let main_v13 : IVec S_ 1 := andi main_v8 main_v12
  let main_v14 : FVec F S8x2048x1024 .f32 := Host.absf main_arg4
  let main_cst_4 : FVec F S_ .f32 := constant S_ .f32 0x7F800000#32
  let main_v15 : FVec F S8x2048x1024 .f32 := broadcastInDim S8x2048x1024 ![] bcast_S_S8x2048x1024 main_cst_4
  let main_v16 : IVec S8x2048x1024 1 := cmpf .olt main_v14 main_v15
  fn_part1 (F := F) main_v13 main_v16
-- ==== Kernel.lean ====
abbrev S2x4096x1024 : Shape := ⟨3, ![2, 4096, 1024]⟩
abbrev S8192x2 : Shape := ⟨2, ![8192, 2]⟩
abbrev S8x1024x4096 : Shape := ⟨3, ![8, 1024, 4096]⟩
abbrev S8x2048x1024 : Shape := ⟨3, ![8, 2048, 1024]⟩
abbrev S8192x1024 : Shape := ⟨2, ![8192, 1024]⟩
abbrev S512x1024 : Shape := ⟨2, ![512, 1024]⟩
abbrev S512x2 : Shape := ⟨2, ![512, 2]⟩
abbrev S1x1024x4096 : Shape := ⟨3, ![1, 1024, 4096]⟩
abbrev S1x2048x1024 : Shape := ⟨3, ![1, 2048, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S2x4096x1024, .f32⟩
  | .hbm, ⟨1, _⟩ => ⟨S8192x2, .f32⟩
  | .hbm, ⟨2, _⟩ => ⟨S8192x2, .i32⟩
  | .hbm, ⟨3, _⟩ => ⟨S8x1024x4096, .f32⟩
  | .hbm, ⟨4, _⟩ => ⟨S8x2048x1024, .f32⟩
  | .hbm, ⟨5, _⟩ => ⟨S8192x1024, .f32⟩
  | .hbm, ⟨6, _⟩ => ⟨S8192x1024, .bf16⟩
  | .hbm, ⟨7, _⟩ => ⟨S8x1024x4096, .bf16⟩
  | .hbm, ⟨8, _⟩ => ⟨S8x2048x1024, .bf16⟩
  | .hbm, ⟨9, _⟩ => ⟨S8192x1024, .f32⟩
  | .hbm, ⟨10, _⟩ => ⟨S2x4096x1024, .f32⟩
  | .local _ .vmem, ⟨0, _⟩ => ⟨S512x1024, .bf16⟩
  | .local _ .vmem, ⟨1, _⟩ => ⟨S512x1024, .bf16⟩
  | .local _ .vmem, ⟨2, _⟩ => ⟨S512x2, .i32⟩
  | .local _ .vmem, ⟨3, _⟩ => ⟨S512x2, .i32⟩
  | .local _ .vmem, ⟨4, _⟩ => ⟨S512x2, .f32⟩
  | .local _ .vmem, ⟨5, _⟩ => ⟨S512x2, .f32⟩
  | .local _ .vmem, ⟨6, _⟩ => ⟨S1x1024x4096, .bf16⟩
  | .local _ .vmem, ⟨7, _⟩ => ⟨S1x1024x4096, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v133 : BitVec 1 := Scalar.cmpi .eq arg1 c7_i32
  let v134 : BitVec 32 := Scalar.extui v133
  let c0_i32_93 : BitVec 32 := 0#32
  let v135 : BitVec 1 := Scalar.cmpi .ne v134 c0_i32_93
  v135

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S2x4096x1024_S8192x1024 : S2x4096x1024.ShapeCasts S8192x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024x4096_S1x1024x256_0_0_0 : ∀ a, (![0, 0, 0] : Fin 3 → Nat) a + S1x1024x256.size a ≤ S1x1024x4096.size a
  h_S1x1024x256 : 0 < S1x1024x256.numel
  shapeCasts_S1x1024x256_S1024x256 : S1x1024x256.ShapeCasts S1024x256
  inb_S1x1024x4096_S1x1024x256_0_0_2048 : ∀ a, (![0, 0, 2048] : Fin 3 → Nat) a + S1x1024x256.size a ≤ S1x1024x4096.size a
  inb_S1x2048x1024_S1x256x1024_0_0_0 : ∀ a, (![0, 0, 0] : Fin 3 → Nat) a + S1x256x1024.size a ≤ S1x2048x1024.size a
  h_S1x256x1024 : 0 < S1x256x1024.numel
  shapeCasts_S1x256x1024_S256x1024 : S1x256x1024.ShapeCasts S256x1024
  inb_S1x1024x4096_S1x1024x256_0_0_256 : ∀ a, (![0, 0, 256] : Fin 3 → Nat) a + S1x1024x256.size a ≤ S1x1024x4096.size a
  inb_S1x1024x4096_S1x1024x256_0_0_2304 : ∀ a, (![0, 0, 2304] : Fin 3 → Nat) a + S1x1024x256.size a ≤ S1x1024x4096.size a
  inb_S1x2048x1024_S1x256x1024_0_256_0 : ∀ a, (![0, 256, 0] : Fin 3 → Nat) a + S1x256x1024.size a ≤ S1x2048x1024.size a
  inb_S1x1024x4096_S1x1024x256_0_0_512 : ∀ a, (![0, 0, 512] : Fin 3 → Nat) a + S1x1024x256.size a ≤ S1x1024x4096.size a
  inb_S1x1024x4096_S1x1024x256_0_0_2560 : ∀ a, (![0, 0, 2560] : Fin 3 → Nat) a + S1x1024x256.size a ≤ S1x1024x4096.size a
  inb_S1x2048x1024_S1x256x1024_0_512_0 : ∀ a, (![0, 512, 0] : Fin 3 → Nat) a + S1x256x1024.size a ≤ S1x2048x1024.size a
  inb_S1x1024x4096_S1x1024x256_0_0_768 : ∀ a, (![0, 0, 768] : Fin 3 → Nat) a + S1x1024x256.size a ≤ S1x1024x4096.size a
  inb_S1x1024x4096_S1x1024x256_0_0_2816 : ∀ a, (![0, 0, 2816] : Fin 3 → Nat) a + S1x1024x256.size a ≤ S1x1024x4096.size a
  inb_S1x2048x1024_S1x256x1024_0_768_0 : ∀ a, (![0, 768, 0] : Fin 3 → Nat) a + S1x256x1024.size a ≤ S1x2048x1024.size a
  inb_S1x1024x4096_S1x1024x256_0_0_1024 : ∀ a, (![0, 0, 1024] : Fin 3 → Nat) a + S1x1024x256.size a ≤ S1x1024x4096.size a
  inb_S1x1024x4096_S1x1024x256_0_0_3072 : ∀ a, (![0, 0, 3072] : Fin 3 → Nat) a + S1x1024x256.size a ≤ S1x1024x4096.size a
  inb_S1x2048x1024_S1x256x1024_0_1024_0 : ∀ a, (![0, 1024, 0] : Fin 3 → Nat) a + S1x256x1024.size a ≤ S1x2048x1024.size a
  inb_S1x1024x4096_S1x1024x256_0_0_1280 : ∀ a, (![0, 0, 1280] : Fin 3 → Nat) a + S1x1024x256.size a ≤ S1x1024x4096.size a
  inb_S1x1024x4096_S1x1024x256_0_0_3328 : ∀ a, (![0, 0, 3328] : Fin 3 → Nat) a + S1x1024x256.size a ≤ S1x1024x4096.size a
  inb_S1x2048x1024_S1x256x1024_0_1280_0 : ∀ a, (![0, 1280, 0] : Fin 3 → Nat) a + S1x256x1024.size a ≤ S1x2048x1024.size a
  inb_S1x1024x4096_S1x1024x256_0_0_1536 : ∀ a, (![0, 0, 1536] : Fin 3 → Nat) a + S1x1024x256.size a ≤ S1x1024x4096.size a
  inb_S1x1024x4096_S1x1024x256_0_0_3584 : ∀ a, (![0, 0, 3584] : Fin 3 → Nat) a + S1x1024x256.size a ≤ S1x1024x4096.size a
  inb_S1x2048x1024_S1x256x1024_0_1536_0 : ∀ a, (![0, 1536, 0] : Fin 3 → Nat) a + S1x256x1024.size a ≤ S1x2048x1024.size a
  inb_S1x1024x4096_S1x1024x256_0_0_1792 : ∀ a, (![0, 0, 1792] : Fin 3 → Nat) a + S1x1024x256.size a ≤ S1x1024x4096.size a
  inb_S1x1024x4096_S1x1024x256_0_0_3840 : ∀ a, (![0, 0, 3840] : Fin 3 → Nat) a + S1x1024x256.size a ≤ S1x1024x4096.size a
  inb_S1x2048x1024_S1x256x1024_0_1792_0 : ∀ a, (![0, 1792, 0] : Fin 3 → Nat) a + S1x256x1024.size a ≤ S1x2048x1024.size a
  inb_S512x2_S512x2_0_0 : ∀ a, (![0, 0] : Fin 2 → Nat) a + S512x2.size a ≤ S512x2.size a
  h_S512x2 : 0 < S512x2.numel
  reduces_S512x2_S512 : S512x2.Reduces [1] S512
  shapeCasts_S512_S512x1 : S512.ShapeCasts S512x1
  broadcasts_S512x1_S512x1024 : S512x1.Broadcasts S512x1024
  shapeCasts_S8192x1024_S2x4096x1024 : S8192x1024.ShapeCasts S2x4096x1024
  dot_S512x1024_S1024x256_S512x256_1_0_0_1_n_n_wf : DotDims.WF S512x1024 S1024x256 S512x256 [1] [0] [0] [1] [] []
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .bf16 = 32 ∨ (Rect.block (s := S8192x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2.size a ≤ S8192x2.size a
  hwx0_1 : ∀ i : grid0.Coords, EltTy.bits .i32 = 32 ∨ (Rect.block (s := S8192x2) S512x2.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2.size a ≤ S8192x2.size a
  hwx0_2 : ∀ i : grid0.Coords, EltTy.bits .f32 = 32 ∨ (Rect.block (s := S8192x2) S512x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x4096.size a ≤ S8x1024x4096.size a
  hwx0_3 : ∀ i : grid0.Coords, EltTy.bits .bf16 = 32 ∨ (Rect.block (s := S8x1024x4096) S1x1024x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x1024.size a ≤ S8x2048x1024.size a
  hwx0_4 : ∀ i : grid0.Coords, EltTy.bits .bf16 = 32 ∨ (Rect.block (s := S8x2048x1024) S1x2048x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .f32 = 32 ∨ (Rect.block (s := S8192x1024) S512x1024.size (cc0_transform_5 i) (hinb0_5 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x2048x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2x4096x1024 : Shape := ⟨3, ![2, 4096, 1024]⟩
abbrev S8192x2 : Shape := ⟨2, ![8192, 2]⟩
abbrev S8x1024x4096 : Shape := ⟨3, ![8, 1024, 4096]⟩
abbrev S8x2048x1024 : Shape := ⟨3, ![8, 2048, 1024]⟩
abbrev S8192x1024 : Shape := ⟨2, ![8192, 1024]⟩
abbrev S_ : Shape := ⟨0, ![]⟩
abbrev S1x1024x4096 : Shape := ⟨3, ![1, 1024, 4096]⟩
abbrev S1024x4096 : Shape := ⟨2, ![1024, 4096]⟩
abbrev S8192x4096 : Shape := ⟨2, ![8192, 4096]⟩
abbrev S8192x2048 : Shape := ⟨2, ![8192, 2048]⟩
abbrev S1x2048x1024 : Shape := ⟨3, ![1, 2048, 1024]⟩
abbrev S2048x1024 : Shape := ⟨2, ![2048, 1024]⟩
abbrev S8192 : Shape := ⟨1, ![8192]⟩
abbrev S8192x1 : Shape := ⟨2, ![8192, 1]⟩

abbrev nBuf : Space → Nat
  | .hbm => 241
  | .vmem => 0
  | .smem => 0
  | _ => 0

abbrev hbmTy0_0 (i : Nat) : BufTy := match i % 128 with
  | 0 => ⟨S2x4096x1024, .f32⟩
  | 1 => ⟨S8192x2, .f32⟩
  | 2 => ⟨S8192x2, .i32⟩
  | 3 => ⟨S8x1024x4096, .f32⟩
  | 4 => ⟨S8x2048x1024, .f32⟩
  | 5 => ⟨S8192x1024, .f32⟩
  | 6 => ⟨S_, .f32⟩
  | 7 => ⟨S8192x1024, .f32⟩
  | 8 => ⟨S1x1024x4096, .f32⟩
  | 9 => ⟨S1024x4096, .f32⟩
  | 10 => ⟨S8192x4096, .f32⟩
  | 11 => ⟨S8192x2048, .f32⟩
  | 12 => ⟨S8192x2048, .f32⟩
  | 13 => ⟨S8192x2048, .f32⟩
  | 14 => ⟨S8192x2048, .f32⟩
  | 15 => ⟨S_, .f32⟩
  | 16 => ⟨S8192x2048, .f32⟩
  | 17 => ⟨S8192x2048, .f32⟩
  | 18 => ⟨S_, .f32⟩
  | 19 => ⟨S8192x2048, .f32⟩
  | 20 => ⟨S8192x2048, .f32⟩
  | 21 => ⟨S8192x2048, .f32⟩
  | 22 => ⟨S8192x2048, .f32⟩
  | 23 => ⟨S1x2048x1024, .f32⟩
  | 24 => ⟨S2048x1024, .f32⟩
  | 25 => ⟨S8192x1024, .f32⟩
  | 26 => ⟨S_, .i32⟩
  | 27 => ⟨S8192x2, .i32⟩
  | 28 => ⟨S8192x2, .i1⟩
  | 29 => ⟨S8192x2, .f32⟩
  | 30 => ⟨S8192x2, .f32⟩
  | 31 => ⟨S_, .f32⟩
  | 32 => ⟨S8192, .f32⟩
  | 33 => ⟨S8192x1, .f32⟩
  | 34 => ⟨S8192x1024, .f32⟩
  | 35 => ⟨S8192x1024, .f32⟩
  | 36 => ⟨S8192x1024, .f32⟩
  | 37 => ⟨S1x1024x4096, .f32⟩
  | 38 => ⟨S1024x4096, .f32⟩
  | 39 => ⟨S8192x4096, .f32⟩
  | 40 => ⟨S8192x2048, .f32⟩
  | 41 => ⟨S8192x2048, .f32⟩
  | 42 => ⟨S8192x2048, .f32⟩
  | 43 => ⟨S8192x2048, .f32⟩
  | 44 => ⟨S_, .f32⟩
  | 45 => ⟨S8192x2048, .f32⟩
  | 46 => ⟨S8192x2048, .f32⟩
  | 47 => ⟨S_, .f32⟩
  | 48 => ⟨S8192x2048, .f32⟩
  | 49 => ⟨S8192x2048, .f32⟩
  | 50 => ⟨S8192x2048, .f32⟩
  | 51 => ⟨S8192x2048, .f32⟩
  | 52 => ⟨S1x2048x1024, .f32⟩
  | 53 => ⟨S2048x1024, .f32⟩
  | 54 => ⟨S8192x1024, .f32⟩
  | 55 => ⟨S_, .i32⟩
  | 56 => ⟨S8192x2, .i32⟩
  | 57 => ⟨S8192x2, .i1⟩
  | 58 => ⟨S8192x2, .f32⟩
  | 59 => ⟨S8192x2, .f32⟩
  | 60 => ⟨S_, .f32⟩
  | 61 => ⟨S8192, .f32⟩
  | 62 => ⟨S8192x1, .f32⟩
  | 63 => ⟨S8192x1024, .f32⟩
  | 64 => ⟨S8192x1024, .f32⟩
  | 65 => ⟨S8192x1024, .f32⟩
  | 66 => ⟨S1x1024x4096, .f32⟩
  | 67 => ⟨S1024x4096, .f32⟩
  | 68 => ⟨S8192x4096, .f32⟩
  | 69 => ⟨S8192x2048, .f32⟩
  | 70 => ⟨S8192x2048, .f32⟩
  | 71 => ⟨S8192x2048, .f32⟩
  | 72 => ⟨S8192x2048, .f32⟩
  | 73 => ⟨S_, .f32⟩
  | 74 => ⟨S8192x2048, .f32⟩
  | 75 => ⟨S8192x2048, .f32⟩
  | 76 => ⟨S_, .f32⟩
  | 77 => ⟨S8192x2048, .f32⟩
  | 78 => ⟨S8192x2048, .f32⟩
  | 79 => ⟨S8192x2048, .f32⟩
  | 80 => ⟨S8192x2048, .f32⟩
  | 81 => ⟨S1x2048x1024, .f32⟩
  | 82 => ⟨S2048x1024, .f32⟩
  | 83 => ⟨S8192x1024, .f32⟩
  | 84 => ⟨S_, .i32⟩
  | 85 => ⟨S8192x2, .i32⟩
  | 86 => ⟨S8192x2, .i1⟩
  | 87 => ⟨S8192x2, .f32⟩
  | 88 => ⟨S8192x2, .f32⟩
  | 89 => ⟨S_, .f32⟩
  | 90 => ⟨S8192, .f32⟩
  | 91 => ⟨S8192x1, .f32⟩
  | 92 => ⟨S8192x1024, .f32⟩
  | 93 => ⟨S8192x1024, .f32⟩
  | 94 => ⟨S8192x1024, .f32⟩
  | 95 => ⟨S1x1024x4096, .f32⟩
  | 96 => ⟨S1024x4096, .f32⟩
  | 97 => ⟨S8192x4096, .f32⟩
  | 98 => ⟨S8192x2048, .f32⟩
  | 99 => ⟨S8192x2048, .f32⟩
  | 100 => ⟨S8192x2048, .f32⟩
  | 101 => ⟨S8192x2048, .f32⟩
  | 102 => ⟨S_, .f32⟩
  | 103 => ⟨S8192x2048, .f32⟩
  | 104 => ⟨S8192x2048, .f32⟩
  | 105 => ⟨S_, .f32⟩
  | 106 => ⟨S8192x2048, .f32⟩
  | 107 => ⟨S8192x2048, .f32⟩
  | 108 => ⟨S8192x2048, .f32⟩
  | 109 => ⟨S8192x2048, .f32⟩
  | 110 => ⟨S1x2048x1024, .f32⟩
  | 111 => ⟨S2048x1024, .f32⟩
  | 112 => ⟨S8192x1024, .f32⟩
  | 113 => ⟨S_, .i32⟩
  | 114 => ⟨S8192x2, .i32⟩
  | 115 => ⟨S8192x2, .i1⟩
  | 116 => ⟨S8192x2, .f32⟩
  | 117 => ⟨S8192x2, .f32⟩
  | 118 => ⟨S_, .f32⟩
  | 119 => ⟨S8192, .f32⟩
  | 120 => ⟨S8192x1, .f32⟩
  | 121 => ⟨S8192x1024, .f32⟩
  | 122 => ⟨S8192x1024, .f32⟩
  | 123 => ⟨S8192x1024, .f32⟩
  | 124 => ⟨S1x1024x4096, .f32⟩
  | 125 => ⟨S1024x4096, .f32⟩
  | 126 => ⟨S8192x4096, .f32⟩
  | 127 => ⟨S8192x2048, .f32⟩
  | _ => ⟨S2x4096x1024, .f32⟩

abbrev hbmTy0_1 (i : Nat) : BufTy := match i % 128 with
  | 0 => ⟨S8192x2048, .f32⟩
  | 1 => ⟨S8192x2048, .f32⟩
  | 2 => ⟨S8192x2048, .f32⟩
  | 3 => ⟨S_, .f32⟩
  | 4 => ⟨S8192x2048, .f32⟩
  | 5 => ⟨S8192x2048, .f32⟩
  | 6 => ⟨S_, .f32⟩
  | 7 => ⟨S8192x2048, .f32⟩
  | 8 => ⟨S8192x2048, .f32⟩
  | 9 => ⟨S8192x2048, .f32⟩
  | 10 => ⟨S8192x2048, .f32⟩
  | 11 => ⟨S1x2048x1024, .f32⟩
  | 12 => ⟨S2048x1024, .f32⟩
  | 13 => ⟨S8192x1024, .f32⟩
  | 14 => ⟨S_, .i32⟩
  | 15 => ⟨S8192x2, .i32⟩
  | 16 => ⟨S8192x2, .i1⟩
  | 17 => ⟨S8192x2, .f32⟩
  | 18 => ⟨S8192x2, .f32⟩
  | 19 => ⟨S_, .f32⟩
  | 20 => ⟨S8192, .f32⟩
  | 21 => ⟨S8192x1, .f32⟩
  | 22 => ⟨S8192x1024, .f32⟩
  | 23 => ⟨S8192x1024, .f32⟩
  | 24 => ⟨S8192x1024, .f32⟩
  | 25 => ⟨S1x1024x4096, .f32⟩
  | 26 => ⟨S1024x4096, .f32⟩
  | 27 => ⟨S8192x4096, .f32⟩
  | 28 => ⟨S8192x2048, .f32⟩
  | 29 => ⟨S8192x2048, .f32⟩
  | 30 => ⟨S8192x2048, .f32⟩
  | 31 => ⟨S8192x2048, .f32⟩
  | 32 => ⟨S_, .f32⟩
  | 33 => ⟨S8192x2048, .f32⟩
  | 34 => ⟨S8192x2048, .f32⟩
  | 35 => ⟨S_, .f32⟩
  | 36 => ⟨S8192x2048, .f32⟩
  | 37 => ⟨S8192x2048, .f32⟩
  | 38 => ⟨S8192x2048, .f32⟩
  | 39 => ⟨S8192x2048, .f32⟩
  | 40 => ⟨S1x2048x1024, .f32⟩
  | 41 => ⟨S2048x1024, .f32⟩
  | 42 => ⟨S8192x1024, .f32⟩
  | 43 => ⟨S_, .i32⟩
  | 44 => ⟨S8192x2, .i32⟩
  | 45 => ⟨S8192x2, .i1⟩
  | 46 => ⟨S8192x2, .f32⟩
  | 47 => ⟨S8192x2, .f32⟩
  | 48 => ⟨S_, .f32⟩
  | 49 => ⟨S8192, .f32⟩
  | 50 => ⟨S8192x1, .f32⟩
  | 51 => ⟨S8192x1024, .f32⟩
  | 52 => ⟨S8192x1024, .f32⟩
  | 53 => ⟨S8192x1024, .f32⟩
  | 54 => ⟨S1x1024x4096, .f32⟩
  | 55 => ⟨S1024x4096, .f32⟩
  | 56 => ⟨S8192x4096, .f32⟩
  | 57 => ⟨S8192x2048, .f32⟩
  | 58 => ⟨S8192x2048, .f32⟩
  | 59 => ⟨S8192x2048, .f32⟩
  | 60 => ⟨S8192x2048, .f32⟩
  | 61 => ⟨S_, .f32⟩
  | 62 => ⟨S8192x2048, .f32⟩
  | 63 => ⟨S8192x2048, .f32⟩
  | 64 => ⟨S_, .f32⟩
  | 65 => ⟨S8192x2048, .f32⟩
  | 66 => ⟨S8192x2048, .f32⟩
  | 67 => ⟨S8192x2048, .f32⟩
  | 68 => ⟨S8192x2048, .f32⟩
  | 69 => ⟨S1x2048x1024, .f32⟩
  | 70 => ⟨S2048x1024, .f32⟩
  | 71 => ⟨S8192x1024, .f32⟩
  | 72 => ⟨S_, .i32⟩
  | 73 => ⟨S8192x2, .i32⟩
  | 74 => ⟨S8192x2, .i1⟩
  | 75 => ⟨S8192x2, .f32⟩
  | 76 => ⟨S8192x2, .f32⟩
  | 77 => ⟨S_, .f32⟩
  | 78 => ⟨S8192, .f32⟩
  | 79 => ⟨S8192x1, .f32⟩
  | 80 => ⟨S8192x1024, .f32⟩
  | 81 => ⟨S8192x1024, .f32⟩
  | 82 => ⟨S8192x1024, .f32⟩
  | 83 => ⟨S1x1024x4096, .f32⟩
  | 84 => ⟨S1024x4096, .f32⟩
  | 85 => ⟨S8192x4096, .f32⟩
  | 86 => ⟨S8192x2048, .f32⟩
  | 87 => ⟨S8192x2048, .f32⟩
  | 88 => ⟨S8192x2048, .f32⟩
  | 89 => ⟨S8192x2048, .f32⟩
  | 90 => ⟨S_, .f32⟩
  | 91 => ⟨S8192x2048, .f32⟩
  | 92 => ⟨S8192x2048, .f32⟩
  | 93 => ⟨S_, .f32⟩
  | 94 => ⟨S8192x2048, .f32⟩
  | 95 => ⟨S8192x2048, .f32⟩
  | 96 => ⟨S8192x2048, .f32⟩
  | 97 => ⟨S8192x2048, .f32⟩
  | 98 => ⟨S1x2048x1024, .f32⟩
  | 99 => ⟨S2048x1024, .f32⟩
  | 100 => ⟨S8192x1024, .f32⟩
  | 101 => ⟨S_, .i32⟩
  | 102 => ⟨S8192x2, .i32⟩
  | 103 => ⟨S8192x2, .i1⟩
  | 104 => ⟨S8192x2, .f32⟩
  | 105 => ⟨S8192x2, .f32⟩
  | 106 => ⟨S_, .f32⟩
  | 107 => ⟨S8192, .f32⟩
  | 108 => ⟨S8192x1, .f32⟩
  | 109 => ⟨S8192x1024, .f32⟩
  | 110 => ⟨S8192x1024, .f32⟩
  | 111 => ⟨S8192x1024, .f32⟩
  | 112 => ⟨S2x4096x1024, .f32⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_1 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_2 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_call2_v0 : Ref sig .tc := ⟨.hbm, 71, rfl⟩
abbrev main_call2_v1 : Ref sig .tc := ⟨.hbm, 72, rfl⟩
abbrev main_call2_cst : Ref sig .tc := ⟨.hbm, 73, rfl⟩
abbrev main_call2_v2 : Ref sig .tc := ⟨.hbm, 74, rfl⟩
abbrev main_call2_v3 : Ref sig .tc := ⟨.hbm, 75, rfl⟩
abbrev main_call2_cst_0 : Ref sig .tc := ⟨.hbm, 76, rfl⟩
abbrev main_call2_v4 : Ref sig .tc := ⟨.hbm, 77, rfl⟩
abbrev main_call2_v5 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_c_3 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_4 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_call3_v0 : Ref sig .tc := ⟨.hbm, 100, rfl⟩
abbrev main_call3_v1 : Ref sig .tc := ⟨.hbm, 101, rfl⟩
abbrev main_call3_cst : Ref sig .tc := ⟨.hbm, 102, rfl⟩
abbrev main_call3_v2 : Ref sig .tc := ⟨.hbm, 103, rfl⟩
abbrev main_call3_v3 : Ref sig .tc := ⟨.hbm, 104, rfl⟩
abbrev main_call3_cst_0 : Ref sig .tc := ⟨.hbm, 105, rfl⟩
abbrev main_call3_v4 : Ref sig .tc := ⟨.hbm, 106, rfl⟩
abbrev main_call3_v5 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_c_5 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_cst_6 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_call4_v0 : Ref sig .tc := ⟨.hbm, 129, rfl⟩
abbrev main_call4_v1 : Ref sig .tc := ⟨.hbm, 130, rfl⟩
abbrev main_call4_cst : Ref sig .tc := ⟨.hbm, 131, rfl⟩
abbrev main_call4_v2 : Ref sig .tc := ⟨.hbm, 132, rfl⟩
abbrev main_call4_v3 : Ref sig .tc := ⟨.hbm, 133, rfl⟩
abbrev main_call4_cst_0 : Ref sig .tc := ⟨.hbm, 134, rfl⟩
abbrev main_call4_v4 : Ref sig .tc := ⟨.hbm, 135, rfl⟩
abbrev main_call4_v5 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_c_7 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_cst_8 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_call5_v0 : Ref sig .tc := ⟨.hbm, 158, rfl⟩
abbrev main_call5_v1 : Ref sig .tc := ⟨.hbm, 159, rfl⟩
abbrev main_call5_cst : Ref sig .tc := ⟨.hbm, 160, rfl⟩
abbrev main_call5_v2 : Ref sig .tc := ⟨.hbm, 161, rfl⟩
abbrev main_call5_v3 : Ref sig .tc := ⟨.hbm, 162, rfl⟩
abbrev main_call5_cst_0 : Ref sig .tc := ⟨.hbm, 163, rfl⟩
abbrev main_call5_v4 : Ref sig .tc := ⟨.hbm, 164, rfl⟩
abbrev main_call5_v5 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_c_9 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_cst_10 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_call6_v0 : Ref sig .tc := ⟨.hbm, 187, rfl⟩
abbrev main_call6_v1 : Ref sig .tc := ⟨.hbm, 188, rfl⟩
abbrev main_call6_cst : Ref sig .tc := ⟨.hbm, 189, rfl⟩
abbrev main_call6_v2 : Ref sig .tc := ⟨.hbm, 190, rfl⟩
abbrev main_call6_v3 : Ref sig .tc := ⟨.hbm, 191, rfl⟩
abbrev main_call6_cst_0 : Ref sig .tc := ⟨.hbm, 192, rfl⟩
abbrev main_call6_v4 : Ref sig .tc := ⟨.hbm, 193, rfl⟩
abbrev main_call6_v5 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_c_11 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_cst_12 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_call7_v0 : Ref sig .tc := ⟨.hbm, 216, rfl⟩
abbrev main_call7_v1 : Ref sig .tc := ⟨.hbm, 217, rfl⟩
abbrev main_call7_cst : Ref sig .tc := ⟨.hbm, 218, rfl⟩
abbrev main_call7_v2 : Ref sig .tc := ⟨.hbm, 219, rfl⟩
abbrev main_call7_v3 : Ref sig .tc := ⟨.hbm, 220, rfl⟩
abbrev main_call7_cst_0 : Ref sig .tc := ⟨.hbm, 221, rfl⟩
abbrev main_call7_v4 : Ref sig .tc := ⟨.hbm, 222, rfl⟩
abbrev main_call7_v5 : Ref sig .tc := ⟨.hbm, 223, rfl⟩
abbrev main_v140 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_c_13 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_cst_14 : Ref sig .tc := ⟨.hbm, 234, rfl⟩
abbrev main_v149 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩

abbrev nD : Nat := 1
abbrev τ : Topo := Topo.v7x

variable {F : FTy → Type} [FloatOps F]

class Facts₀ : Prop where
  shapeCasts_S2x4096x1024_S8192x1024 : S2x4096x1024.ShapeCasts S8192x1024
  bcast_S_S8192x1024 : S_.BroadcastsInDim S8192x1024 (![] : Fin 0 → Fin S8192x1024.rank)
  slices_S8x1024x4096_S1x1024x4096_0_0_0 : S8x1024x4096.Slices ![0, 0, 0] S1x1024x4096
  shapeCasts_S1x1024x4096_S1024x4096 : S1x1024x4096.ShapeCasts S1024x4096
  slices_S8192x4096_S8192x2048_0_0 : S8192x4096.Slices ![0, 0] S8192x2048
  slices_S8192x4096_S8192x2048_0_2048 : S8192x4096.Slices ![0, 2048] S8192x2048
  bcast_S_S8192x2048 : S_.BroadcastsInDim S8192x2048 (![] : Fin 0 → Fin S8192x2048.rank)
  slices_S8x2048x1024_S1x2048x1024_0_0_0 : S8x2048x1024.Slices ![0, 0, 0] S1x2048x1024
  shapeCasts_S1x2048x1024_S2048x1024 : S1x2048x1024.ShapeCasts S2048x1024
  bcast_S_S8192x2 : S_.BroadcastsInDim S8192x2 (![] : Fin 0 → Fin S8192x2.rank)
  reducesTo_S8192x2_S8192_d1 : S8192x2.ReducesTo [1] S8192
  h_S_ : 0 < S_.numel
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  slices_S8x1024x4096_S1x1024x4096_1_0_0 : S8x1024x4096.Slices ![1, 0, 0] S1x1024x4096
  slices_S8x2048x1024_S1x2048x1024_1_0_0 : S8x2048x1024.Slices ![1, 0, 0] S1x2048x1024
  slices_S8x1024x4096_S1x1024x4096_2_0_0 : S8x1024x4096.Slices ![2, 0, 0] S1x1024x4096
  slices_S8x2048x1024_S1x2048x1024_2_0_0 : S8x2048x1024.Slices ![2, 0, 0] S1x2048x1024
  slices_S8x1024x4096_S1x1024x4096_3_0_0 : S8x1024x4096.Slices ![3, 0, 0] S1x1024x4096
  slices_S8x2048x1024_S1x2048x1024_3_0_0 : S8x2048x1024.Slices ![3, 0, 0] S1x2048x1024
  slices_S8x1024x4096_S1x1024x4096_4_0_0 : S8x1024x4096.Slices ![4, 0, 0] S1x1024x4096
  slices_S8x2048x1024_S1x2048x1024_4_0_0 : S8x2048x1024.Slices ![4, 0, 0] S1x2048x1024
  slices_S8x1024x4096_S1x1024x4096_5_0_0 : S8x1024x4096.Slices ![5, 0, 0] S1x1024x4096
  slices_S8x2048x1024_S1x2048x1024_5_0_0 : S8x2048x1024.Slices ![5, 0, 0] S1x2048x1024
  slices_S8x1024x4096_S1x1024x4096_6_0_0 : S8x1024x4096.Slices ![6, 0, 0] S1x1024x4096
  slices_S8x2048x1024_S1x2048x1024_6_0_0 : S8x2048x1024.Slices ![6, 0, 0] S1x2048x1024
  slices_S8x1024x4096_S1x1024x4096_7_0_0 : S8x1024x4096.Slices ![7, 0, 0] S1x1024x4096
  slices_S8x2048x1024_S1x2048x1024_7_0_0 : S8x2048x1024.Slices ![7, 0, 0] S1x2048x1024
  shapeCasts_S8192x1024_S2x4096x1024 : S8192x1024.ShapeCasts S2x4096x1024
  dot_S8192x1024_S1024x4096_S8192x4096_1_0_0_1_n_n_wf : DotDims.WF S8192x1024 S1024x4096 S8192x4096 [1] [0] [0] [1] [] []
  dot_S8192x2048_S2048x1024_S8192x1024_1_0_0_1_n_n_wf : DotDims.WF S8192x2048 S2048x1024 S8192x1024 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf

class Facts : Prop extends Facts₀ where

variable [Facts]
-- ==== Proof.Spec.lean ====
/-
  The routed mixture of gated feed-forward experts, entry by entry, on the extended reals.

  Token `t` (a row of the flattened activations `X`, 8192 rows of 1024 entries) is sent through each of the
  eight experts.  Expert `e` multiplies the row by its first weight matrix (1024 × 4096); the upper half of the
  4096 products is the gate, the lower half the value: hidden entry `k` is `gate · logistic gate · value`.  The
  2048 hidden entries are multiplied by the expert's second weight matrix (2048 × 1024).  The result is scaled
  by the token's routing weight for that expert — the sum, over the token's two routing slots, of the slot's
  probability when the slot names this expert and of zero otherwise — and the eight scaled results are added in
  the order of the experts, starting from zero.
-/
import Idealize.ShloMosaic.PureOps.Ideal
import Idealize.ShloMosaic.Lib.ValueIdx

noncomputable section

namespace Cert.Moe

open Idealize.ShloMosaic Idealize.ShloMosaic.ValueIdx
open scoped BigOperators

/-- The flattened activations and the result: 8192 tokens of 1024 entries. -/
abbrev SX : Shape := ⟨2, ![8192, 1024]⟩
/-- The routing probabilities and the routing indices: two slots per token. -/
abbrev SP : Shape := ⟨2, ![8192, 2]⟩
/-- The experts' first weight matrices. -/
abbrev SW13 : Shape := ⟨3, ![8, 1024, 4096]⟩
/-- The experts' second weight matrices. -/
abbrev SW2 : Shape := ⟨3, ![8, 2048, 1024]⟩

/-- Column `k` of the value half of a first weight matrix. -/
def lowHalf (k : Fin 2048) : Fin 4096 := ⟨k.val, by have := k.isLt; omega⟩
/-- Column `k` of the gate half. -/
def highHalf (k : Fin 2048) : Fin 4096 := ⟨2048 + k.val, by have := k.isLt; omega⟩

section
variable (X : SX.Idx → EReal) (P : SP.Idx → EReal) (I : SP.Idx → BitVec 32) (W13 : SW13.Idx → EReal)
  (W2 : SW2.Idx → EReal)

/-- Token `t`'s row against column `j` of expert `e`'s first weight matrix. -/
def proj (e : Fin 8) (t : Fin 8192) (j : Fin 4096) : EReal := ∑ c : Fin 1024, X (ix2 t c) * W13 (ix3 e c j)

/-- Hidden entry `k`: the gate times its logistic, times the value. -/
def hidden (e : Fin 8) (t : Fin 8192) (k : Fin 2048) : EReal :=
  proj X W13 e t (highHalf k) * Ideal.logistic (proj X W13 e t (highHalf k)) * proj X W13 e t (lowHalf k)

/-- The hidden row against column `d` of the expert's second weight matrix. -/
def mixed (e : Fin 8) (t : Fin 8192) (d : Fin 1024) : EReal := ∑ k : Fin 2048, hidden X W13 e t k * W2 (ix3 e k d)

/-- Token `t`'s routing weight for expert `e`. -/
def weight (e : Fin 8) (t : Fin 8192) : EReal :=
  ∑ j : Fin 2, if I (ix2 t j) = BitVec.ofNat 32 e.val then P (ix2 t j) else 0

/-- Expert `e`'s contribution to entry `(t, d)`. -/
def term (e : Fin 8) (t : Fin 8192) (d : Fin 1024) : EReal := weight P I e t * mixed X W13 W2 e t d

/-- The same with the expert given as a natural number (zero past the last expert). -/
def termN (n : ℕ) (t : Fin 8192) (d : Fin 1024) : EReal :=
  if h : n < 8 then term X P I W13 W2 ⟨n, h⟩ t d else 0

/-- The first `n` contributions added in order, from zero. -/
def acc : ℕ → Fin 8192 → Fin 1024 → EReal
  | 0, _, _ => 0
  | n + 1, t, d => acc n t d + termN X P I W13 W2 n t d

/-- The result array: all eight contributions. -/
def out : SX.Idx → EReal := fun i => acc X P I W13 W2 8 (i 0) (i 1)

theorem termN_of_lt {n : ℕ} (h : n < 8) (t : Fin 8192) (d : Fin 1024) :
    termN X P I W13 W2 n t d = term X P I W13 W2 ⟨n, h⟩ t d := dif_pos h

theorem acc_zero (t : Fin 8192) (d : Fin 1024) : acc X P I W13 W2 0 t d = 0 := rfl

theorem acc_succ (n : ℕ) (t : Fin 8192) (d : Fin 1024) :
    acc X P I W13 W2 (n + 1) t d = acc X P I W13 W2 n t d + termN X P I W13 W2 n t d := rfl

/-- The eight contributions written out: the order in which a loop over the experts adds them. -/
theorem out_eq (i : SX.Idx) :
    out X P I W13 W2 i
      = 0 + term X P I W13 W2 0 (i 0) (i 1) + term X P I W13 W2 1 (i 0) (i 1) + term X P I W13 W2 2 (i 0) (i 1)
        + term X P I W13 W2 3 (i 0) (i 1) + term X P I W13 W2 4 (i 0) (i 1) + term X P I W13 W2 5 (i 0) (i 1)
        + term X P I W13 W2 6 (i 0) (i 1) + term X P I W13 W2 7 (i 0) (i 1) := by
  simp only [out, acc, termN]
  rfl

end

end Cert.Moe

end
-- ==== Proof.KBody.lean ====
/-
  What one step of the kernel leaves behind, as values.  At grid point (token tile, expert) the body
  multiplies the tile's 512 activation rows by the expert's weights, 256 hidden columns at a time, adds the
  eight partial products up from zero (`yeBlk`), scales row by row with the routing weight of the expert
  (`k0_pay11`) and adds the result to the running sum kept in the scratch buffer (`k0_pay1`).  The first expert
  starts the running sum from zero; the last one also copies it to the output block.
-/
import proofs.«121355_j88287347736701_1_alg».proof.Proof.Gen.KernelIdeal.Frame
import Idealize.ShloMosaic.Lib.Pipeline.Value
import Idealize.ShloMosaic.Lib.Tactic

noncomputable section

namespace Cert.Moe.K

open Idealize.ShloMosaic Idealize.ShloMosaic.TcCoe Idealize.SL.Sem Cert.KernelIdeal Cert.KernelIdeal.Gen Cert.KernelIdeal.Facts₀

variable {F : FTy → Type} [FloatOps F] [Cert.KernelIdeal.Facts]

theorem hz2 : (![0, 0] : Fin 2 → Nat) = fun _ => 0 := funext fun a => by fin_cases a <;> rfl

/-- The expert's feed-forward result for the tile: the eight partial products over 256 hidden columns each
    (value columns at `256·h`, gate columns at `2048 + 256·h` of the first weights, rows `256·h …` of the
    second weights), added up from zero in order. -/
def yeBlk (x0 : Vec F S512x1024 .bf16) (x3 : Vec F S1x1024x4096 .bf16) (x4 : Vec F S1x2048x1024 .bf16) :
    FVec F S512x1024 .f32 :=
  k0_pay10 (k0_pay3 x0)
    (k0_pay7 (k0_pay3 x0)
      (k0_pay6 (k0_pay3 x0)
        (k0_pay4 x0 (View.ld x3 (Rect.unit ![0, 0, 0] ![1, 1024, 256] Facts₀.inb_S1x1024x4096_S1x1024x256_0_0_0)) (View.ld x3 (Rect.unit ![0, 0, 2048] ![1, 1024, 256] Facts₀.inb_S1x1024x4096_S1x1024x256_0_0_2048)) (View.ld x4 (Rect.unit ![0, 0, 0] ![1, 256, 1024] Facts₀.inb_S1x2048x1024_S1x256x1024_0_0_0)))
        (k0_pay5 x0 (View.ld x3 (Rect.unit ![0, 0, 256] ![1, 1024, 256] Facts₀.inb_S1x1024x4096_S1x1024x256_0_0_256)) (View.ld x3 (Rect.unit ![0, 0, 2304] ![1, 1024, 256] Facts₀.inb_S1x1024x4096_S1x1024x256_0_0_2304)))
        (View.ld x4 (Rect.unit ![0, 256, 0] ![1, 256, 1024] Facts₀.inb_S1x2048x1024_S1x256x1024_0_256_0)) (View.ld x3 (Rect.unit ![0, 0, 512] ![1, 1024, 256] Facts₀.inb_S1x1024x4096_S1x1024x256_0_0_512)) (View.ld x3 (Rect.unit ![0, 0, 2560] ![1, 1024, 256] Facts₀.inb_S1x1024x4096_S1x1024x256_0_0_2560)) (View.ld x4 (Rect.unit ![0, 512, 0] ![1, 256, 1024] Facts₀.inb_S1x2048x1024_S1x256x1024_0_512_0)) (View.ld x3 (Rect.unit ![0, 0, 768] ![1, 1024, 256] Facts₀.inb_S1x1024x4096_S1x1024x256_0_0_768)) (View.ld x3 (Rect.unit ![0, 0, 2816] ![1, 1024, 256] Facts₀.inb_S1x1024x4096_S1x1024x256_0_0_2816)) (View.ld x4 (Rect.unit ![0, 768, 0] ![1, 256, 1024] Facts₀.inb_S1x2048x1024_S1x256x1024_0_768_0)))
      (View.ld x3 (Rect.unit ![0, 0, 1024] ![1, 1024, 256] Facts₀.inb_S1x1024x4096_S1x1024x256_0_0_1024)) (View.ld x3 (Rect.unit ![0, 0, 3072] ![1, 1024, 256] Facts₀.inb_S1x1024x4096_S1x1024x256_0_0_3072)) (View.ld x4 (Rect.unit ![0, 1024, 0] ![1, 256, 1024] Facts₀.inb_S1x2048x1024_S1x256x1024_0_1024_0)) (View.ld x3 (Rect.unit ![0, 0, 1280] ![1, 1024, 256] Facts₀.inb_S1x1024x4096_S1x1024x256_0_0_1280)) (View.ld x3 (Rect.unit ![0, 0, 3328] ![1, 1024, 256] Facts₀.inb_S1x1024x4096_S1x1024x256_0_0_3328)) (View.ld x4 (Rect.unit ![0, 1280, 0] ![1, 256, 1024] Facts₀.inb_S1x2048x1024_S1x256x1024_0_1280_0)))
    (k0_pay8 (View.ld x3 (Rect.unit ![0, 0, 1536] ![1, 1024, 256] Facts₀.inb_S1x1024x4096_S1x1024x256_0_0_1536))) (k0_pay9 (View.ld x3 (Rect.unit ![0, 0, 3584] ![1, 1024, 256] Facts₀.inb_S1x1024x4096_S1x1024x256_0_0_3584))) (View.ld x4 (Rect.unit ![0, 1536, 0] ![1, 256, 1024] Facts₀.inb_S1x2048x1024_S1x256x1024_0_1536_0)) (View.ld x3 (Rect.unit ![0, 0, 1792] ![1, 1024, 256] Facts₀.inb_S1x1024x4096_S1x1024x256_0_0_1792)) (View.ld x3 (Rect.unit ![0, 0, 3840] ![1, 1024, 256] Facts₀.inb_S1x1024x4096_S1x1024x256_0_0_3840)) (View.ld x4 (Rect.unit ![0, 1792, 0] ![1, 256, 1024] Facts₀.inb_S1x2048x1024_S1x256x1024_0_1792_0))

/-- A middle expert: the scratch ends at what it held plus the scaled feed-forward result. -/
theorem sout_B (c : Dev nD) (i : grid0.Coords) (arg2 : Memref sig .tc .vmem S512x1024 .bf16) (harg2 : arg2.IsWhole) (arg3 : Memref sig .tc .vmem S512x2 .i32) (harg3 : arg3.IsWhole) (arg4 : Memref sig .tc .vmem S512x2 .f32) (harg4 : arg4.IsWhole) (arg5 : Memref sig .tc .vmem S1x1024x4096 .bf16) (harg5 : arg5.IsWhole) (arg6 : Memref sig .tc .vmem S1x2048x1024 .bf16) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : ¬cond0_1 i)
    (x0 : Vec F S512x1024 .bf16) (x1 : Vec F S512x2 .i32) (x2 : Vec F S512x2 .f32) (x3 : Vec F S1x1024x4096 .bf16) (x4 : Vec F S1x2048x1024 .bf16) (xs0 : Vec F S512x1024 .f32) :
    sout0_B_0 c i arg2 harg2 arg3 harg3 arg4 harg4 arg5 harg5 arg6 harg6 arg7 harg7 arg8 harg8 hc0 hc1 x0 x1 x2 x3 x4 xs0 = k0_pay1 (yeBlk x0 x3 x4) xs0 (k0_pay11 (BitVec.ofNat 32 (i 1).val) x1 x2) := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz2]
  simp only [View.readAt_eq_ld, harg2.read_unread, harg3.read_unread, harg4.read_unread, harg5.read_unread, harg6.read_unread, harg8.read_unread,
    View.ld_unit_zero (S := S512x1024) hz2, View.ld_unit_zero (S := S512x2) hz2]
  rfl

/-- The last expert: the same in the scratch, -/
theorem sout_C (c : Dev nD) (i : grid0.Coords) (arg2 : Memref sig .tc .vmem S512x1024 .bf16) (harg2 : arg2.IsWhole) (arg3 : Memref sig .tc .vmem S512x2 .i32) (harg3 : arg3.IsWhole) (arg4 : Memref sig .tc .vmem S512x2 .f32) (harg4 : arg4.IsWhole) (arg5 : Memref sig .tc .vmem S1x1024x4096 .bf16) (harg5 : arg5.IsWhole) (arg6 : Memref sig .tc .vmem S1x2048x1024 .bf16) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i)
    (x0 : Vec F S512x1024 .bf16) (x1 : Vec F S512x2 .i32) (x2 : Vec F S512x2 .f32) (x3 : Vec F S1x1024x4096 .bf16) (x4 : Vec F S1x2048x1024 .bf16) (xs0 : Vec F S512x1024 .f32) :
    sout0_C_0 c i arg2 harg2 arg3 harg3 arg4 harg4 arg5 harg5 arg6 harg6 arg7 harg7 arg8 harg8 hc0 hc1 x0 x1 x2 x3 x4 xs0 = k0_pay1 (yeBlk x0 x3 x4) xs0 (k0_pay11 (BitVec.ofNat 32 (i 1).val) x1 x2) := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz2]
  simp only [View.readAt_eq_ld, harg2.read_unread, harg3.read_unread, harg4.read_unread, harg5.read_unread, harg6.read_unread, harg8.read_unread,
    View.ld_unit_zero (S := S512x1024) hz2, View.ld_unit_zero (S := S512x2) hz2]
  rfl

/-- and the output block receives a copy of it. -/
theorem out_C (c : Dev nD) (i : grid0.Coords) (arg2 : Memref sig .tc .vmem S512x1024 .bf16) (harg2 : arg2.IsWhole) (arg3 : Memref sig .tc .vmem S512x2 .i32) (harg3 : arg3.IsWhole) (arg4 : Memref sig .tc .vmem S512x2 .f32) (harg4 : arg4.IsWhole) (arg5 : Memref sig .tc .vmem S1x1024x4096 .bf16) (harg5 : arg5.IsWhole) (arg6 : Memref sig .tc .vmem S1x2048x1024 .bf16) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i)
    (x0 : Vec F S512x1024 .bf16) (x1 : Vec F S512x2 .i32) (x2 : Vec F S512x2 .f32) (x3 : Vec F S1x1024x4096 .bf16) (x4 : Vec F S1x2048x1024 .bf16) (xs0 : Vec F S512x1024 .f32) :
    out0_C_5 c i arg2 harg2 arg3 harg3 arg4 harg4 arg5 harg5 arg6 harg6 arg7 harg7 arg8 harg8 hc0 hc1 x0 x1 x2 x3 x4 xs0 = k0_pay1 (yeBlk x0 x3 x4) xs0 (k0_pay11 (BitVec.ofNat 32 (i 1).val) x1 x2) := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz2, View.readCov_unit_zero (S := S512x1024) _ hz2]
  simp only [View.readAt_eq_ld, harg2.read_unread, harg3.read_unread, harg4.read_unread, harg5.read_unread, harg6.read_unread, harg8.read_unread,
    View.ld_unit_zero (S := S512x1024) hz2, View.ld_unit_zero (S := S512x2) hz2]
  rfl

/-- The first expert: the scratch is zeroed first, so it ends at zero plus the scaled result. -/
theorem sout_A (c : Dev nD) (i : grid0.Coords) (arg2 : Memref sig .tc .vmem S512x1024 .bf16) (harg2 : arg2.IsWhole) (arg3 : Memref sig .tc .vmem S512x2 .i32) (harg3 : arg3.IsWhole) (arg4 : Memref sig .tc .vmem S512x2 .f32) (harg4 : arg4.IsWhole) (arg5 : Memref sig .tc .vmem S1x1024x4096 .bf16) (harg5 : arg5.IsWhole) (arg6 : Memref sig .tc .vmem S1x2048x1024 .bf16) (harg6 : arg6.IsWhole) (arg7 : Memref sig .tc .vmem S512x1024 .f32) (harg7 : arg7.IsWhole) (arg8 : Memref sig .tc .vmem S512x1024 .f32) (harg8 : arg8.IsWhole) (hc0 : cond0_0 i) (hc1 : ¬cond0_1 i)
    (x0 : Vec F S512x1024 .bf16) (x1 : Vec F S512x2 .i32) (x2 : Vec F S512x2 .f32) (x3 : Vec F S1x1024x4096 .bf16) (x4 : Vec F S1x2048x1024 .bf16) :
    sout0_A_0 c i arg2 harg2 arg3 harg3 arg4 harg4 arg5 harg5 arg6 harg6 arg7 harg7 arg8 harg8 hc0 hc1 x0 x1 x2 x3 x4 = k0_pay1 (yeBlk x0 x3 x4) (k0_pay2 (F := F)) (k0_pay11 (BitVec.ofNat 32 (i 1).val) x1 x2) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S512x1024) hz2, View.readCov_unit_zero (S := S512x1024) _ hz2]
  simp only [View.readAt_eq_ld, harg2.read_unread, harg3.read_unread, harg4.read_unread, harg5.read_unread, harg6.read_unread, harg8.read_unread,
    View.ld_unit_zero (S := S512x1024) hz2, View.ld_unit_zero (S := S512x2) hz2]
  rfl

end Cert.Moe.K

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.LibRowReduce.lean ====
/-
  Reductions along the rows of a matrix, at the ideal values: a reduction over axis 1 of an a × b array, read
  at row p. A maximum that starts from negative infinity is the supremum of the row's entries (the order of
  folding does not matter and the start is the least element); a sum that starts from zero is the sum of the
  row's entries. For any extents.
-/
import Idealize.ShloMosaic.PureOps.Ideal.Laws
import Idealize.ShloMosaic.Lib.ValueIdx

noncomputable section

namespace Cert.LibRowReduce

open Idealize.ShloMosaic Idealize.ShloMosaic.ValueIdx
open scoped BigOperators

/-- The f32 word of negative infinity denotes the least extended real. -/
theorem ofBits_neg_inf : Ideal.ofBits .f32 0xFF800000#32 = (⊥ : EReal) := by simp [Ideal.ofBits, Ideal.ieee]

/-- The coordinate inserted on axis 1 of a row index. -/
theorem lift_row {a b : Nat} (h : (⟨2, ![a, b]⟩ : Shape).Reduces [1] ⟨1, ![a]⟩) (p : Fin a) (k : Fin b) :
    h.lift (ix1 p) k = ix2 p k := by
  funext c; apply Fin.ext
  match c with
  | ⟨0, _⟩ => rfl
  | ⟨1, _⟩ => rfl

/-- The maximum of each row from negative infinity, at row p: the supremum over the columns. -/
theorem rowMax_apply {a b : Nat} (y : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ y 0xFF800000#32 h hφ hacc (ix1 p)
      = (Finset.univ : Finset (Fin b)).sup fun k => y (ix2 p k) := by
  refine (Ideal.multiReduction_maximumf_single y _ h hφ hacc (ix1 p)).trans ?_
  rw [show FloatOps.ofBits (F := Ideal) .f32 0xFF800000#32 = (⊥ : EReal) from ofBits_neg_inf]
  exact Finset.sup_congr rfl fun k _ => congrArg y (lift_row h p k)

/-- The sum of each row from zero, at row p: the sum over the columns. -/
theorem rowSum_apply {a b : Nat} (y : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ y 0x00000000#32 h hφ hacc (ix1 p)
      = ∑ k : Fin b, y (ix2 p k) := by
  refine (Ideal.multiReduction_add_single y _ h hφ hacc (ix1 p)).trans ?_
  exact Finset.sum_congr rfl fun k _ => congrArg y (lift_row h p k)

end Cert.LibRowReduce
-- ==== Proof.LibKeepdims.lean ====
/-
  A reduction over the last axis that keeps its dimension: the vector of row results, length a, is viewed as a
  column [a, 1] and the column is then spread over b columns, [a, 1] to [a, b]. Read at (p, c) the result is the
  row result of row p, whatever the column c. Stated for any element type and any extents.
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`:
    the row-major position of `(i, u)` in a one-column array is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a length-`a` vector as a column spread over `b` columns reads, at `(p, c)`, entry `p`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Idealize.ShloMosaic.ValueIdx
-- ==== Proof.LibSums.lean ====
import Idealize.ShloMosaic.Lib.ValueIdx

/-! # A sum taken tile by tile

A sum over `a · b` consecutive positions is the sum over `a` tiles of the sums over each tile's `b` positions; and a sum
whose terms vanish past position `n` is the sum of its first `n` terms. Stated for any commutative additive monoid. -/

namespace Cert.Sums

open scoped BigOperators

variable {M : Type} [AddCommMonoid M]

/-- Tile by tile: the sums over the tiles `k·b … k·b + b − 1`, `k < a`, add up to the sum over the first `a·b` positions. -/
theorem sum_tiles (a b : ℕ) (f : ℕ → M) :
    ∑ k ∈ Finset.range a, ∑ n : Fin b, f (k * b + n.val) = ∑ v ∈ Finset.range (a * b), f v := by
  induction a with
  | zero => simp
  | succ a ih =>
    rw [Finset.sum_range_succ, ih, Nat.succ_mul, Finset.sum_range_add]
    congr 1
    exact (Finset.sum_range (fun x => f (a * b + x))).symm

/-- Terms that vanish from position `n` on do not count. -/
theorem sum_range_of_tail_zero (n e : ℕ) (f : ℕ → M) (h : ∀ x, f (n + x) = 0) :
    ∑ v ∈ Finset.range (n + e), f v = ∑ v : Fin n, f v.val := by
  rw [Finset.sum_range_add, Finset.sum_range, Finset.sum_eq_zero (fun x _ => h x), add_zero]

end Cert.Sums
-- ==== Proof.KSub.lean ====
/-
  The kernel's arithmetic read entry by entry, on the extended reals.

  One partial product of the body handles 256 hidden columns: the tile's activation rows times 256 value
  columns and times 256 gate columns of the first weights (`gated`: gate · logistic gate · value), and that
  512 × 256 block times the matching 256 rows of the second weights (`tile`).  Entry (p, q) of a partial
  product is the sum over its 256 hidden columns; the eight of them, added up from zero, are the sum over all
  2048 hidden columns (`yeBlk_apply`).
-/
import proofs.«121355_j88287347736701_1_alg».proof.Proof.KBody
import proofs.«121355_j88287347736701_1_alg».proof.Proof.LibDot
import proofs.«121355_j88287347736701_1_alg».proof.Proof.LibRowReduce
import proofs.«121355_j88287347736701_1_alg».proof.Proof.LibKeepdims
import proofs.«121355_j88287347736701_1_alg».proof.Proof.LibSums
import Idealize.ShloMosaic.PureOps.Ideal.Laws
import Idealize.ShloMosaic.Lib.ValueIdx

noncomputable section

namespace Cert.Moe.K

open Idealize.ShloMosaic Idealize.ShloMosaic.TcCoe Idealize.ShloMosaic.ValueIdx Idealize.SL.Sem
open Cert.KernelIdeal Cert.KernelIdeal.Gen Cert.KernelIdeal.Facts₀
open scoped BigOperators

variable [Cert.KernelIdeal.Facts]

section AnyValues

variable {F : FTy → Type} [FloatOps F]

/-- Gate · logistic gate · value for 256 hidden columns: `wv` the value columns, `wg` the gate columns. -/
def gated (xb : FVec F S512x1024 .bf16) (wv wg : FVec F S1024x256 .bf16) : FVec F S512x256 .f32 :=
  mulf
    (mulf (matmul dot_S512x1024_S1024x256_S512x256_1_0_0_1_n_n none xb wg (constant S512x256 .f32 0x00000000#32))
      (logistic (matmul dot_S512x1024_S1024x256_S512x256_1_0_0_1_n_n none xb wg (constant S512x256 .f32 0x00000000#32))))
    (matmul dot_S512x1024_S1024x256_S512x256_1_0_0_1_n_n none xb wv (constant S512x256 .f32 0x00000000#32))

/-- A 512 × 256 hidden block times 256 rows of the second weights. -/
def tile (h : FVec F S512x256 .f32) (w2 : FVec F S256x1024 .bf16) : FVec F S512x1024 .f32 :=
  matmul dot_S512x256_S256x1024_S512x1024_1_0_0_1_n_n none (truncf .bf16 h Facts₀.bitsLt_bf16_f32) w2
    (constant S512x1024 .f32 0x00000000#32)

/-- 256 columns of the expert's first weights as a matrix. -/
abbrev cols (v : Vec F S1x1024x256 .bf16) : FVec F S1024x256 .bf16 :=
  shapeCast S1024x256 v Facts₀.shapeCasts_S1x1024x256_S1024x256
/-- 256 rows of its second weights as a matrix. -/
abbrev rows (v : Vec F S1x256x1024 .bf16) : FVec F S256x1024 .bf16 :=
  shapeCast S256x1024 v Facts₀.shapeCasts_S1x256x1024_S256x1024

/-- The partial product over the hidden columns `jv … jv + 255` (gate columns from `jg`, second-weight rows
    from `jr`). -/
def part (x0 : Vec F S512x1024 .bf16) (x3 : Vec F S1x1024x4096 .bf16) (x4 : Vec F S1x2048x1024 .bf16)
    (jv jg jr : ℕ) (iv : ∀ a, (![0, 0, jv] : Fin 3 → ℕ) a + S1x1024x256.size a ≤ S1x1024x4096.size a)
    (ig : ∀ a, (![0, 0, jg] : Fin 3 → ℕ) a + S1x1024x256.size a ≤ S1x1024x4096.size a)
    (ir : ∀ a, (![0, jr, 0] : Fin 3 → ℕ) a + S1x256x1024.size a ≤ S1x2048x1024.size a) : FVec F S512x1024 .f32 :=
  tile (gated (k0_pay3 x0) (cols (View.ld x3 (Rect.unit ![0, 0, jv] ![1, 1024, 256] iv)))
      (cols (View.ld x3 (Rect.unit ![0, 0, jg] ![1, 1024, 256] ig))))
    (rows (View.ld x4 (Rect.unit ![0, jr, 0] ![1, 256, 1024] ir)))

/-- The body's feed-forward result is the eight partial products added up from zero, in order. -/
theorem yeBlk_eq (x0 : Vec F S512x1024 .bf16) (x3 : Vec F S1x1024x4096 .bf16) (x4 : Vec F S1x2048x1024 .bf16) :
    yeBlk x0 x3 x4
      = addf (addf (addf (addf (addf (addf (addf (addf (broadcast S512x1024 (Scalar.ofBits .f32 0x00000000#32))
          (part x0 x3 x4 0 2048 0 Facts₀.inb_S1x1024x4096_S1x1024x256_0_0_0 Facts₀.inb_S1x1024x4096_S1x1024x256_0_0_2048 Facts₀.inb_S1x2048x1024_S1x256x1024_0_0_0))
          (part x0 x3 x4 256 2304 256 Facts₀.inb_S1x1024x4096_S1x1024x256_0_0_256 Facts₀.inb_S1x1024x4096_S1x1024x256_0_0_2304 Facts₀.inb_S1x2048x1024_S1x256x1024_0_256_0))
          (part x0 x3 x4 512 2560 512 Facts₀.inb_S1x1024x4096_S1x1024x256_0_0_512 Facts₀.inb_S1x1024x4096_S1x1024x256_0_0_2560 Facts₀.inb_S1x2048x1024_S1x256x1024_0_512_0))
          (part x0 x3 x4 768 2816 768 Facts₀.inb_S1x1024x4096_S1x1024x256_0_0_768 Facts₀.inb_S1x1024x4096_S1x1024x256_0_0_2816 Facts₀.inb_S1x2048x1024_S1x256x1024_0_768_0))
          (part x0 x3 x4 1024 3072 1024 Facts₀.inb_S1x1024x4096_S1x1024x256_0_0_1024 Facts₀.inb_S1x1024x4096_S1x1024x256_0_0_3072 Facts₀.inb_S1x2048x1024_S1x256x1024_0_1024_0))
          (part x0 x3 x4 1280 3328 1280 Facts₀.inb_S1x1024x4096_S1x1024x256_0_0_1280 Facts₀.inb_S1x1024x4096_S1x1024x256_0_0_3328 Facts₀.inb_S1x2048x1024_S1x256x1024_0_1280_0))
          (part x0 x3 x4 1536 3584 1536 Facts₀.inb_S1x1024x4096_S1x1024x256_0_0_1536 Facts₀.inb_S1x1024x4096_S1x1024x256_0_0_3584 Facts₀.inb_S1x2048x1024_S1x256x1024_0_1536_0))
          (part x0 x3 x4 1792 3840 1792 Facts₀.inb_S1x1024x4096_S1x1024x256_0_0_1792 Facts₀.inb_S1x1024x4096_S1x1024x256_0_0_3840 Facts₀.inb_S1x2048x1024_S1x256x1024_0_1792_0) := rfl

end AnyValues

section AtIdeal

/-- A hidden entry of the block: gate · logistic gate · value, each the row of the tile against a column. -/
theorem gated_apply (xb : FVec Ideal S512x1024 .bf16) (wv wg : FVec Ideal S1024x256 .bf16) (p : Fin 512) (n : Fin 256) :
    gated xb wv wg (ix2 p n)
      = (∑ c : Fin 1024, xb (ix2 p c) * wg (ix2 c n)) * Ideal.logistic (∑ c : Fin 1024, xb (ix2 p c) * wg (ix2 c n))
        * (∑ c : Fin 1024, xb (ix2 p c) * wv (ix2 c n)) := by
  have eg : matmul dot_S512x1024_S1024x256_S512x256_1_0_0_1_n_n none xb wg (constant S512x256 .f32 0x00000000#32) (ix2 p n)
      = ∑ c : Fin 1024, xb (ix2 p c) * wg (ix2 c n) :=
    Cert.LibDot.matmul_zero_apply Facts₀.dot_S512x1024_S1024x256_S512x256_1_0_0_1_n_n_wf none xb wg p n
  have ev : matmul dot_S512x1024_S1024x256_S512x256_1_0_0_1_n_n none xb wv (constant S512x256 .f32 0x00000000#32) (ix2 p n)
      = ∑ c : Fin 1024, xb (ix2 p c) * wv (ix2 c n) :=
    Cert.LibDot.matmul_zero_apply Facts₀.dot_S512x1024_S1024x256_S512x256_1_0_0_1_n_n_wf none xb wv p n
  show matmul dot_S512x1024_S1024x256_S512x256_1_0_0_1_n_n none xb wg (constant S512x256 .f32 0x00000000#32) (ix2 p n)
      * Ideal.logistic (matmul dot_S512x1024_S1024x256_S512x256_1_0_0_1_n_n none xb wg (constant S512x256 .f32 0x00000000#32) (ix2 p n))
      * matmul dot_S512x1024_S1024x256_S512x256_1_0_0_1_n_n none xb wv (constant S512x256 .f32 0x00000000#32) (ix2 p n) = _
  rw [eg, ev]

/-- An entry of a partial product: the hidden row against a column of the second weights' rows. -/
theorem tile_apply (h : FVec Ideal S512x256 .f32) (w2 : FVec Ideal S256x1024 .bf16) (p : Fin 512) (q : Fin 1024) :
    tile h w2 (ix2 p q) = ∑ n : Fin 256, h (ix2 p n) * w2 (ix2 n q) :=
  Cert.LibDot.matmul_zero_apply Facts₀.dot_S512x256_S256x1024_S512x1024_1_0_0_1_n_n_wf none
    (truncf .bf16 h Facts₀.bitsLt_bf16_f32) w2 p q

/-- Column `j + n` of the expert's first weights, read through the 256-column load at `j`. -/
theorem cols_ld (x3 : Vec Ideal S1x1024x4096 .bf16) (j : ℕ)
    (inb : ∀ a, (![0, 0, j] : Fin 3 → ℕ) a + S1x1024x256.size a ≤ S1x1024x4096.size a) (c : Fin 1024) (n : Fin 256)
    (hj : j + n.val < 4096) :
    cols (View.ld x3 (Rect.unit ![0, 0, j] ![1, 1024, 256] inb)) (ix2 c n) = x3 (ix3 (0 : Fin 1) c ⟨j + n.val, hj⟩) := by
  refine (shapeCast_dropUnit_apply ![1024, 256] _ _ (ix2 c n)).trans ?_
  show x3 _ = x3 _
  congr 1
  funext a
  apply Fin.ext
  match a with
  | ⟨0, _⟩ => rfl
  | ⟨1, _⟩ => show 0 + 1 * c.val = c.val; omega
  | ⟨2, _⟩ => show j + 1 * n.val = j + n.val; omega

/-- Row `j + n` of its second weights, read through the 256-row load at `j`. -/
theorem rows_ld (x4 : Vec Ideal S1x2048x1024 .bf16) (j : ℕ)
    (inb : ∀ a, (![0, j, 0] : Fin 3 → ℕ) a + S1x256x1024.size a ≤ S1x2048x1024.size a) (n : Fin 256) (q : Fin 1024)
    (hj : j + n.val < 2048) :
    rows (View.ld x4 (Rect.unit ![0, j, 0] ![1, 256, 1024] inb)) (ix2 n q) = x4 (ix3 (0 : Fin 1) ⟨j + n.val, hj⟩ q) := by
  refine (shapeCast_dropUnit_apply ![256, 1024] _ _ (ix2 n q)).trans ?_
  show x4 _ = x4 _
  congr 1
  funext a
  apply Fin.ext
  match a with
  | ⟨0, _⟩ => rfl
  | ⟨1, _⟩ => show j + 1 * n.val = j + n.val; omega
  | ⟨2, _⟩ => show 0 + 1 * q.val = q.val; omega

end AtIdeal

end Cert.Moe.K

end
-- ==== Proof.KSum.lean ====
/-
  The kernel's feed-forward result and its scaling, entry by entry: the eight partial products are the sum over
  all 2048 hidden columns; the last step adds the routing weight times that sum to what the scratch held.
-/
import proofs.«121355_j88287347736701_1_alg».proof.Proof.KSub

noncomputable section

namespace Cert.Moe.K

open Idealize.ShloMosaic Idealize.ShloMosaic.TcCoe Idealize.ShloMosaic.ValueIdx Idealize.SL.Sem
open Cert.KernelIdeal Cert.KernelIdeal.Gen Cert.KernelIdeal.Facts₀
open scoped BigOperators

variable [Cert.KernelIdeal.Facts]

section Sums

/-- Hidden entry `k` of row `p` of the tile, from the block's activations and the expert's first weights. -/
def hidB (x0 : Vec Ideal S512x1024 .bf16) (x3 : Vec Ideal S1x1024x4096 .bf16) (p : Fin 512) (k : Fin 2048) : EReal :=
  (∑ c : Fin 1024, x0 (ix2 p c) * x3 (ix3 (0 : Fin 1) c ⟨2048 + k.val, by have := k.isLt; omega⟩))
    * Ideal.logistic (∑ c : Fin 1024, x0 (ix2 p c) * x3 (ix3 (0 : Fin 1) c ⟨2048 + k.val, by have := k.isLt; omega⟩))
    * (∑ c : Fin 1024, x0 (ix2 p c) * x3 (ix3 (0 : Fin 1) c ⟨k.val, by have := k.isLt; omega⟩))

/-- Hidden column `v`'s share of entry `(p, q)` (zero past the last hidden column). -/
def phi (x0 : Vec Ideal S512x1024 .bf16) (x3 : Vec Ideal S1x1024x4096 .bf16) (x4 : Vec Ideal S1x2048x1024 .bf16)
    (p : Fin 512) (q : Fin 1024) (v : ℕ) : EReal :=
  if hv : v < 2048 then hidB x0 x3 p ⟨v, hv⟩ * x4 (ix3 (0 : Fin 1) ⟨v, hv⟩ q) else 0

/-- An entry of the partial product over the hidden columns `jv … jv + 255`. -/
theorem part_apply (x0 : Vec Ideal S512x1024 .bf16) (x3 : Vec Ideal S1x1024x4096 .bf16) (x4 : Vec Ideal S1x2048x1024 .bf16)
    (jv jg jr : ℕ) (iv ig ir) (hg : jg = 2048 + jv) (hr : jv = jr) (hb : jv + 256 ≤ 2048) (p : Fin 512) (q : Fin 1024) :
    part x0 x3 x4 jv jg jr iv ig ir (ix2 p q) = ∑ n : Fin 256, phi x0 x3 x4 p q (jv + n.val) := by
  subst hg hr
  unfold part
  rw [tile_apply]
  refine Finset.sum_congr rfl fun n _ => ?_
  have hn : n.val < 256 := n.isLt
  have hv : jv + n.val < 2048 := by omega
  rw [gated_apply, rows_ld x4 jv ir n q hv]
  unfold phi
  rw [dif_pos hv]
  unfold hidB
  have e1 : ∀ c : Fin 1024, cols (View.ld x3 (Rect.unit ![0, 0, 2048 + jv] ![1, 1024, 256] ig)) (ix2 c n)
      = x3 (ix3 (0 : Fin 1) c ⟨2048 + (jv + n.val), by omega⟩) := fun c =>
    (cols_ld x3 (2048 + jv) ig c n (by omega)).trans (congrArg x3 (congrArg (ix3 (0 : Fin 1) c) (Fin.ext (by show 2048 + jv + n.val = 2048 + (jv + n.val); omega))))
  have e2 : ∀ c : Fin 1024, cols (View.ld x3 (Rect.unit ![0, 0, jv] ![1, 1024, 256] iv)) (ix2 c n)
      = x3 (ix3 (0 : Fin 1) c ⟨jv + n.val, by omega⟩) := fun c => cols_ld x3 jv iv c n (by omega)
  have e0 : ∀ c : Fin 1024, k0_pay3 x0 (ix2 p c) = x0 (ix2 p c) := fun c => by
    unfold k0_pay3; rw [shapeCast_self]
  simp only [e0, e1, e2]

/-- THE FEED-FORWARD RESULT at an entry: the sum over all 2048 hidden columns. -/
theorem yeBlk_apply (x0 : Vec Ideal S512x1024 .bf16) (x3 : Vec Ideal S1x1024x4096 .bf16) (x4 : Vec Ideal S1x2048x1024 .bf16)
    (p : Fin 512) (q : Fin 1024) :
    yeBlk x0 x3 x4 (ix2 p q) = ∑ k : Fin 2048, phi x0 x3 x4 p q k.val := by
  rw [yeBlk_eq]
  simp only [addf_apply, broadcast_apply]
  rw [part_apply x0 x3 x4 0 2048 0 _ _ _ rfl rfl (by norm_num), part_apply x0 x3 x4 256 2304 256 _ _ _ rfl rfl (by norm_num),
    part_apply x0 x3 x4 512 2560 512 _ _ _ rfl rfl (by norm_num), part_apply x0 x3 x4 768 2816 768 _ _ _ rfl rfl (by norm_num),
    part_apply x0 x3 x4 1024 3072 1024 _ _ _ rfl rfl (by norm_num), part_apply x0 x3 x4 1280 3328 1280 _ _ _ rfl rfl (by norm_num),
    part_apply x0 x3 x4 1536 3584 1536 _ _ _ rfl rfl (by norm_num), part_apply x0 x3 x4 1792 3840 1792 _ _ _ rfl rfl (by norm_num)]
  rw [← Finset.sum_range (fun v => phi x0 x3 x4 p q v), show (2048 : ℕ) = 8 * 256 from rfl,
    ← Cert.Sums.sum_tiles 8 256 (fun v => phi x0 x3 x4 p q v)]
  simp only [Finset.sum_range_succ, Finset.sum_range_zero]
  show Ideal.ofBits .f32 0x00000000#32 + _ + _ + _ + _ + _ + _ + _ + _ = _
  rw [Ideal.ofBits_zero_f32]

end Sums

section Scaling

/-- The body's last step at an entry: what the scratch held plus the routing weight times the result. -/
theorem pay1_apply (v117 : FVec Ideal S512x1024 .f32) (v125 : Vec Ideal S512x1024 .f32) (v127 : FVec Ideal S512x1024 .f32)
    (i : S512x1024.Idx) : k0_pay1 v117 v125 v127 i = v125 i + v127 i * v117 i := by
  unfold k0_pay1
  rw [shapeCast_self]
  rfl

/-- The zero block. -/
theorem pay2_apply (i : S512x1024.Idx) : k0_pay2 (F := Ideal) i = 0 := by
  unfold k0_pay2
  rw [shapeCast_self]
  exact Ideal.ofBits_zero_f32

theorem select_cmpi_eq {α : Type} (x y : BitVec 32) (a b : α) :
    Scalar.select (IntOp.cmpi .eq x y) a b = if x = y then a else b := by
  unfold Scalar.select IntOp.cmpi
  by_cases h : x = y
  · subst h; simp
  · have hb : (x == y) = false := by simpa using h
    simp [hb, h]

/-- The routing weight of expert `e` for row `p`, spread over the row: over the two slots, the probability where
    the slot names `e`, zero elsewhere. -/
theorem pay11_apply (e : BitVec 32) (x1 : Vec Ideal S512x2 .i32) (x2 : Vec Ideal S512x2 .f32) (p : Fin 512) (q : Fin 1024) :
    k0_pay11 e x1 x2 (ix2 p q) = ∑ j : Fin 2, if x1 (ix2 p j) = e then x2 (ix2 p j) else 0 := by
  unfold k0_pay11
  rw [broadcastTo_shapeCast_column_apply]
  refine (Cert.LibRowReduce.rowSum_apply _ _ _ _ p).trans ?_
  refine Finset.sum_congr rfl fun j _ => ?_
  show Scalar.select (IntOp.cmpi .eq (x1 (ix2 p j)) e) (x2 (ix2 p j)) (Ideal.ofBits .f32 0x00000000#32) = _
  rw [select_cmpi_eq, Ideal.ofBits_zero_f32]

end Scaling

end Cert.Moe.K

end
-- ==== Proof.KBlocks.lean ====
/-
  The blocks the kernel's windows hand to the body, as entries of the whole arrays.  At grid point `t` the token
  tile is `t / 8` and the expert `t % 8`: the activations', routing probabilities' and routing indices' blocks
  are rows `512 · (t / 8) …` of their arrays, the weights' blocks are the expert's two matrices.  The arrays the
  region finds are the arguments themselves, the activations flattened to 8192 rows (the changes of float
  format before the region are the identity on the extended reals).
-/
import proofs.«121355_j88287347736701_1_alg».proof.Proof.Gen.KernelIdeal.Frame
import Idealize.ShloMosaic.Lib.Pipeline.Value
import Idealize.ShloMosaic.Lib.ValueIdx

noncomputable section

namespace Cert.Moe.K

open Idealize.ShloMosaic Idealize.ShloMosaic.TcCoe Idealize.ShloMosaic.ValueIdx Idealize.SL.Sem
open Cert.KernelIdeal Cert.KernelIdeal.Gen Cert.KernelIdeal.Facts₀

variable (m : (ℓ : Loc nD τ sig) → Buf (Elt Ideal) ℓ)

/-- The activations flattened to 8192 tokens. -/
abbrev XF (c : Dev nD) : S8192x1024.Idx → EReal :=
  shapeCast S8192x1024 (m ((c : Thread nD τ).loc main_arg0)) Facts₀.shapeCasts_S2x4096x1024_S8192x1024

/-- The region finds the flattened activations, -/
theorem V_v1 (c : Dev nD) : (V m c main_v1 : S8192x1024.Idx → EReal) = XF m c := by
  show StableHlo.after hostOps0 (fun b => m (c, b)) (Proc.devRef .tc main_v1) = _
  after_results
  rfl

/-- the first weights, -/
theorem V_v2 (c : Dev nD) : (V m c main_v2 : S8x1024x4096.Idx → EReal) = m ((c : Thread nD τ).loc main_arg3) := by
  show StableHlo.after hostOps0 (fun b => m (c, b)) (Proc.devRef .tc main_v2) = _
  after_results
  rfl

/-- and the second weights. -/
theorem V_v3 (c : Dev nD) : (V m c main_v3 : S8x2048x1024.Idx → EReal) = m ((c : Thread nD τ).loc main_arg4) := by
  show StableHlo.after hostOps0 (fun b => m (c, b)) (Proc.devRef .tc main_v3) = _
  after_results
  rfl

/-- The windows' block indices at point `t`, decided over the grid: token tile `t / 8`, expert `t % 8`. -/
theorem idx_facts : ∀ t : Fin cfg0.N, win0_0.index t (0 : Fin 2) = t.val / 8 ∧ win0_0.index t (1 : Fin 2) = 0
    ∧ win0_1.index t (0 : Fin 2) = t.val / 8 ∧ win0_1.index t (1 : Fin 2) = 0
    ∧ win0_2.index t (0 : Fin 2) = t.val / 8 ∧ win0_2.index t (1 : Fin 2) = 0
    ∧ win0_3.index t (0 : Fin 3) = t.val % 8 ∧ win0_3.index t (1 : Fin 3) = 0 ∧ win0_3.index t (2 : Fin 3) = 0
    ∧ win0_4.index t (0 : Fin 3) = t.val % 8 ∧ win0_4.index t (1 : Fin 3) = 0 ∧ win0_4.index t (2 : Fin 3) = 0
    ∧ ((grid0.coords t) 1).val = t.val % 8 :=
  (by decide +kernel : ∀ t : Fin grid0.N, _)

/-- Row `p` of the activations' block is token `512 · (t / 8) + p`. -/
theorem iblk0_apply (c : Dev nD) (t : Fin cfg0.N) (p : Fin 512) (k : Fin 1024) (r : Fin 8192) (hr : r.val = 512 * (t.val / 8) + p.val) :
    (iblk m c 0 t : Vec Ideal S512x1024 .bf16) (ix2 p k) = XF m c (ix2 r k) := by
  obtain ⟨e0, e1, -⟩ := idx_facts t
  rw [← V_v1 m c]
  unfold iblk
  rw [View.read_apply]
  show V m c main_v1 _ = V m c main_v1 _
  congr 1
  funext a
  apply Fin.ext
  match a with
  | ⟨0, _⟩ => show win0_0.index t (0 : Fin 2) * 512 + 1 * p.val = r.val; rw [e0, hr]; omega
  | ⟨1, _⟩ => show win0_0.index t (1 : Fin 2) * 1024 + 1 * k.val = k.val; rw [e1]; omega

/-- The same for the routing indices -/
theorem iblk1_apply (c : Dev nD) (t : Fin cfg0.N) (p : Fin 512) (j : Fin 2) (r : Fin 8192) (hr : r.val = 512 * (t.val / 8) + p.val) :
    (iblk m c 1 t : Vec Ideal S512x2 .i32) (ix2 p j) = m ((c : Thread nD τ).loc main_arg2) (ix2 r j) := by
  obtain ⟨-, -, e0, e1, -⟩ := idx_facts t
  rw [← V_main_arg2 m c]
  unfold iblk
  rw [View.read_apply]
  show V m c main_arg2 _ = V m c main_arg2 _
  congr 1
  funext a
  apply Fin.ext
  match a with
  | ⟨0, _⟩ => show win0_1.index t (0 : Fin 2) * 512 + 1 * p.val = r.val; rw [e0, hr]; omega
  | ⟨1, _⟩ => show win0_1.index t (1 : Fin 2) * 2 + 1 * j.val = j.val; rw [e1]; omega

/-- and the routing probabilities. -/
theorem iblk2_apply (c : Dev nD) (t : Fin cfg0.N) (p : Fin 512) (j : Fin 2) (r : Fin 8192) (hr : r.val = 512 * (t.val / 8) + p.val) :
    (iblk m c 2 t : Vec Ideal S512x2 .f32) (ix2 p j) = m ((c : Thread nD τ).loc main_arg1) (ix2 r j) := by
  obtain ⟨-, -, -, -, e0, e1, -⟩ := idx_facts t
  rw [← V_main_arg1 m c]
  unfold iblk
  rw [View.read_apply]
  show V m c main_arg1 _ = V m c main_arg1 _
  congr 1
  funext a
  apply Fin.ext
  match a with
  | ⟨0, _⟩ => show win0_2.index t (0 : Fin 2) * 512 + 1 * p.val = r.val; rw [e0, hr]; omega
  | ⟨1, _⟩ => show win0_2.index t (1 : Fin 2) * 2 + 1 * j.val = j.val; rw [e1]; omega

/-- The first weights' block is expert `t % 8`'s matrix, -/
theorem iblk3_apply (c : Dev nD) (t : Fin cfg0.N) (k : Fin 1024) (j : Fin 4096) (e : Fin 8) (he : e.val = t.val % 8) :
    (iblk m c 3 t : Vec Ideal S1x1024x4096 .bf16) (ix3 (0 : Fin 1) k j) = m ((c : Thread nD τ).loc main_arg3) (ix3 e k j) := by
  obtain ⟨-, -, -, -, -, -, e0, e1, e2, -⟩ := idx_facts t
  rw [← V_v2 m c]
  unfold iblk
  rw [View.read_apply]
  show V m c main_v2 _ = V m c main_v2 _
  congr 1
  funext a
  apply Fin.ext
  match a with
  | ⟨0, _⟩ => show win0_3.index t (0 : Fin 3) * 1 + 1 * 0 = e.val; rw [e0, he]; omega
  | ⟨1, _⟩ => show win0_3.index t (1 : Fin 3) * 1024 + 1 * k.val = k.val; rw [e1]; omega
  | ⟨2, _⟩ => show win0_3.index t (2 : Fin 3) * 4096 + 1 * j.val = j.val; rw [e2]; omega

/-- and so is the second weights'. -/
theorem iblk4_apply (c : Dev nD) (t : Fin cfg0.N) (k : Fin 2048) (q : Fin 1024) (e : Fin 8) (he : e.val = t.val % 8) :
    (iblk m c 4 t : Vec Ideal S1x2048x1024 .bf16) (ix3 (0 : Fin 1) k q) = m ((c : Thread nD τ).loc main_arg4) (ix3 e k q) := by
  obtain ⟨-, -, -, -, -, -, -, -, -, e0, e1, e2, -⟩ := idx_facts t
  rw [← V_v3 m c]
  unfold iblk
  rw [View.read_apply]
  show V m c main_v3 _ = V m c main_v3 _
  congr 1
  funext a
  apply Fin.ext
  match a with
  | ⟨0, _⟩ => show win0_4.index t (0 : Fin 3) * 1 + 1 * 0 = e.val; rw [e0, he]; omega
  | ⟨1, _⟩ => show win0_4.index t (1 : Fin 3) * 2048 + 1 * k.val = k.val; rw [e1]; omega
  | ⟨2, _⟩ => show win0_4.index t (2 : Fin 3) * 1024 + 1 * q.val = q.val; rw [e2]; omega

end Cert.Moe.K

end
-- ==== Proof.KAcc.lean ====
/-
  The running sum across the experts.  Along a token tile the eight grid points (one per expert, in order) keep
  a running sum in the scratch buffer: after the point of expert `e` the scratch entry (p, q) holds the first
  `e + 1` contributions to token `512 · tile + p`, entry `q`, added in order from zero; the last point copies the
  scratch to the output block, which therefore holds all eight.
-/
import proofs.«121355_j88287347736701_1_alg».proof.Proof.Spec
import proofs.«121355_j88287347736701_1_alg».proof.Proof.KSum
import proofs.«121355_j88287347736701_1_alg».proof.Proof.KBlocks

noncomputable section

namespace Cert.Moe.K

open Idealize.ShloMosaic Idealize.ShloMosaic.TcCoe Idealize.ShloMosaic.ValueIdx Idealize.SL.Sem
open Cert.KernelIdeal Cert.KernelIdeal.Gen Cert.KernelIdeal.Facts₀
open scoped BigOperators

variable (m : (ℓ : Loc nD τ sig) → Buf (Elt Ideal) ℓ)

/-- Expert `n`'s contribution, of the arrays the program was launched with. -/
abbrev termG (c : Dev nD) : ℕ → Fin 8192 → Fin 1024 → EReal :=
  Cert.Moe.termN (XF m c) (m ((c : Thread nD τ).loc main_arg1)) (m ((c : Thread nD τ).loc main_arg2))
    (m ((c : Thread nD τ).loc main_arg3)) (m ((c : Thread nD τ).loc main_arg4))

/-- The first `n` contributions added in order. -/
abbrev accG (c : Dev nD) : ℕ → Fin 8192 → Fin 1024 → EReal :=
  Cert.Moe.acc (XF m c) (m ((c : Thread nD τ).loc main_arg1)) (m ((c : Thread nD τ).loc main_arg2))
    (m ((c : Thread nD τ).loc main_arg3)) (m ((c : Thread nD τ).loc main_arg4))

/-- What the body adds at point `t` — routing weight times feed-forward result of the point's blocks — is the
    contribution of expert `t % 8` to token `512 · (t / 8) + p`. -/
theorem step (c : Dev nD) (t : Fin cfg0.N) (p : Fin 512) (q : Fin 1024) (r : Fin 8192)
    (hr : r.val = 512 * (t.val / 8) + p.val) :
    k0_pay11 (BitVec.ofNat 32 ((grid0.coords t) 1).val) (iblk m c 1 t) (iblk m c 2 t) (ix2 p q)
        * yeBlk (iblk m c 0 t) (iblk m c 3 t) (iblk m c 4 t) (ix2 p q)
      = termG m c (t.val % 8) r q := by
  have he : t.val % 8 < 8 := Nat.mod_lt _ (by norm_num)
  have hcoord : ((grid0.coords t) 1).val = t.val % 8 := (idx_facts t).2.2.2.2.2.2.2.2.2.2.2.2
  show _ = Cert.Moe.termN (XF m c) _ _ _ _ (t.val % 8) r q
  rw [Cert.Moe.termN_of_lt _ _ _ _ _ he]
  unfold Cert.Moe.term
  congr 1
  · rw [pay11_apply]
    unfold Cert.Moe.weight
    refine Finset.sum_congr rfl fun j _ => ?_
    rw [iblk1_apply m c t p j r hr, iblk2_apply m c t p j r hr, hcoord]
  · rw [yeBlk_apply]
    unfold Cert.Moe.mixed
    refine Finset.sum_congr rfl fun k _ => ?_
    obtain ⟨kv, hk⟩ := k
    unfold phi
    rw [dif_pos hk, iblk4_apply m c t ⟨kv, hk⟩ q ⟨t.val % 8, he⟩ rfl]
    refine congrArg (· * _) ?_
    unfold hidB Cert.Moe.hidden Cert.Moe.proj Cert.Moe.highHalf Cert.Moe.lowHalf
    simp only [iblk0_apply m c t p _ r hr, iblk3_apply m c t _ _ ⟨t.val % 8, he⟩ rfl]

/-- The scratch after a first-expert point: zero plus the contribution. -/
theorem scratch_A (c : Dev nD) (t : Fin cfg0.N) (h0 : t.val % 8 = 0) (h1 : ¬t.val % 8 = 7) :
    (outsAt0 m c t.val t.isLt).2
      = k0_pay1 (yeBlk (iblk m c 0 t) (iblk m c 3 t) (iblk m c 4 t)) (k0_pay2 (F := Ideal))
        (k0_pay11 (BitVec.ofNat 32 ((grid0.coords t) 1).val) (iblk m c 1 t) (iblk m c 2 t)) := by
  rw [outsAt0_A m c t h0 h1]
  dsimp only
  exact sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

/-- After a middle point: what the point before left plus the contribution. -/
theorem scratch_B (c : Dev nD) (t : Fin cfg0.N) (h0 : ¬t.val % 8 = 0) (h1 : ¬t.val % 8 = 7) :
    (outsAt0 m c t.val t.isLt).2
      = k0_pay1 (yeBlk (iblk m c 0 t) (iblk m c 3 t) (iblk m c 4 t)) (outsAt0 m c (t.val - 1) (Nat.lt_of_le_of_lt (Nat.sub_le _ _) t.isLt)).2
        (k0_pay11 (BitVec.ofNat 32 ((grid0.coords t) 1).val) (iblk m c 1 t) (iblk m c 2 t)) := by
  rw [outsAt0_B m c t h0 h1]
  dsimp only
  exact sout_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2

/-- After a last-expert point: the same, -/
theorem scratch_C (c : Dev nD) (t : Fin cfg0.N) (h0 : ¬t.val % 8 = 0) (h1 : t.val % 8 = 7) :
    (outsAt0 m c t.val t.isLt).2
      = k0_pay1 (yeBlk (iblk m c 0 t) (iblk m c 3 t) (iblk m c 4 t)) (outsAt0 m c (t.val - 1) (Nat.lt_of_le_of_lt (Nat.sub_le _ _) t.isLt)).2
        (k0_pay11 (BitVec.ofNat 32 ((grid0.coords t) 1).val) (iblk m c 1 t) (iblk m c 2 t)) := by
  rw [outsAt0_C m c t h0 h1]
  dsimp only
  exact sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2

/-- and the output block holds a copy. -/
theorem block_C (c : Dev nD) (t : Fin cfg0.N) (h0 : ¬t.val % 8 = 0) (h1 : t.val % 8 = 7) :
    (outsAt0 m c t.val t.isLt).1
      = k0_pay1 (yeBlk (iblk m c 0 t) (iblk m c 3 t) (iblk m c 4 t)) (outsAt0 m c (t.val - 1) (Nat.lt_of_le_of_lt (Nat.sub_le _ _) t.isLt)).2
        (k0_pay11 (BitVec.ofNat 32 ((grid0.coords t) 1).val) (iblk m c 1 t) (iblk m c 2 t)) := by
  rw [outsAt0_C m c t h0 h1]
  dsimp only
  exact out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2

/-- THE INVARIANT: after point `n` the scratch entry (p, q) is the first `n % 8 + 1` contributions to token
    `512 · (n / 8) + p`. -/
theorem scratch_at (c : Dev nD) : ∀ (n : ℕ) (h : n < cfg0.N) (p : Fin 512) (q : Fin 1024) (r : Fin 8192)
    (_ : r.val = 512 * (n / 8) + p.val) (k : ℕ) (_ : k = n % 8 + 1),
    (outsAt0 m c n h).2 (ix2 p q) = accG m c k r q
  | 0, h, p, q, r, hr, k, hk => by
    subst hk
    rw [scratch_A m c ⟨0, h⟩ rfl (by show ¬(0 % 8 = 7); decide), pay1_apply, pay2_apply, step m c ⟨0, h⟩ p q r hr]
    rfl
  | n + 1, h, p, q, r, hr, k, hk => by
    subst hk
    by_cases h0 : (n + 1) % 8 = 0
    · rw [scratch_A m c ⟨n + 1, h⟩ h0 (by show ¬((n + 1) % 8 = 7); omega), pay1_apply, pay2_apply, step m c ⟨n + 1, h⟩ p q r hr]
      show 0 + termG m c ((n + 1) % 8) r q = accG m c ((n + 1) % 8 + 1) r q
      rw [h0]
      rfl
    · have hprev : (outsAt0 m c n (Nat.lt_of_succ_lt h)).2 (ix2 p q) = accG m c ((n + 1) % 8) r q :=
        scratch_at c n (Nat.lt_of_succ_lt h) p q r (by rw [hr]; omega) ((n + 1) % 8) (by omega)
      by_cases h1 : (n + 1) % 8 = 7
      · rw [scratch_C m c ⟨n + 1, h⟩ h0 h1, pay1_apply, step m c ⟨n + 1, h⟩ p q r hr]
        show (outsAt0 m c n _).2 (ix2 p q) + termG m c ((n + 1) % 8) r q = accG m c ((n + 1) % 8 + 1) r q
        rw [hprev]
        rfl
      · rw [scratch_B m c ⟨n + 1, h⟩ h0 h1, pay1_apply, step m c ⟨n + 1, h⟩ p q r hr]
        show (outsAt0 m c n _).2 (ix2 p q) + termG m c ((n + 1) % 8) r q = accG m c ((n + 1) % 8 + 1) r q
        rw [hprev]
        rfl

/-- THE OUTPUT BLOCK at a last-expert point: all eight contributions — the result's entries for the tile's tokens. -/
theorem block_at (c : Dev nD) (t : Fin cfg0.N) (h7 : t.val % 8 = 7) (p : Fin 512) (q : Fin 1024)
    (hr : 512 * (t.val / 8) + p.val < 8192) :
    (outsAt0 m c t.val t.isLt).1 (ix2 p q)
      = Cert.Moe.out (XF m c) (m ((c : Thread nD τ).loc main_arg1)) (m ((c : Thread nD τ).loc main_arg2))
          (m ((c : Thread nD τ).loc main_arg3)) (m ((c : Thread nD τ).loc main_arg4))
          (ix2 ⟨512 * (t.val / 8) + p.val, hr⟩ q) := by
  have ht : 0 < t.val := by omega
  rw [block_C m c t (by omega) h7, pay1_apply, step m c t p q ⟨512 * (t.val / 8) + p.val, hr⟩ rfl,
    scratch_at m c (t.val - 1) _ p q ⟨512 * (t.val / 8) + p.val, hr⟩ (by show 512 * (t.val / 8) + p.val = 512 * ((t.val - 1) / 8) + p.val; omega) 7 (by omega), h7]
  rfl

end Cert.Moe.K

end
-- ==== Proof.KValue.lean ====
/-
  The kernel's result array, entry by entry.

  The one pipelined launch walks a 16 × 8 grid: token tile `t / 8`, expert `t % 8`.  Its output window is a
  512 × 1024 block of the 8192 × 1024 result, block row `t / 8`, and the block is written back only at the last
  expert of each tile (`t % 8 = 7`).  Given that at those points the staging buffer holds the routed mixture's
  rows `512 · (t / 8) …` (the hypothesis `hout`), every write-back stores a block of the mixture, the sixteen
  blocks tile the array, so the array ends as the mixture; the host reshape after the launch then gives the
  result in its [2, 4096, 1024] form, and the arguments are unchanged.
-/
import proofs.«121355_j88287347736701_1_alg».proof.Proof.Spec
import proofs.«121355_j88287347736701_1_alg».proof.Proof.Gen.KernelIdeal.Frame
import Idealize.ShloMosaic.Lib.Pipeline.Value
import Idealize.ShloMosaic.Lib.ValueIdx

set_option maxRecDepth 16384

noncomputable section

namespace Cert.Moe.K

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The activations flattened to 8192 tokens of 1024 entries. -/
abbrev flatX (c : Dev nD) : S8192x1024.Idx → EReal :=
  shapeCast S8192x1024 (m ((c : Thread nD τ).loc main_arg0)) Facts₀.shapeCasts_S2x4096x1024_S8192x1024

/-- The routed mixture of the experts over the argument arrays. -/
abbrev result (c : Dev nD) : S8192x1024.Idx → EReal :=
  Cert.Moe.out (flatX m c) (m ((c : Thread nD τ).loc main_arg1)) (m ((c : Thread nD τ).loc main_arg2))
    (m ((c : Thread nD τ).loc main_arg3)) (m ((c : Thread nD τ).loc main_arg4))

/-- The output window's block index at point `t`: block row `t / 8`, block column 0. -/
theorem w5_idx_facts : ∀ t : Fin cfg0.N, win0_5.index t (0 : Fin 2) = t.val / 8 ∧ win0_5.index t (1 : Fin 2) = 0 :=
  (by decide +kernel : ∀ t : Fin grid0.N, win0_5.index t (0 : Fin 2) = t.val / 8 ∧ win0_5.index t (1 : Fin 2) = 0)

/-- What a write-back stores: at a point of the last expert, the block of the routed mixture at block row `t / 8` —
    entry `(p, q)` of the block is entry `(512 · (t / 8) + p, q)` of the array. -/
theorem w5_flushed_eq
    (hout : ∀ (c : Dev nD) (t : Fin cfg0.N), t.val % 8 = 7 → ∀ (p : Fin 512) (q : Fin 1024)
      (hr : 512 * (t.val / 8) + p.val < 8192),
      (outsAt0 m c t.val t.isLt).1 (ValueIdx.ix2 p q) = result m c (ValueIdx.ix2 ⟨512 * (t.val / 8) + p.val, hr⟩ q))
    (c : Dev nD) (t : Fin cfg0.N) (hf : (cfg0.win 5).flush t = true) :
    (dats m 0 c).flushed 5 t = ((cfg0.win 5).blk t).view.read (Elt Ideal) (result m c) := by
  show (cfg0.win 5).cut (grid0.coords t) ((dats m 0 c).after 5 t) = _
  rw [after0_5]
  have h7 : t.val % 8 = 7 := (flush0_5 t).mp hf
  have hN : t.val < 128 := lt_of_lt_of_eq t.isLt (show cfg0.N = 128 from N_0)
  obtain ⟨e0, e1⟩ := w5_idx_facts t
  refine funext fun (j : S512x1024.Idx) => ?_
  have hj0 : (j 0).val < 512 := (j 0).isLt
  have hj1 : (j 1).val < 1024 := (j 1).isLt
  show (outsAt0 m c t.val t.isLt).1 j = result m c (((cfg0.win 5).blk t).view.emb j)
  have hemb : ((cfg0.win 5).blk t).view.emb j
      = ValueIdx.ix2 (⟨512 * (t.val / 8) + (j 0).val, by omega⟩ : Fin 8192) (⟨(j 1).val, hj1⟩ : Fin 1024) := by
    funext a; apply Fin.ext
    match a with
    | ⟨0, _⟩ => show win0_5.index t (0 : Fin 2) * 512 + 1 * (j 0).val = 512 * (t.val / 8) + (j 0).val; omega
    | ⟨1, _⟩ => show win0_5.index t (1 : Fin 2) * 1024 + 1 * (j 1).val = (j 1).val; omega
  have hj : j = ValueIdx.ix2 (⟨(j 0).val, hj0⟩ : Fin 512) (⟨(j 1).val, hj1⟩ : Fin 1024) := by
    funext a
    match a with
    | ⟨0, _⟩ => rfl
    | ⟨1, _⟩ => rfl
  rw [hemb]
  exact (congrArg (outsAt0 m c t.val t.isLt).1 hj).trans (hout c t h7 ⟨(j 0).val, hj0⟩ ⟨(j 1).val, hj1⟩ _)

/-- The sixteen written blocks tile the array: entry `i` lies in the block written at the last expert of its
    token tile, the point `8 · (i₀ / 512) + 7`. -/
theorem w5_cover (c : Dev nD) (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  have hN : cfg0.N = 128 := N_0
  let t : Fin cfg0.N := ⟨8 * ((i 0).val / 512) + 7, by rw [hN]; omega⟩
  have ht : t.val = 8 * ((i 0).val / 512) + 7 := rfl
  obtain ⟨e0, e1⟩ := w5_idx_facts t
  refine ⟨t, (flush0_5 t).mpr (by rw [ht]; omega), ?_⟩
  show i ∈ ((View.whole main_v4).slice (win0_5.rect t)).set
  rw [View.set_slice_whole, Rect.mem_set_unit]
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 1024 ≤ (i 1).val ∧ (i 1).val < win0_5.index t (1 : Fin 2) * 1024 + 1024
    omega

/-- The result array after the launch is the routed mixture. -/
theorem final
    (hout : ∀ (c : Dev nD) (t : Fin cfg0.N), t.val % 8 = 7 → ∀ (p : Fin 512) (q : Fin 1024)
      (hr : 512 * (t.val / 8) + p.val < 8192),
      (outsAt0 m c t.val t.isLt).1 (ValueIdx.ix2 p q) = result m c (ValueIdx.ix2 ⟨512 * (t.val / 8) + p.val, hr⟩ q))
    (c : Dev nD) : (dats m 0 c).arrAt 5 cfg0.N = result m c :=
  (dats m 0 c).arrAt_eq_of_cover 5 (result m c) (w5_flushed_eq m hout c) (w5_cover c)

/-- The host reshape after the launch, read at the result: the routed mixture in its [2, 4096, 1024] form. -/
theorem out_tail_v5
    (hout : ∀ (c : Dev nD) (t : Fin cfg0.N), t.val % 8 = 7 → ∀ (p : Fin 512) (q : Fin 1024)
      (hr : 512 * (t.val / 8) + p.val < 8192),
      (outsAt0 m c t.val t.isLt).1 (ValueIdx.ix2 p q) = result m c (ValueIdx.ix2 ⟨512 * (t.val / 8) + p.val, hr⟩ q))
    (c : Dev nD) :
    Pipeline.afterTail₀ cfgs (dats m) 0 (V0 m) [hostOps1] c main_v5
      = shapeCast S2x4096x1024 (result m c) Facts₀.shapeCasts_S8192x1024_S2x4096x1024 := by
  have hA : Pipeline.withArrays (cfgs 0).spec c (V0 m c) (fun w => (dats m 0 c).arrAt w (cfgs 0).N)
      (Proc.devRef .tc main_v4) = result m c :=
    (Pipeline.withArrays_arr spec0 launch0.win.arr_inj c _ _ 5).trans (final m hout c)
  unfold Pipeline.afterTail₀
  show StableHlo.after hostOps1 _ (Proc.devRef .tc main_v5) = _
  after_results
  exact congrArg (fun A => shapeCast S2x4096x1024 A Facts₀.shapeCasts_S8192x1024_S2x4096x1024) hA

/-- The run, read: the result holds the routed mixture of the argument arrays, reshaped; the arguments are unchanged. -/
theorem run
    (hout : ∀ (c : Dev nD) (t : Fin cfg0.N), t.val % 8 = 7 → ∀ (p : Fin 512) (q : Fin 1024)
      (hr : 512 * (t.val / 8) + p.val < 8192),
      (outsAt0 m c t.val t.isLt).1 (ValueIdx.ix2 p q) = result m c (ValueIdx.ix2 ⟨512 * (t.val / 8) + p.val, hr⟩ q)) :
    θ_run defs (onTc (τ := τ) (main (F := Ideal))) ⟨m, fun _ => 0, ρ⟩ fun r => ∀ c : Dev nD,
      r.2.mem ((c.tc : Thread nD τ).loc main_v5)
        = shapeCast S2x4096x1024 (result m c) Facts₀.shapeCasts_S8192x1024_S2x4096x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).2 main_v5 (Pipeline.mem_restRefs_of main_v5 (by decide) (by decide))).trans (out_tail_v5 m hout c),
       ((h c).2 main_arg0 (Pipeline.mem_restRefs_of main_arg0 (by decide) (by decide))).trans (W_main_arg0 m (dats m) c),
       ((h c).1 2).trans (((dats m 0 c).arrAt_in 2 rfl _).trans ((A_eq m c 2).trans (V_main_arg1 m c))),
       ((h c).1 1).trans (((dats m 0 c).arrAt_in 1 rfl _).trans ((A_eq m c 1).trans (V_main_arg2 m c))),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c)⟩)
    (run_main m ρ)

end Cert.Moe.K

end
-- ==== Proof.RefOps.lean ====
/-
  The reference program as a list of host operations, in pieces: the three operations before the loop over the
  experts (the activations flattened to 8192 rows, and the zero array the sum starts from), the nine operations of
  the gate function (x ↦ x · 1/(1 + exp(−x))) over the buffers one call of it names, the twenty-nine operations
  of each expert, and the last reshape.
-/
import proofs.«121355_j88287347736701_1_alg».proof.ReferenceIdeal
import Idealize.ShloMosaic.Lib.StableHlo.Run

noncomputable section

namespace Cert.Moe.Ref

open Cert.ReferenceIdeal Cert.ReferenceIdeal.Facts₀ Cert.ReferenceIdeal.Facts Idealize.ShloMosaic Idealize.ShloMosaic.TcCoe
  Idealize.SL.Sem Idealize.ShloMosaic.StableHlo

variable {F : FTy → Type} [FloatOps F] [Cert.ReferenceIdeal.Facts]

/-- Before the loop: the activations as 8192 rows of 1024, and the zero array. -/
def opsPre : List (HloOp τ sig (Elt F)) :=
  [ reshape main_arg0 main_v0 rfl shapeCasts_S2x4096x1024_S8192x1024,
    nullary main_cst (constant S_ .f32 0x00000000#32),
    unary main_cst main_v1 (broadcastInDim S8192x1024 ![] bcast_S_S8192x1024 : (⟨S_, .f32⟩ : BufTy).Contents (Elt F) → (⟨S8192x1024, .f32⟩ : BufTy).Contents (Elt F)) ]

/-- The gate function over its argument `a` and the buffers `φ` of one call: −a, exp(−a), 1, 1 spread,
    1 + exp(−a), 1, 1 spread, 1/(1 + exp(−a)), a · that. -/
def siluOps (a : StableHlo.TRef sig ⟨S8192x2048, .f32⟩) (φ : fn_silu.Bufs) : List (HloOp τ sig (Elt F)) :=
  [ StableHlo.TRef.unary a φ.v0 Host.negf,
    StableHlo.TRef.unary φ.v0 φ.v1 Host.exp,
    StableHlo.TRef.nullary φ.cst (constant S_ .f32 0x3F800000#32),
    StableHlo.TRef.unary φ.cst φ.v2 (broadcastInDim S8192x2048 ![] bcast_S_S8192x2048),
    StableHlo.TRef.binary φ.v2 φ.v1 φ.v3 addf,
    StableHlo.TRef.nullary φ.cst_0 (constant S_ .f32 0x3F800000#32),
    StableHlo.TRef.unary φ.cst_0 φ.v4 (broadcastInDim S8192x2048 ![] bcast_S_S8192x2048),
    StableHlo.TRef.binary φ.v4 φ.v3 φ.v5 Host.divf,
    StableHlo.TRef.binary a φ.v5 φ.v6 mulf ]

/-- Expert 0: its first weight matrix cut out, the product with the activations, the two halves, the gate function,
    the product with the value half, the second weight matrix cut out, the second product, the routing weight, and
    the sum so far plus the weighted result. -/
def opsE0a : List (HloOp τ sig (Elt F)) :=
  [ unary main_arg3 main_v2 ((extractStridedSlice S1x1024x4096 ![0, 0, 0] · slices_S8x1024x4096_S1x1024x4096_0_0_0) : (⟨S8x1024x4096, .f32⟩ : BufTy).Contents (Elt F) → (⟨S1x1024x4096, .f32⟩ : BufTy).Contents (Elt F)),
    reshape main_v2 main_v3 rfl shapeCasts_S1x1024x4096_S1024x4096,
    binary main_v0 main_v3 main_v4 ((fun l r => Host.dotGeneral dot_S8192x1024_S1024x4096_S8192x4096_1_0_0_1_n_n none l r) : (⟨S8192x1024, .f32⟩ : BufTy).Contents (Elt F) → (⟨S1024x4096, .f32⟩ : BufTy).Contents (Elt F) → (⟨S8192x4096, .f32⟩ : BufTy).Contents (Elt F)),
    unary main_v4 main_v5 ((extractStridedSlice S8192x2048 ![0, 0] · slices_S8192x4096_S8192x2048_0_0) : (⟨S8192x4096, .f32⟩ : BufTy).Contents (Elt F) → (⟨S8192x2048, .f32⟩ : BufTy).Contents (Elt F)),
    unary main_v4 main_v6 ((extractStridedSlice S8192x2048 ![0, 2048] · slices_S8192x4096_S8192x2048_0_2048) : (⟨S8192x4096, .f32⟩ : BufTy).Contents (Elt F) → (⟨S8192x2048, .f32⟩ : BufTy).Contents (Elt F)) ]

def opsE0c : List (HloOp τ sig (Elt F)) :=
  [ binary main_v7 main_v5 main_v8 (mulf : (⟨S8192x2048, .f32⟩ : BufTy).Contents (Elt F) → (⟨S8192x2048, .f32⟩ : BufTy).Contents (Elt F) → (⟨S8192x2048, .f32⟩ : BufTy).Contents (Elt F)),
    unary main_arg4 main_v9 ((extractStridedSlice S1x2048x1024 ![0, 0, 0] · slices_S8x2048x1024_S1x2048x1024_0_0_0) : (⟨S8x2048x1024, .f32⟩ : BufTy).Contents (Elt F) → (⟨S1x2048x1024, .f32⟩ : BufTy).Contents (Elt F)),
    reshape main_v9 main_v10 rfl shapeCasts_S1x2048x1024_S2048x1024,
    binary main_v8 main_v10 main_v11 ((fun l r => Host.dotGeneral dot_S8192x2048_S2048x1024_S8192x1024_1_0_0_1_n_n none l r) : (⟨S8192x2048, .f32⟩ : BufTy).Contents (Elt F) → (⟨S2048x1024, .f32⟩ : BufTy).Contents (Elt F) → (⟨S8192x1024, .f32⟩ : BufTy).Contents (Elt F)),
    nullary main_c (constantI S_ 32 0#32),
    unary main_c main_v12 (broadcastInDim S8192x2 ![] bcast_S_S8192x2 : (⟨S_, .i32⟩ : BufTy).Contents (Elt F) → (⟨S8192x2, .i32⟩ : BufTy).Contents (Elt F)),
    binary main_arg2 main_v12 main_v13 (cmpi .eq : (⟨S8192x2, .i32⟩ : BufTy).Contents (Elt F) → (⟨S8192x2, .i32⟩ : BufTy).Contents (Elt F) → (⟨S8192x2, .i1⟩ : BufTy).Contents (Elt F)),
    unary main_v13 main_v14 (uitofp .f32 : (⟨S8192x2, .i1⟩ : BufTy).Contents (Elt F) → (⟨S8192x2, .f32⟩ : BufTy).Contents (Elt F)),
    binary main_arg1 main_v14 main_v15 (mulf : (⟨S8192x2, .f32⟩ : BufTy).Contents (Elt F) → (⟨S8192x2, .f32⟩ : BufTy).Contents (Elt F) → (⟨S8192x2, .f32⟩ : BufTy).Contents (Elt F)),
    nullary main_cst_0 (constant S_ .f32 0x00000000#32),
    binary main_v15 main_cst_0 main_v16 ((fun x v => Host.reduceAdd x v reducesTo_S8192x2_S8192_d1 h_S_) : (⟨S8192x2, .f32⟩ : BufTy).Contents (Elt F) → (⟨S_, .f32⟩ : BufTy).Contents (Elt F) → (⟨S8192, .f32⟩ : BufTy).Contents (Elt F)),
    unary main_v16 main_v17 (broadcastInDim S8192x1 ![0] bcast_S8192_S8192x1_0 : (⟨S8192, .f32⟩ : BufTy).Contents (Elt F) → (⟨S8192x1, .f32⟩ : BufTy).Contents (Elt F)),
    unary main_v17 main_v18 (broadcastInDim S8192x1024 ![0, 1] bcast_S8192x1_S8192x1024_0_1 : (⟨S8192x1, .f32⟩ : BufTy).Contents (Elt F) → (⟨S8192x1024, .f32⟩ : BufTy).Contents (Elt F)),
    binary main_v18 main_v11 main_v19 (mulf : (⟨S8192x1024, .f32⟩ : BufTy).Contents (Elt F) → (⟨S8192x1024, .f32⟩ : BufTy).Contents (Elt F) → (⟨S8192x1024, .f32⟩ : BufTy).Contents (Elt F)),
    binary main_v1 main_v19 main_v20 (addf : (⟨S8192x1024, .f32⟩ : BufTy).Contents (Elt F) → (⟨S8192x1024, .f32⟩ : BufTy).Contents (Elt F) → (⟨S8192x1024, .f32⟩ : BufTy).Contents (Elt F)) ]

def opsE0 : List (HloOp τ sig (Elt F)) := opsE0a ++ (siluOps (.of main_v6) main_call0 ++ opsE0c)

/-- Expert 1: its first weight matrix cut out, the product with the activations, the two halves, the gate function,
    the product with the value half, the second weight matrix cut out, the second product, the routing weight, and
    the sum so far plus the weighted result. -/
def opsE1a : List (HloOp τ sig (Elt F)) :=
  [ unary main_arg3 main_v21 ((extractStridedSlice S1x1024x4096 ![1, 0, 0] · slices_S8x1024x4096_S1x1024x4096_1_0_0) : (⟨S8x1024x4096, .f32⟩ : BufTy).Contents (Elt F) → (⟨S1x1024x4096, .f32⟩ : BufTy).Contents (Elt F)),
    reshape main_v21 main_v22 rfl shapeCasts_S1x1024x4096_S1024x4096,
    binary main_v0 main_v22 main_v23 ((fun l r => Host.dotGeneral dot_S8192x1024_S1024x4096_S8192x4096_1_0_0_1_n_n none l r) : (⟨S8192x1024, .f32⟩ : BufTy).Contents (Elt F) → (⟨S1024x4096, .f32⟩ : BufTy).Contents (Elt F) → (⟨S8192x4096, .f32⟩ : BufTy).Contents (Elt F)),
    unary main_v23 main_v24 ((extractStridedSlice S8192x2048 ![0, 0] · slices_S8192x4096_S8192x2048_0_0) : (⟨S8192x4096, .f32⟩ : BufTy).Contents (Elt F) → (⟨S8192x2048, .f32⟩ : BufTy).Contents (Elt F)),
    unary main_v23 main_v25 ((extractStridedSlice S8192x2048 ![0, 2048] · slices_S8192x4096_S8192x2048_0_2048) : (⟨S8192x4096, .f32⟩ : BufTy).Contents (Elt F) → (⟨S8192x2048, .f32⟩ : BufTy).Contents (Elt F)) ]

def opsE1c : List (HloOp τ sig (Elt F)) :=
  [ binary main_v26 main_v24 main_v27 (mulf : (⟨S8192x2048, .f32⟩ : BufTy).Contents (Elt F) → (⟨S8192x2048, .f32⟩ : BufTy).Contents (Elt F) → (⟨S8192x2048, .f32⟩ : BufTy).Contents (Elt F)),
    unary main_arg4 main_v28 ((extractStridedSlice S1x2048x1024 ![1, 0, 0] · slices_S8x2048x1024_S1x2048x1024_1_0_0) : (⟨S8x2048x1024, .f32⟩ : BufTy).Contents (Elt F) → (⟨S1x2048x1024, .f32⟩ : BufTy).Contents (Elt F)),
    reshape main_v28 main_v29 rfl shapeCasts_S1x2048x1024_S2048x1024,
    binary main_v27 main_v29 main_v30 ((fun l r => Host.dotGeneral dot_S8192x2048_S2048x1024_S8192x1024_1_0_0_1_n_n none l r) : (⟨S8192x2048, .f32⟩ : BufTy).Contents (Elt F) → (⟨S2048x1024, .f32⟩ : BufTy).Contents (Elt F) → (⟨S8192x1024, .f32⟩ : BufTy).Contents (Elt F)),
    nullary main_c_1 (constantI S_ 32 1#32),
    unary main_c_1 main_v31 (broadcastInDim S8192x2 ![] bcast_S_S8192x2 : (⟨S_, .i32⟩ : BufTy).Contents (Elt F) → (⟨S8192x2, .i32⟩ : BufTy).Contents (Elt F)),
    binary main_arg2 main_v31 main_v32 (cmpi .eq : (⟨S8192x2, .i32⟩ : BufTy).Contents (Elt F) → (⟨S8192x2, .i32⟩ : BufTy).Contents (Elt F) → (⟨S8192x2, .i1⟩ : BufTy).Contents (Elt F)),
    unary main_v32 main_v33 (uitofp .f32 : (⟨S8192x2, .i1⟩ : BufTy).Contents (Elt F) → (⟨S8192x2, .f32⟩ : BufTy).Contents (Elt F)),
    binary main_arg1 main_v33 main_v34 (mulf : (⟨S8192x2, .f32⟩ : BufTy).Contents (Elt F) → (⟨S8192x2, .f32⟩ : BufTy).Contents (Elt F) → (⟨S8192x2, .f32⟩ : BufTy).Contents (Elt F)),
    nullary main_cst_2 (constant S_ .f32 0x00000000#32),
    binary main_v34 main_cst_2 main_v35 ((fun x v => Host.reduceAdd x v reducesTo_S8192x2_S8192_d1 h_S_) : (⟨S8192x2, .f32⟩ : BufTy).Contents (Elt F) → (⟨S_, .f32⟩ : BufTy).Contents (Elt F) → (⟨S8192, .f32⟩ : BufTy).Contents (Elt F)),
    unary main_v35 main_v36 (broadcastInDim S8192x1 ![0] bcast_S8192_S8192x1_0 : (⟨S8192, .f32⟩ : BufTy).Contents (Elt F) → (⟨S8192x1, .f32⟩ : BufTy).Contents (Elt F)),
    unary main_v36 main_v37 (broadcastInDim S8192x1024 ![0, 1] bcast_S8192x1_S8192x1024_0_1 : (⟨S8192x1, .f32⟩ : BufTy).Contents (Elt F) → (⟨S8192x1024, .f32⟩ : BufTy).Contents (Elt F)),
    binary main_v37 main_v30 main_v38 (mulf : (⟨S8192x1024, .f32⟩ : BufTy).Contents (Elt F) → (⟨S8192x1024, .f32⟩ : BufTy).Contents (Elt F) → (⟨S8192x1024, .f32⟩ : BufTy).Contents (Elt F)),
    binary main_v20 main_v38 main_v39 (addf : (⟨S8192x1024, .f32⟩ : BufTy).Contents (Elt F) → (⟨S8192x1024, .f32⟩ : BufTy).Contents (Elt F) → (⟨S8192x1024, .f32⟩ : BufTy).Contents (Elt F)) ]

def opsE1 : List (HloOp τ sig (Elt F)) := opsE1a ++ (siluOps (.of main_v25) main_call1 ++ opsE1c)

/-- Expert 2: its first weight matrix cut out, the product with the activations, the two halves, the gate function,
    the product with the value half, the second weight matrix cut out, the second product, the routing weight, and
    the sum so far plus the weighted result. -/
def opsE2a : List (HloOp τ sig (Elt F)) :=
  [ unary main_arg3 main_v40 ((extractStridedSlice S1x1024x4096 ![2, 0, 0] · slices_S8x1024x4096_S1x1024x4096_2_0_0) : (⟨S8x1024x4096, .f32⟩ : BufTy).Contents (Elt F) → (⟨S1x1024x4096, .f32⟩ : BufTy).Contents (Elt F)),
    reshape main_v40 main_v41 rfl shapeCasts_S1x1024x4096_S1024x4096,
    binary main_v0 main_v41 main_v42 ((fun l r => Host.dotGeneral dot_S8192x1024_S1024x4096_S8192x4096_1_0_0_1_n_n none l r) : (⟨S8192x1024, .f32⟩ : BufTy).Contents (Elt F) → (⟨S1024x4096, .f32⟩ : BufTy).Contents (Elt F) → (⟨S8192x4096, .f32⟩ : BufTy).Contents (Elt F)),
    unary main_v42 main_v43 ((extractStridedSlice S8192x2048 ![0, 0] · slices_S8192x4096_S8192x2048_0_0) : (⟨S8192x4096, .f32⟩ : BufTy).Contents (Elt F) → (⟨S8192x2048, .f32⟩ : BufTy).Contents (Elt F)),
    unary main_v42 main_v44 ((extractStridedSlice S8192x2048 ![0, 2048] · slices_S8192x4096_S8192x2048_0_2048) : (⟨S8192x4096, .f32⟩ : BufTy).Contents (Elt F) → (⟨S8192x2048, .f32⟩ : BufTy).Contents (Elt F)) ]

def opsE2c : List (HloOp τ sig (Elt F)) :=
  [ binary main_v45 main_v43 main_v46 (mulf : (⟨S8192x2048, .f32⟩ : BufTy).Contents (Elt F) → (⟨S8192x2048, .f32⟩ : BufTy).Contents (Elt F) → (⟨S8192x2048, .f32⟩ : BufTy).Contents (Elt F)),
    unary main_arg4 main_v47 ((extractStridedSlice S1x2048x1024 ![2, 0, 0] · slices_S8x2048x1024_S1x2048x1024_2_0_0) : (⟨S8x2048x1024, .f32⟩ : BufTy).Contents (Elt F) → (⟨S1x2048x1024, .f32⟩ : BufTy).Contents (Elt F)),
    reshape main_v47 main_v48 rfl shapeCasts_S1x2048x1024_S2048x1024,
    binary main_v46 main_v48 main_v49 ((fun l r => Host.dotGeneral dot_S8192x2048_S2048x1024_S8192x1024_1_0_0_1_n_n none l r) : (⟨S8192x2048, .f32⟩ : BufTy).Contents (Elt F) → (⟨S2048x1024, .f32⟩ : BufTy).Contents (Elt F) → (⟨S8192x1024, .f32⟩ : BufTy).Contents (Elt F)),
    nullary main_c_3 (constantI S_ 32 2#32),
    unary main_c_3 main_v50 (broadcastInDim S8192x2 ![] bcast_S_S8192x2 : (⟨S_, .i32⟩ : BufTy).Contents (Elt F) → (⟨S8192x2, .i32⟩ : BufTy).Contents (Elt F)),
    binary main_arg2 main_v50 main_v51 (cmpi .eq : (⟨S8192x2, .i32⟩ : BufTy).Contents (Elt F) → (⟨S8192x2, .i32⟩ : BufTy).Contents (Elt F) → (⟨S8192x2, .i1⟩ : BufTy).Contents (Elt F)),
    unary main_v51 main_v52 (uitofp .f32 : (⟨S8192x2, .i1⟩ : BufTy).Contents (Elt F) → (⟨S8192x2, .f32⟩ : BufTy).Contents (Elt F)),
    binary main_arg1 main_v52 main_v53 (mulf : (⟨S8192x2, .f32⟩ : BufTy).Contents (Elt F) → (⟨S8192x2, .f32⟩ : BufTy).Contents (Elt F) → (⟨S8192x2, .f32⟩ : BufTy).Contents (Elt F)),
    nullary main_cst_4 (constant S_ .f32 0x00000000#32),
    binary main_v53 main_cst_4 main_v54 ((fun x v => Host.reduceAdd x v reducesTo_S8192x2_S8192_d1 h_S_) : (⟨S8192x2, .f32⟩ : BufTy).Contents (Elt F) → (⟨S_, .f32⟩ : BufTy).Contents (Elt F) → (⟨S8192, .f32⟩ : BufTy).Contents (Elt F)),
    unary main_v54 main_v55 (broadcastInDim S8192x1 ![0] bcast_S8192_S8192x1_0 : (⟨S8192, .f32⟩ : BufTy).Contents (Elt F) → (⟨S8192x1, .f32⟩ : BufTy).Contents (Elt F)),
    unary main_v55 main_v56 (broadcastInDim S8192x1024 ![0, 1] bcast_S8192x1_S8192x1024_0_1 : (⟨S8192x1, .f32⟩ : BufTy).Contents (Elt F) → (⟨S8192x1024, .f32⟩ : BufTy).Contents (Elt F)),
    binary main_v56 main_v49 main_v57 (mulf : (⟨S8192x1024, .f32⟩ : BufTy).Contents (Elt F) → (⟨S8192x1024, .f32⟩ : BufTy).Contents (Elt F) → (⟨S8192x1024, .f32⟩ : BufTy).Contents (Elt F)),
    binary main_v39 main_v57 main_v58 (addf : (⟨S8192x1024, .f32⟩ : BufTy).Contents (Elt F) → (⟨S8192x1024, .f32⟩ : BufTy).Contents (Elt F) → (⟨S8192x1024, .f32⟩ : BufTy).Contents (Elt F)) ]

def opsE2 : List (HloOp τ sig (Elt F)) := opsE2a ++ (siluOps (.of main_v44) main_call2 ++ opsE2c)

/-- Expert 3: its first weight matrix cut out, the product with the activations, the two halves, the gate function,
    the product with the value half, the second weight matrix cut out, the second product, the routing weight, and
    the sum so far plus the weighted result. -/
def opsE3a : List (HloOp τ sig (Elt F)) :=
  [ unary main_arg3 main_v59 ((extractStridedSlice S1x1024x4096 ![3, 0, 0] · slices_S8x1024x4096_S1x1024x4096_3_0_0) : (⟨S8x1024x4096, .f32⟩ : BufTy).Contents (Elt F) → (⟨S1x1024x4096, .f32⟩ : BufTy).Contents (Elt F)),
    reshape main_v59 main_v60 rfl shapeCasts_S1x1024x4096_S1024x4096,
    binary main_v0 main_v60 main_v61 ((fun l r => Host.dotGeneral dot_S8192x1024_S1024x4096_S8192x4096_1_0_0_1_n_n none l r) : (⟨S8192x1024, .f32⟩ : BufTy).Contents (Elt F) → (⟨S1024x4096, .f32⟩ : BufTy).Contents (Elt F) → (⟨S8192x4096, .f32⟩ : BufTy).Contents (Elt F)),
    unary main_v61 main_v62 ((extractStridedSlice S8192x2048 ![0, 0] · slices_S8192x4096_S8192x2048_0_0) : (⟨S8192x4096, .f32⟩ : BufTy).Contents (Elt F) → (⟨S8192x2048, .f32⟩ : BufTy).Contents (Elt F)),
    unary main_v61 main_v63 ((extractStridedSlice S8192x2048 ![0, 2048] · slices_S8192x4096_S8192x2048_0_2048) : (⟨S8192x4096, .f32⟩ : BufTy).Contents (Elt F) → (⟨S8192x2048, .f32⟩ : BufTy).Contents (Elt F)) ]

def opsE3c : List (HloOp τ sig (Elt F)) :=
  [ binary main_v64 main_v62 main_v65 (mulf : (⟨S8192x2048, .f32⟩ : BufTy).Contents (Elt F) → (⟨S8192x2048, .f32⟩ : BufTy).Contents (Elt F) → (⟨S8192x2048, .f32⟩ : BufTy).Contents (Elt F)),
    unary main_arg4 main_v66 ((extractStridedSlice S1x2048x1024 ![3, 0, 0] · slices_S8x2048x1024_S1x2048x1024_3_0_0) : (⟨S8x2048x1024, .f32⟩ : BufTy).Contents (Elt F) → (⟨S1x2048x1024, .f32⟩ : BufTy).Contents (Elt F)),
    reshape main_v66 main_v67 rfl shapeCasts_S1x2048x1024_S2048x1024,
    binary main_v65 main_v67 main_v68 ((fun l r => Host.dotGeneral dot_S8192x2048_S2048x1024_S8192x1024_1_0_0_1_n_n none l r) : (⟨S8192x2048, .f32⟩ : BufTy).Contents (Elt F) → (⟨S2048x1024, .f32⟩ : BufTy).Contents (Elt F) → (⟨S8192x1024, .f32⟩ : BufTy).Contents (Elt F)),
    nullary main_c_5 (constantI S_ 32 3#32),
    unary main_c_5 main_v69 (broadcastInDim S8192x2 ![] bcast_S_S8192x2 : (⟨S_, .i32⟩ : BufTy).Contents (Elt F) → (⟨S8192x2, .i32⟩ : BufTy).Contents (Elt F)),
    binary main_arg2 main_v69 main_v70 (cmpi .eq : (⟨S8192x2, .i32⟩ : BufTy).Contents (Elt F) → (⟨S8192x2, .i32⟩ : BufTy).Contents (Elt F) → (⟨S8192x2, .i1⟩ : BufTy).Contents (Elt F)),
    unary main_v70 main_v71 (uitofp .f32 : (⟨S8192x2, .i1⟩ : BufTy).Contents (Elt F) → (⟨S8192x2, .f32⟩ : BufTy).Contents (Elt F)),
    binary main_arg1 main_v71 main_v72 (mulf : (⟨S8192x2, .f32⟩ : BufTy).Contents (Elt F) → (⟨S8192x2, .f32⟩ : BufTy).Contents (Elt F) → (⟨S8192x2, .f32⟩ : BufTy).Contents (Elt F)),
    nullary main_cst_6 (constant S_ .f32 0x00000000#32),
    binary main_v72 main_cst_6 main_v73 ((fun x v => Host.reduceAdd x v reducesTo_S8192x2_S8192_d1 h_S_) : (⟨S8192x2, .f32⟩ : BufTy).Contents (Elt F) → (⟨S_, .f32⟩ : BufTy).Contents (Elt F) → (⟨S8192, .f32⟩ : BufTy).Contents (Elt F)),
    unary main_v73 main_v74 (broadcastInDim S8192x1 ![0] bcast_S8192_S8192x1_0 : (⟨S8192, .f32⟩ : BufTy).Contents (Elt F) → (⟨S8192x1, .f32⟩ : BufTy).Contents (Elt F)),
    unary main_v74 main_v75 (broadcastInDim S8192x1024 ![0, 1] bcast_S8192x1_S8192x1024_0_1 : (⟨S8192x1, .f32⟩ : BufTy).Contents (Elt F) → (⟨S8192x1024, .f32⟩ : BufTy).Contents (Elt F)),
    binary main_v75 main_v68 main_v76 (mulf : (⟨S8192x1024, .f32⟩ : BufTy).Contents (Elt F) → (⟨S8192x1024, .f32⟩ : BufTy).Contents (Elt F) → (⟨S8192x1024, .f32⟩ : BufTy).Contents (Elt F)),
    binary main_v58 main_v76 main_v77 (addf : (⟨S8192x1024, .f32⟩ : BufTy).Contents (Elt F) → (⟨S8192x1024, .f32⟩ : BufTy).Contents (Elt F) → (⟨S8192x1024, .f32⟩ : BufTy).Contents (Elt F)) ]

def opsE3 : List (HloOp τ sig (Elt F)) := opsE3a ++ (siluOps (.of main_v63) main_call3 ++ opsE3c)

/-- Expert 4: its first weight matrix cut out, the product with the activations, the two halves, the gate function,
    the product with the value half, the second weight matrix cut out, the second product, the routing weight, and
    the sum so far plus the weighted result. -/
def opsE4a : List (HloOp τ sig (Elt F)) :=
  [ unary main_arg3 main_v78 ((extractStridedSlice S1x1024x4096 ![4, 0, 0] · slices_S8x1024x4096_S1x1024x4096_4_0_0) : (⟨S8x1024x4096, .f32⟩ : BufTy).Contents (Elt F) → (⟨S1x1024x4096, .f32⟩ : BufTy).Contents (Elt F)),
    reshape main_v78 main_v79 rfl shapeCasts_S1x1024x4096_S1024x4096,
    binary main_v0 main_v79 main_v80 ((fun l r => Host.dotGeneral dot_S8192x1024_S1024x4096_S8192x4096_1_0_0_1_n_n none l r) : (⟨S8192x1024, .f32⟩ : BufTy).Contents (Elt F) → (⟨S1024x4096, .f32⟩ : BufTy).Contents (Elt F) → (⟨S8192x4096, .f32⟩ : BufTy).Contents (Elt F)),
    unary main_v80 main_v81 ((extractStridedSlice S8192x2048 ![0, 0] · slices_S8192x4096_S8192x2048_0_0) : (⟨S8192x4096, .f32⟩ : BufTy).Contents (Elt F) → (⟨S8192x2048, .f32⟩ : BufTy).Contents (Elt F)),
    unary main_v80 main_v82 ((extractStridedSlice S8192x2048 ![0, 2048] · slices_S8192x4096_S8192x2048_0_2048) : (⟨S8192x4096, .f32⟩ : BufTy).Contents (Elt F) → (⟨S8192x2048, .f32⟩ : BufTy).Contents (Elt F)) ]

def opsE4c : List (HloOp τ sig (Elt F)) :=
  [ binary main_v83 main_v81 main_v84 (mulf : (⟨S8192x2048, .f32⟩ : BufTy).Contents (Elt F) → (⟨S8192x2048, .f32⟩ : BufTy).Contents (Elt F) → (⟨S8192x2048, .f32⟩ : BufTy).Contents (Elt F)),
    unary main_arg4 main_v85 ((extractStridedSlice S1x2048x1024 ![4, 0, 0] · slices_S8x2048x1024_S1x2048x1024_4_0_0) : (⟨S8x2048x1024, .f32⟩ : BufTy).Contents (Elt F) → (⟨S1x2048x1024, .f32⟩ : BufTy).Contents (Elt F)),
    reshape main_v85 main_v86 rfl shapeCasts_S1x2048x1024_S2048x1024,
    binary main_v84 main_v86 main_v87 ((fun l r => Host.dotGeneral dot_S8192x2048_S2048x1024_S8192x1024_1_0_0_1_n_n none l r) : (⟨S8192x2048, .f32⟩ : BufTy).Contents (Elt F) → (⟨S2048x1024, .f32⟩ : BufTy).Contents (Elt F) → (⟨S8192x1024, .f32⟩ : BufTy).Contents (Elt F)),
    nullary main_c_7 (constantI S_ 32 4#32),
    unary main_c_7 main_v88 (broadcastInDim S8192x2 ![] bcast_S_S8192x2 : (⟨S_, .i32⟩ : BufTy).Contents (Elt F) → (⟨S8192x2, .i32⟩ : BufTy).Contents (Elt F)),
    binary main_arg2 main_v88 main_v89 (cmpi .eq : (⟨S8192x2, .i32⟩ : BufTy).Contents (Elt F) → (⟨S8192x2, .i32⟩ : BufTy).Contents (Elt F) → (⟨S8192x2, .i1⟩ : BufTy).Contents (Elt F)),
    unary main_v89 main_v90 (uitofp .f32 : (⟨S8192x2, .i1⟩ : BufTy).Contents (Elt F) → (⟨S8192x2, .f32⟩ : BufTy).Contents (Elt F)),
    binary main_arg1 main_v90 main_v91 (mulf : (⟨S8192x2, .f32⟩ : BufTy).Contents (Elt F) → (⟨S8192x2, .f32⟩ : BufTy).Contents (Elt F) → (⟨S8192x2, .f32⟩ : BufTy).Contents (Elt F)),
    nullary main_cst_8 (constant S_ .f32 0x00000000#32),
    binary main_v91 main_cst_8 main_v92 ((fun x v => Host.reduceAdd x v reducesTo_S8192x2_S8192_d1 h_S_) : (⟨S8192x2, .f32⟩ : BufTy).Contents (Elt F) → (⟨S_, .f32⟩ : BufTy).Contents (Elt F) → (⟨S8192, .f32⟩ : BufTy).Contents (Elt F)),
    unary main_v92 main_v93 (broadcastInDim S8192x1 ![0] bcast_S8192_S8192x1_0 : (⟨S8192, .f32⟩ : BufTy).Contents (Elt F) → (⟨S8192x1, .f32⟩ : BufTy).Contents (Elt F)),
    unary main_v93 main_v94 (broadcastInDim S8192x1024 ![0, 1] bcast_S8192x1_S8192x1024_0_1 : (⟨S8192x1, .f32⟩ : BufTy).Contents (Elt F) → (⟨S8192x1024, .f32⟩ : BufTy).Contents (Elt F)),
    binary main_v94 main_v87 main_v95 (mulf : (⟨S8192x1024, .f32⟩ : BufTy).Contents (Elt F) → (⟨S8192x1024, .f32⟩ : BufTy).Contents (Elt F) → (⟨S8192x1024, .f32⟩ : BufTy).Contents (Elt F)),
    binary main_v77 main_v95 main_v96 (addf : (⟨S8192x1024, .f32⟩ : BufTy).Contents (Elt F) → (⟨S8192x1024, .f32⟩ : BufTy).Contents (Elt F) → (⟨S8192x1024, .f32⟩ : BufTy).Contents (Elt F)) ]

def opsE4 : List (HloOp τ sig (Elt F)) := opsE4a ++ (siluOps (.of main_v82) main_call4 ++ opsE4c)

/-- Expert 5: its first weight matrix cut out, the product with the activations, the two halves, the gate function,
    the product with the value half, the second weight matrix cut out, the second product, the routing weight, and
    the sum so far plus the weighted result. -/
def opsE5a : List (HloOp τ sig (Elt F)) :=
  [ unary main_arg3 main_v97 ((extractStridedSlice S1x1024x4096 ![5, 0, 0] · slices_S8x1024x4096_S1x1024x4096_5_0_0) : (⟨S8x1024x4096, .f32⟩ : BufTy).Contents (Elt F) → (⟨S1x1024x4096, .f32⟩ : BufTy).Contents (Elt F)),
    reshape main_v97 main_v98 rfl shapeCasts_S1x1024x4096_S1024x4096,
    binary main_v0 main_v98 main_v99 ((fun l r => Host.dotGeneral dot_S8192x1024_S1024x4096_S8192x4096_1_0_0_1_n_n none l r) : (⟨S8192x1024, .f32⟩ : BufTy).Contents (Elt F) → (⟨S1024x4096, .f32⟩ : BufTy).Contents (Elt F) → (⟨S8192x4096, .f32⟩ : BufTy).Contents (Elt F)),
    unary main_v99 main_v100 ((extractStridedSlice S8192x2048 ![0, 0] · slices_S8192x4096_S8192x2048_0_0) : (⟨S8192x4096, .f32⟩ : BufTy).Contents (Elt F) → (⟨S8192x2048, .f32⟩ : BufTy).Contents (Elt F)),
    unary main_v99 main_v101 ((extractStridedSlice S8192x2048 ![0, 2048] · slices_S8192x4096_S8192x2048_0_2048) : (⟨S8192x4096, .f32⟩ : BufTy).Contents (Elt F) → (⟨S8192x2048, .f32⟩ : BufTy).Contents (Elt F)) ]

def opsE5c : List (HloOp τ sig (Elt F)) :=
  [ binary main_v102 main_v100 main_v103 (mulf : (⟨S8192x2048, .f32⟩ : BufTy).Contents (Elt F) → (⟨S8192x2048, .f32⟩ : BufTy).Contents (Elt F) → (⟨S8192x2048, .f32⟩ : BufTy).Contents (Elt F)),
    unary main_arg4 main_v104 ((extractStridedSlice S1x2048x1024 ![5, 0, 0] · slices_S8x2048x1024_S1x2048x1024_5_0_0) : (⟨S8x2048x1024, .f32⟩ : BufTy).Contents (Elt F) → (⟨S1x2048x1024, .f32⟩ : BufTy).Contents (Elt F)),
    reshape main_v104 main_v105 rfl shapeCasts_S1x2048x1024_S2048x1024,
    binary main_v103 main_v105 main_v106 ((fun l r => Host.dotGeneral dot_S8192x2048_S2048x1024_S8192x1024_1_0_0_1_n_n none l r) : (⟨S8192x2048, .f32⟩ : BufTy).Contents (Elt F) → (⟨S2048x1024, .f32⟩ : BufTy).Contents (Elt F) → (⟨S8192x1024, .f32⟩ : BufTy).Contents (Elt F)),
    nullary main_c_9 (constantI S_ 32 5#32),
    unary main_c_9 main_v107 (broadcastInDim S8192x2 ![] bcast_S_S8192x2 : (⟨S_, .i32⟩ : BufTy).Contents (Elt F) → (⟨S8192x2, .i32⟩ : BufTy).Contents (Elt F)),
    binary main_arg2 main_v107 main_v108 (cmpi .eq : (⟨S8192x2, .i32⟩ : BufTy).Contents (Elt F) → (⟨S8192x2, .i32⟩ : BufTy).Contents (Elt F) → (⟨S8192x2, .i1⟩ : BufTy).Contents (Elt F)),
    unary main_v108 main_v109 (uitofp .f32 : (⟨S8192x2, .i1⟩ : BufTy).Contents (Elt F) → (⟨S8192x2, .f32⟩ : BufTy).Contents (Elt F)),
    binary main_arg1 main_v109 main_v110 (mulf : (⟨S8192x2, .f32⟩ : BufTy).Contents (Elt F) → (⟨S8192x2, .f32⟩ : BufTy).Contents (Elt F) → (⟨S8192x2, .f32⟩ : BufTy).Contents (Elt F)),
    nullary main_cst_10 (constant S_ .f32 0x00000000#32),
    binary main_v110 main_cst_10 main_v111 ((fun x v => Host.reduceAdd x v reducesTo_S8192x2_S8192_d1 h_S_) : (⟨S8192x2, .f32⟩ : BufTy).Contents (Elt F) → (⟨S_, .f32⟩ : BufTy).Contents (Elt F) → (⟨S8192, .f32⟩ : BufTy).Contents (Elt F)),
    unary main_v111 main_v112 (broadcastInDim S8192x1 ![0] bcast_S8192_S8192x1_0 : (⟨S8192, .f32⟩ : BufTy).Contents (Elt F) → (⟨S8192x1, .f32⟩ : BufTy).Contents (Elt F)),
    unary main_v112 main_v113 (broadcastInDim S8192x1024 ![0, 1] bcast_S8192x1_S8192x1024_0_1 : (⟨S8192x1, .f32⟩ : BufTy).Contents (Elt F) → (⟨S8192x1024, .f32⟩ : BufTy).Contents (Elt F)),
    binary main_v113 main_v106 main_v114 (mulf : (⟨S8192x1024, .f32⟩ : BufTy).Contents (Elt F) → (⟨S8192x1024, .f32⟩ : BufTy).Contents (Elt F) → (⟨S8192x1024, .f32⟩ : BufTy).Contents (Elt F)),
    binary main_v96 main_v114 main_v115 (addf : (⟨S8192x1024, .f32⟩ : BufTy).Contents (Elt F) → (⟨S8192x1024, .f32⟩ : BufTy).Contents (Elt F) → (⟨S8192x1024, .f32⟩ : BufTy).Contents (Elt F)) ]

def opsE5 : List (HloOp τ sig (Elt F)) := opsE5a ++ (siluOps (.of main_v101) main_call5 ++ opsE5c)

/-- Expert 6: its first weight matrix cut out, the product with the activations, the two halves, the gate function,
    the product with the value half, the second weight matrix cut out, the second product, the routing weight, and
    the sum so far plus the weighted result. -/
def opsE6a : List (HloOp τ sig (Elt F)) :=
  [ unary main_arg3 main_v116 ((extractStridedSlice S1x1024x4096 ![6, 0, 0] · slices_S8x1024x4096_S1x1024x4096_6_0_0) : (⟨S8x1024x4096, .f32⟩ : BufTy).Contents (Elt F) → (⟨S1x1024x4096, .f32⟩ : BufTy).Contents (Elt F)),
    reshape main_v116 main_v117 rfl shapeCasts_S1x1024x4096_S1024x4096,
    binary main_v0 main_v117 main_v118 ((fun l r => Host.dotGeneral dot_S8192x1024_S1024x4096_S8192x4096_1_0_0_1_n_n none l r) : (⟨S8192x1024, .f32⟩ : BufTy).Contents (Elt F) → (⟨S1024x4096, .f32⟩ : BufTy).Contents (Elt F) → (⟨S8192x4096, .f32⟩ : BufTy).Contents (Elt F)),
    unary main_v118 main_v119 ((extractStridedSlice S8192x2048 ![0, 0] · slices_S8192x4096_S8192x2048_0_0) : (⟨S8192x4096, .f32⟩ : BufTy).Contents (Elt F) → (⟨S8192x2048, .f32⟩ : BufTy).Contents (Elt F)),
    unary main_v118 main_v120 ((extractStridedSlice S8192x2048 ![0, 2048] · slices_S8192x4096_S8192x2048_0_2048) : (⟨S8192x4096, .f32⟩ : BufTy).Contents (Elt F) → (⟨S8192x2048, .f32⟩ : BufTy).Contents (Elt F)) ]

def opsE6c : List (HloOp τ sig (Elt F)) :=
  [ binary main_v121 main_v119 main_v122 (mulf : (⟨S8192x2048, .f32⟩ : BufTy).Contents (Elt F) → (⟨S8192x2048, .f32⟩ : BufTy).Contents (Elt F) → (⟨S8192x2048, .f32⟩ : BufTy).Contents (Elt F)),
    unary main_arg4 main_v123 ((extractStridedSlice S1x2048x1024 ![6, 0, 0] · slices_S8x2048x1024_S1x2048x1024_6_0_0) : (⟨S8x2048x1024, .f32⟩ : BufTy).Contents (Elt F) → (⟨S1x2048x1024, .f32⟩ : BufTy).Contents (Elt F)),
    reshape main_v123 main_v124 rfl shapeCasts_S1x2048x1024_S2048x1024,
    binary main_v122 main_v124 main_v125 ((fun l r => Host.dotGeneral dot_S8192x2048_S2048x1024_S8192x1024_1_0_0_1_n_n none l r) : (⟨S8192x2048, .f32⟩ : BufTy).Contents (Elt F) → (⟨S2048x1024, .f32⟩ : BufTy).Contents (Elt F) → (⟨S8192x1024, .f32⟩ : BufTy).Contents (Elt F)),
    nullary main_c_11 (constantI S_ 32 6#32),
    unary main_c_11 main_v126 (broadcastInDim S8192x2 ![] bcast_S_S8192x2 : (⟨S_, .i32⟩ : BufTy).Contents (Elt F) → (⟨S8192x2, .i32⟩ : BufTy).Contents (Elt F)),
    binary main_arg2 main_v126 main_v127 (cmpi .eq : (⟨S8192x2, .i32⟩ : BufTy).Contents (Elt F) → (⟨S8192x2, .i32⟩ : BufTy).Contents (Elt F) → (⟨S8192x2, .i1⟩ : BufTy).Contents (Elt F)),
    unary main_v127 main_v128 (uitofp .f32 : (⟨S8192x2, .i1⟩ : BufTy).Contents (Elt F) → (⟨S8192x2, .f32⟩ : BufTy).Contents (Elt F)),
    binary main_arg1 main_v128 main_v129 (mulf : (⟨S8192x2, .f32⟩ : BufTy).Contents (Elt F) → (⟨S8192x2, .f32⟩ : BufTy).Contents (Elt F) → (⟨S8192x2, .f32⟩ : BufTy).Contents (Elt F)),
    nullary main_cst_12 (constant S_ .f32 0x00000000#32),
    binary main_v129 main_cst_12 main_v130 ((fun x v => Host.reduceAdd x v reducesTo_S8192x2_S8192_d1 h_S_) : (⟨S8192x2, .f32⟩ : BufTy).Contents (Elt F) → (⟨S_, .f32⟩ : BufTy).Contents (Elt F) → (⟨S8192, .f32⟩ : BufTy).Contents (Elt F)),
    unary main_v130 main_v131 (broadcastInDim S8192x1 ![0] bcast_S8192_S8192x1_0 : (⟨S8192, .f32⟩ : BufTy).Contents (Elt F) → (⟨S8192x1, .f32⟩ : BufTy).Contents (Elt F)),
    unary main_v131 main_v132 (broadcastInDim S8192x1024 ![0, 1] bcast_S8192x1_S8192x1024_0_1 : (⟨S8192x1, .f32⟩ : BufTy).Contents (Elt F) → (⟨S8192x1024, .f32⟩ : BufTy).Contents (Elt F)),
    binary main_v132 main_v125 main_v133 (mulf : (⟨S8192x1024, .f32⟩ : BufTy).Contents (Elt F) → (⟨S8192x1024, .f32⟩ : BufTy).Contents (Elt F) → (⟨S8192x1024, .f32⟩ : BufTy).Contents (Elt F)),
    binary main_v115 main_v133 main_v134 (addf : (⟨S8192x1024, .f32⟩ : BufTy).Contents (Elt F) → (⟨S8192x1024, .f32⟩ : BufTy).Contents (Elt F) → (⟨S8192x1024, .f32⟩ : BufTy).Contents (Elt F)) ]

def opsE6 : List (HloOp τ sig (Elt F)) := opsE6a ++ (siluOps (.of main_v120) main_call6 ++ opsE6c)

/-- Expert 7: its first weight matrix cut out, the product with the activations, the two halves, the gate function,
    the product with the value half, the second weight matrix cut out, the second product, the routing weight, and
    the sum so far plus the weighted result. -/
def opsE7a : List (HloOp τ sig (Elt F)) :=
  [ unary main_arg3 main_v135 ((extractStridedSlice S1x1024x4096 ![7, 0, 0] · slices_S8x1024x4096_S1x1024x4096_7_0_0) : (⟨S8x1024x4096, .f32⟩ : BufTy).Contents (Elt F) → (⟨S1x1024x4096, .f32⟩ : BufTy).Contents (Elt F)),
    reshape main_v135 main_v136 rfl shapeCasts_S1x1024x4096_S1024x4096,
    binary main_v0 main_v136 main_v137 ((fun l r => Host.dotGeneral dot_S8192x1024_S1024x4096_S8192x4096_1_0_0_1_n_n none l r) : (⟨S8192x1024, .f32⟩ : BufTy).Contents (Elt F) → (⟨S1024x4096, .f32⟩ : BufTy).Contents (Elt F) → (⟨S8192x4096, .f32⟩ : BufTy).Contents (Elt F)),
    unary main_v137 main_v138 ((extractStridedSlice S8192x2048 ![0, 0] · slices_S8192x4096_S8192x2048_0_0) : (⟨S8192x4096, .f32⟩ : BufTy).Contents (Elt F) → (⟨S8192x2048, .f32⟩ : BufTy).Contents (Elt F)),
    unary main_v137 main_v139 ((extractStridedSlice S8192x2048 ![0, 2048] · slices_S8192x4096_S8192x2048_0_2048) : (⟨S8192x4096, .f32⟩ : BufTy).Contents (Elt F) → (⟨S8192x2048, .f32⟩ : BufTy).Contents (Elt F)) ]

def opsE7c : List (HloOp τ sig (Elt F)) :=
  [ binary main_v140 main_v138 main_v141 (mulf : (⟨S8192x2048, .f32⟩ : BufTy).Contents (Elt F) → (⟨S8192x2048, .f32⟩ : BufTy).Contents (Elt F) → (⟨S8192x2048, .f32⟩ : BufTy).Contents (Elt F)),
    unary main_arg4 main_v142 ((extractStridedSlice S1x2048x1024 ![7, 0, 0] · slices_S8x2048x1024_S1x2048x1024_7_0_0) : (⟨S8x2048x1024, .f32⟩ : BufTy).Contents (Elt F) → (⟨S1x2048x1024, .f32⟩ : BufTy).Contents (Elt F)),
    reshape main_v142 main_v143 rfl shapeCasts_S1x2048x1024_S2048x1024,
    binary main_v141 main_v143 main_v144 ((fun l r => Host.dotGeneral dot_S8192x2048_S2048x1024_S8192x1024_1_0_0_1_n_n none l r) : (⟨S8192x2048, .f32⟩ : BufTy).Contents (Elt F) → (⟨S2048x1024, .f32⟩ : BufTy).Contents (Elt F) → (⟨S8192x1024, .f32⟩ : BufTy).Contents (Elt F)),
    nullary main_c_13 (constantI S_ 32 7#32),
    unary main_c_13 main_v145 (broadcastInDim S8192x2 ![] bcast_S_S8192x2 : (⟨S_, .i32⟩ : BufTy).Contents (Elt F) → (⟨S8192x2, .i32⟩ : BufTy).Contents (Elt F)),
    binary main_arg2 main_v145 main_v146 (cmpi .eq : (⟨S8192x2, .i32⟩ : BufTy).Contents (Elt F) → (⟨S8192x2, .i32⟩ : BufTy).Contents (Elt F) → (⟨S8192x2, .i1⟩ : BufTy).Contents (Elt F)),
    unary main_v146 main_v147 (uitofp .f32 : (⟨S8192x2, .i1⟩ : BufTy).Contents (Elt F) → (⟨S8192x2, .f32⟩ : BufTy).Contents (Elt F)),
    binary main_arg1 main_v147 main_v148 (mulf : (⟨S8192x2, .f32⟩ : BufTy).Contents (Elt F) → (⟨S8192x2, .f32⟩ : BufTy).Contents (Elt F) → (⟨S8192x2, .f32⟩ : BufTy).Contents (Elt F)),
    nullary main_cst_14 (constant S_ .f32 0x00000000#32),
    binary main_v148 main_cst_14 main_v149 ((fun x v => Host.reduceAdd x v reducesTo_S8192x2_S8192_d1 h_S_) : (⟨S8192x2, .f32⟩ : BufTy).Contents (Elt F) → (⟨S_, .f32⟩ : BufTy).Contents (Elt F) → (⟨S8192, .f32⟩ : BufTy).Contents (Elt F)),
    unary main_v149 main_v150 (broadcastInDim S8192x1 ![0] bcast_S8192_S8192x1_0 : (⟨S8192, .f32⟩ : BufTy).Contents (Elt F) → (⟨S8192x1, .f32⟩ : BufTy).Contents (Elt F)),
    unary main_v150 main_v151 (broadcastInDim S8192x1024 ![0, 1] bcast_S8192x1_S8192x1024_0_1 : (⟨S8192x1, .f32⟩ : BufTy).Contents (Elt F) → (⟨S8192x1024, .f32⟩ : BufTy).Contents (Elt F)),
    binary main_v151 main_v144 main_v152 (mulf : (⟨S8192x1024, .f32⟩ : BufTy).Contents (Elt F) → (⟨S8192x1024, .f32⟩ : BufTy).Contents (Elt F) → (⟨S8192x1024, .f32⟩ : BufTy).Contents (Elt F)),
    binary main_v134 main_v152 main_v153 (addf : (⟨S8192x1024, .f32⟩ : BufTy).Contents (Elt F) → (⟨S8192x1024, .f32⟩ : BufTy).Contents (Elt F) → (⟨S8192x1024, .f32⟩ : BufTy).Contents (Elt F)) ]

def opsE7 : List (HloOp τ sig (Elt F)) := opsE7a ++ (siluOps (.of main_v139) main_call7 ++ opsE7c)

/-- After the loop: the sum as 2 × 4096 × 1024. -/
def opsTail : List (HloOp τ sig (Elt F)) :=
  [ reshape main_v153 main_v154 rfl shapeCasts_S8192x1024_S2x4096x1024 ]

/-- The whole program, in order. -/
def ops : List (HloOp τ sig (Elt F)) :=
  opsPre ++ (opsE0 ++ (opsE1 ++ (opsE2 ++ (opsE3 ++ (opsE4 ++ (opsE5 ++ (opsE6 ++ (opsE7 ++ opsTail))))))))

end Cert.Moe.Ref

end
-- ==== Proof.RefRun.lean ====
/-
  The reference program is its list of host operations run in order, so every weakly fair execution of it
  terminates, nothing faulting, with each buffer at the fold of the operations' results over the launch contents.
-/
import proofs.«121355_j88287347736701_1_alg».proof.Proof.RefOps

noncomputable section

namespace Cert.Moe.Ref

open Cert.ReferenceIdeal Cert.ReferenceIdeal.Facts₀ Cert.ReferenceIdeal.Facts Idealize.ShloMosaic Idealize.ShloMosaic.TcCoe
  Idealize.SL.Sem Idealize.ShloMosaic.StableHlo

variable {F : FTy → Type} [FloatOps F] [Cert.ReferenceIdeal.Facts]

/-! ## The program is the list, run in order -/

-- two hundred and thirty-six binds, compared one by one
set_option maxRecDepth 8192 in
/-- @main — its three windows, the gate function unfolded at its eight calls — is the straight line of `ops`. -/
theorem main_eq (c : Dev nD) : main (F := F) c = seq ops := rfl

/-! ## The signature scopes nothing -/

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and determines its result -/

/-- The property of an operation that the run asks for: its buffers are the TensorCore's. -/
abbrev OnTc (op : HloOp τ sig (Elt F)) : Prop := op.bufs ⊆ tcRefs τ sig

theorem sub_append {l₁ l₂ : List (HloOp τ sig (Elt F))} (h₁ : l₁.Forall OnTc) (h₂ : l₂.Forall OnTc) : (l₁ ++ l₂).Forall OnTc :=
  List.forall_append.2 ⟨h₁, h₂⟩

theorem fresh_append {l₁ l₂ : List (HloOp τ sig (Elt F))} (h₁ : ∀ op ∈ l₁, op.fresh = ∅) (h₂ : ∀ op ∈ l₂, op.fresh = ∅) :
    ∀ op ∈ l₁ ++ l₂, op.fresh = ∅ := fun op h => (List.mem_append.1 h).elim (h₁ op) (h₂ op)

theorem opsPre_sub : (opsPre (F := F)).Forall OnTc :=
  ⟨reshape_bufs_sub .., nullary_bufs_sub .., unary_bufs_sub ..⟩
theorem opsPre_fresh : ∀ op ∈ (opsPre (F := F)), op.fresh = ∅ := by
  intro _ h; (repeat (cases h with | head => rfl | tail _ h => ?_)); exact nomatch h

theorem siluOps_sub (a : StableHlo.TRef sig ⟨S8192x2048, .f32⟩) (φ : fn_silu.Bufs) : (siluOps (F := F) a φ).Forall OnTc :=
  ⟨unary_bufs_sub .., unary_bufs_sub .., nullary_bufs_sub .., unary_bufs_sub .., binary_bufs_sub .., nullary_bufs_sub ..,
    unary_bufs_sub .., binary_bufs_sub .., binary_bufs_sub ..⟩
theorem siluOps_fresh (a : StableHlo.TRef sig ⟨S8192x2048, .f32⟩) (φ : fn_silu.Bufs) :
    ∀ op ∈ (siluOps (F := F) a φ), op.fresh = ∅ := by
  intro _ h; (repeat (cases h with | head => rfl | tail _ h => ?_)); exact nomatch h

theorem opsE0a_sub : (opsE0a (F := F)).Forall OnTc :=
  ⟨unary_bufs_sub .., reshape_bufs_sub .., binary_bufs_sub .., unary_bufs_sub .., unary_bufs_sub ..⟩
theorem opsE0c_sub : (opsE0c (F := F)).Forall OnTc :=
  ⟨binary_bufs_sub .., unary_bufs_sub .., reshape_bufs_sub .., binary_bufs_sub .., nullary_bufs_sub .., unary_bufs_sub .., binary_bufs_sub .., unary_bufs_sub .., binary_bufs_sub .., nullary_bufs_sub .., binary_bufs_sub .., unary_bufs_sub .., unary_bufs_sub .., binary_bufs_sub .., binary_bufs_sub ..⟩
theorem opsE0_sub : (opsE0 (F := F)).Forall OnTc := sub_append opsE0a_sub (sub_append (siluOps_sub _ _) opsE0c_sub)
theorem opsE0a_fresh : ∀ op ∈ (opsE0a (F := F)), op.fresh = ∅ := by
  intro _ h; (repeat (cases h with | head => rfl | tail _ h => ?_)); exact nomatch h
theorem opsE0c_fresh : ∀ op ∈ (opsE0c (F := F)), op.fresh = ∅ := by
  intro _ h; (repeat (cases h with | head => rfl | tail _ h => ?_)); exact nomatch h
theorem opsE0_fresh : ∀ op ∈ (opsE0 (F := F)), op.fresh = ∅ := fresh_append opsE0a_fresh (fresh_append (siluOps_fresh _ _) opsE0c_fresh)

theorem opsE1a_sub : (opsE1a (F := F)).Forall OnTc :=
  ⟨unary_bufs_sub .., reshape_bufs_sub .., binary_bufs_sub .., unary_bufs_sub .., unary_bufs_sub ..⟩
theorem opsE1c_sub : (opsE1c (F := F)).Forall OnTc :=
  ⟨binary_bufs_sub .., unary_bufs_sub .., reshape_bufs_sub .., binary_bufs_sub .., nullary_bufs_sub .., unary_bufs_sub .., binary_bufs_sub .., unary_bufs_sub .., binary_bufs_sub .., nullary_bufs_sub .., binary_bufs_sub .., unary_bufs_sub .., unary_bufs_sub .., binary_bufs_sub .., binary_bufs_sub ..⟩
theorem opsE1_sub : (opsE1 (F := F)).Forall OnTc := sub_append opsE1a_sub (sub_append (siluOps_sub _ _) opsE1c_sub)
theorem opsE1a_fresh : ∀ op ∈ (opsE1a (F := F)), op.fresh = ∅ := by
  intro _ h; (repeat (cases h with | head => rfl | tail _ h => ?_)); exact nomatch h
theorem opsE1c_fresh : ∀ op ∈ (opsE1c (F := F)), op.fresh = ∅ := by
  intro _ h; (repeat (cases h with | head => rfl | tail _ h => ?_)); exact nomatch h
theorem opsE1_fresh : ∀ op ∈ (opsE1 (F := F)), op.fresh = ∅ := fresh_append opsE1a_fresh (fresh_append (siluOps_fresh _ _) opsE1c_fresh)

theorem opsE2a_sub : (opsE2a (F := F)).Forall OnTc :=
  ⟨unary_bufs_sub .., reshape_bufs_sub .., binary_bufs_sub .., unary_bufs_sub .., unary_bufs_sub ..⟩
theorem opsE2c_sub : (opsE2c (F := F)).Forall OnTc :=
  ⟨binary_bufs_sub .., unary_bufs_sub .., reshape_bufs_sub .., binary_bufs_sub .., nullary_bufs_sub .., unary_bufs_sub .., binary_bufs_sub .., unary_bufs_sub .., binary_bufs_sub .., nullary_bufs_sub .., binary_bufs_sub .., unary_bufs_sub .., unary_bufs_sub .., binary_bufs_sub .., binary_bufs_sub ..⟩
theorem opsE2_sub : (opsE2 (F := F)).Forall OnTc := sub_append opsE2a_sub (sub_append (siluOps_sub _ _) opsE2c_sub)
theorem opsE2a_fresh : ∀ op ∈ (opsE2a (F := F)), op.fresh = ∅ := by
  intro _ h; (repeat (cases h with | head => rfl | tail _ h => ?_)); exact nomatch h
theorem opsE2c_fresh : ∀ op ∈ (opsE2c (F := F)), op.fresh = ∅ := by
  intro _ h; (repeat (cases h with | head => rfl | tail _ h => ?_)); exact nomatch h
theorem opsE2_fresh : ∀ op ∈ (opsE2 (F := F)), op.fresh = ∅ := fresh_append opsE2a_fresh (fresh_append (siluOps_fresh _ _) opsE2c_fresh)

theorem opsE3a_sub : (opsE3a (F := F)).Forall OnTc :=
  ⟨unary_bufs_sub .., reshape_bufs_sub .., binary_bufs_sub .., unary_bufs_sub .., unary_bufs_sub ..⟩
theorem opsE3c_sub : (opsE3c (F := F)).Forall OnTc :=
  ⟨binary_bufs_sub .., unary_bufs_sub .., reshape_bufs_sub .., binary_bufs_sub .., nullary_bufs_sub .., unary_bufs_sub .., binary_bufs_sub .., unary_bufs_sub .., binary_bufs_sub .., nullary_bufs_sub .., binary_bufs_sub .., unary_bufs_sub .., unary_bufs_sub .., binary_bufs_sub .., binary_bufs_sub ..⟩
theorem opsE3_sub : (opsE3 (F := F)).Forall OnTc := sub_append opsE3a_sub (sub_append (siluOps_sub _ _) opsE3c_sub)
theorem opsE3a_fresh : ∀ op ∈ (opsE3a (F := F)), op.fresh = ∅ := by
  intro _ h; (repeat (cases h with | head => rfl | tail _ h => ?_)); exact nomatch h
theorem opsE3c_fresh : ∀ op ∈ (opsE3c (F := F)), op.fresh = ∅ := by
  intro _ h; (repeat (cases h with | head => rfl | tail _ h => ?_)); exact nomatch h
theorem opsE3_fresh : ∀ op ∈ (opsE3 (F := F)), op.fresh = ∅ := fresh_append opsE3a_fresh (fresh_append (siluOps_fresh _ _) opsE3c_fresh)

theorem opsE4a_sub : (opsE4a (F := F)).Forall OnTc :=
  ⟨unary_bufs_sub .., reshape_bufs_sub .., binary_bufs_sub .., unary_bufs_sub .., unary_bufs_sub ..⟩
theorem opsE4c_sub : (opsE4c (F := F)).Forall OnTc :=
  ⟨binary_bufs_sub .., unary_bufs_sub .., reshape_bufs_sub .., binary_bufs_sub .., nullary_bufs_sub .., unary_bufs_sub .., binary_bufs_sub .., unary_bufs_sub .., binary_bufs_sub .., nullary_bufs_sub .., binary_bufs_sub .., unary_bufs_sub .., unary_bufs_sub .., binary_bufs_sub .., binary_bufs_sub ..⟩
theorem opsE4_sub : (opsE4 (F := F)).Forall OnTc := sub_append opsE4a_sub (sub_append (siluOps_sub _ _) opsE4c_sub)
theorem opsE4a_fresh : ∀ op ∈ (opsE4a (F := F)), op.fresh = ∅ := by
  intro _ h; (repeat (cases h with | head => rfl | tail _ h => ?_)); exact nomatch h
theorem opsE4c_fresh : ∀ op ∈ (opsE4c (F := F)), op.fresh = ∅ := by
  intro _ h; (repeat (cases h with | head => rfl | tail _ h => ?_)); exact nomatch h
theorem opsE4_fresh : ∀ op ∈ (opsE4 (F := F)), op.fresh = ∅ := fresh_append opsE4a_fresh (fresh_append (siluOps_fresh _ _) opsE4c_fresh)

theorem opsE5a_sub : (opsE5a (F := F)).Forall OnTc :=
  ⟨unary_bufs_sub .., reshape_bufs_sub .., binary_bufs_sub .., unary_bufs_sub .., unary_bufs_sub ..⟩
theorem opsE5c_sub : (opsE5c (F := F)).Forall OnTc :=
  ⟨binary_bufs_sub .., unary_bufs_sub .., reshape_bufs_sub .., binary_bufs_sub .., nullary_bufs_sub .., unary_bufs_sub .., binary_bufs_sub .., unary_bufs_sub .., binary_bufs_sub .., nullary_bufs_sub .., binary_bufs_sub .., unary_bufs_sub .., unary_bufs_sub .., binary_bufs_sub .., binary_bufs_sub ..⟩
theorem opsE5_sub : (opsE5 (F := F)).Forall OnTc := sub_append opsE5a_sub (sub_append (siluOps_sub _ _) opsE5c_sub)
theorem opsE5a_fresh : ∀ op ∈ (opsE5a (F := F)), op.fresh = ∅ := by
  intro _ h; (repeat (cases h with | head => rfl | tail _ h => ?_)); exact nomatch h
theorem opsE5c_fresh : ∀ op ∈ (opsE5c (F := F)), op.fresh = ∅ := by
  intro _ h; (repeat (cases h with | head => rfl | tail _ h => ?_)); exact nomatch h
theorem opsE5_fresh : ∀ op ∈ (opsE5 (F := F)), op.fresh = ∅ := fresh_append opsE5a_fresh (fresh_append (siluOps_fresh _ _) opsE5c_fresh)

theorem opsE6a_sub : (opsE6a (F := F)).Forall OnTc :=
  ⟨unary_bufs_sub .., reshape_bufs_sub .., binary_bufs_sub .., unary_bufs_sub .., unary_bufs_sub ..⟩
theorem opsE6c_sub : (opsE6c (F := F)).Forall OnTc :=
  ⟨binary_bufs_sub .., unary_bufs_sub .., reshape_bufs_sub .., binary_bufs_sub .., nullary_bufs_sub .., unary_bufs_sub .., binary_bufs_sub .., unary_bufs_sub .., binary_bufs_sub .., nullary_bufs_sub .., binary_bufs_sub .., unary_bufs_sub .., unary_bufs_sub .., binary_bufs_sub .., binary_bufs_sub ..⟩
theorem opsE6_sub : (opsE6 (F := F)).Forall OnTc := sub_append opsE6a_sub (sub_append (siluOps_sub _ _) opsE6c_sub)
theorem opsE6a_fresh : ∀ op ∈ (opsE6a (F := F)), op.fresh = ∅ := by
  intro _ h; (repeat (cases h with | head => rfl | tail _ h => ?_)); exact nomatch h
theorem opsE6c_fresh : ∀ op ∈ (opsE6c (F := F)), op.fresh = ∅ := by
  intro _ h; (repeat (cases h with | head => rfl | tail _ h => ?_)); exact nomatch h
theorem opsE6_fresh : ∀ op ∈ (opsE6 (F := F)), op.fresh = ∅ := fresh_append opsE6a_fresh (fresh_append (siluOps_fresh _ _) opsE6c_fresh)

theorem opsE7a_sub : (opsE7a (F := F)).Forall OnTc :=
  ⟨unary_bufs_sub .., reshape_bufs_sub .., binary_bufs_sub .., unary_bufs_sub .., unary_bufs_sub ..⟩
theorem opsE7c_sub : (opsE7c (F := F)).Forall OnTc :=
  ⟨binary_bufs_sub .., unary_bufs_sub .., reshape_bufs_sub .., binary_bufs_sub .., nullary_bufs_sub .., unary_bufs_sub .., binary_bufs_sub .., unary_bufs_sub .., binary_bufs_sub .., nullary_bufs_sub .., binary_bufs_sub .., unary_bufs_sub .., unary_bufs_sub .., binary_bufs_sub .., binary_bufs_sub ..⟩
theorem opsE7_sub : (opsE7 (F := F)).Forall OnTc := sub_append opsE7a_sub (sub_append (siluOps_sub _ _) opsE7c_sub)
theorem opsE7a_fresh : ∀ op ∈ (opsE7a (F := F)), op.fresh = ∅ := by
  intro _ h; (repeat (cases h with | head => rfl | tail _ h => ?_)); exact nomatch h
theorem opsE7c_fresh : ∀ op ∈ (opsE7c (F := F)), op.fresh = ∅ := by
  intro _ h; (repeat (cases h with | head => rfl | tail _ h => ?_)); exact nomatch h
theorem opsE7_fresh : ∀ op ∈ (opsE7 (F := F)), op.fresh = ∅ := fresh_append opsE7a_fresh (fresh_append (siluOps_fresh _ _) opsE7c_fresh)

theorem opsTail_sub : (opsTail (F := F)).Forall OnTc := reshape_bufs_sub ..
theorem opsTail_fresh : ∀ op ∈ (opsTail (F := F)), op.fresh = ∅ := by
  intro _ h; (repeat (cases h with | head => rfl | tail _ h => ?_)); exact nomatch h

theorem ops_sub : (ops (F := F)).Forall fun op => op.bufs ⊆ tcRefs τ sig :=
  sub_append opsPre_sub (sub_append opsE0_sub (sub_append opsE1_sub (sub_append opsE2_sub (sub_append opsE3_sub
    (sub_append opsE4_sub (sub_append opsE5_sub (sub_append opsE6_sub (sub_append opsE7_sub opsTail_sub))))))))

theorem ops_fresh : ∀ op ∈ (ops (F := F)), op.fresh = ∅ :=
  fresh_append opsPre_fresh (fresh_append opsE0_fresh (fresh_append opsE1_fresh (fresh_append opsE2_fresh (fresh_append opsE3_fresh
    (fresh_append opsE4_fresh (fresh_append opsE5_fresh (fresh_append opsE6_fresh (fresh_append opsE7_fresh opsTail_fresh))))))))

/-! ## The run -/

/-- From any memory with zero counters, every weakly fair execution of @main on the TensorCore terminates, and every
    final state has each buffer at the fold of the operations' results over its launch contents. -/
theorem run_ops (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc),
        r.2.mem ((d.tc : Thread nD τ).loc b) = after (ops (F := F)) (launchContents m d) (Proc.devRef .tc b) :=
  run_seq scopedRefs_eq scopedSems_eq defs main (fun _ => ops) main_eq (fun _ => ops_sub) m ρ (fun _ => ops_fresh)

end Cert.Moe.Ref

end
-- ==== Proof.RefExpert.lean ====
/-
  One expert of the reference, as a function of the whole arrays: the host operations the reference's loop body
  performs for expert `e`, composed.  The expert enters only through the two slice offsets (which 1024 × 4096 and
  2048 × 1024 matrices are cut out of the stacked weights) and through the integer the routing indices are
  compared with.
-/
import proofs.«121355_j88287347736701_1_alg».proof.ReferenceIdeal

noncomputable section

namespace Cert.Moe.Ref

open Idealize.ShloMosaic Cert.ReferenceIdeal Cert.ReferenceIdeal.Facts₀

variable {F : FTy → Type} [FloatOps F] [Cert.ReferenceIdeal.Facts₀]

/-- Expert `e`'s scaled output for every token: the routing weight (probabilities times the indicator of "this
    slot names the expert", summed over the two slots, kept as a column and spread over the 1024 entries) times
    the gated feed-forward result (activations × first weights, split in value and gate halves,
    `gate · 1/(1 + exp(−gate)) · value`, × second weights). -/
def hostExpert (off3 : Fin 3 → Nat) (h3 : S8x1024x4096.Slices off3 S1x1024x4096)
    (off4 : Fin 3 → Nat) (h4 : S8x2048x1024.Slices off4 S1x2048x1024) (ec : BitVec 32)
    (XF : (⟨S8192x1024, .f32⟩ : BufTy).Contents (Elt F)) (P : (⟨S8192x2, .f32⟩ : BufTy).Contents (Elt F))
    (I : (⟨S8192x2, .i32⟩ : BufTy).Contents (Elt F)) (W13 : (⟨S8x1024x4096, .f32⟩ : BufTy).Contents (Elt F))
    (W2 : (⟨S8x2048x1024, .f32⟩ : BufTy).Contents (Elt F)) : (⟨S8192x1024, .f32⟩ : BufTy).Contents (Elt F) :=
  mulf
    (broadcastInDim S8192x1024 ![0, 1] bcast_S8192x1_S8192x1024_0_1
      (broadcastInDim S8192x1 ![0] bcast_S8192_S8192x1_0
        (Host.reduceAdd
          (mulf P (uitofp .f32 (cmpi .eq I (broadcastInDim S8192x2 ![] bcast_S_S8192x2 (constantI S_ 32 ec)))))
          (constant S_ .f32 0x00000000#32) reducesTo_S8192x2_S8192_d1 h_S_)))
    (Host.dotGeneral dot_S8192x2048_S2048x1024_S8192x1024_1_0_0_1_n_n none
      (mulf
        (mulf
          (extractStridedSlice S8192x2048 ![0, 2048]
            (Host.dotGeneral dot_S8192x1024_S1024x4096_S8192x4096_1_0_0_1_n_n none XF
              (shapeCast _ (extractStridedSlice S1x1024x4096 off3 W13 h3) shapeCasts_S1x1024x4096_S1024x4096))
            slices_S8192x4096_S8192x2048_0_2048)
          (Host.divf (broadcastInDim S8192x2048 ![] bcast_S_S8192x2048 (constant S_ .f32 0x3F800000#32))
            (addf (broadcastInDim S8192x2048 ![] bcast_S_S8192x2048 (constant S_ .f32 0x3F800000#32))
              (Host.exp (Host.negf
                (extractStridedSlice S8192x2048 ![0, 2048]
                  (Host.dotGeneral dot_S8192x1024_S1024x4096_S8192x4096_1_0_0_1_n_n none XF
                    (shapeCast _ (extractStridedSlice S1x1024x4096 off3 W13 h3) shapeCasts_S1x1024x4096_S1024x4096))
                  slices_S8192x4096_S8192x2048_0_2048))))))
        (extractStridedSlice S8192x2048 ![0, 0]
          (Host.dotGeneral dot_S8192x1024_S1024x4096_S8192x4096_1_0_0_1_n_n none XF
            (shapeCast _ (extractStridedSlice S1x1024x4096 off3 W13 h3) shapeCasts_S1x1024x4096_S1024x4096))
          slices_S8192x4096_S8192x2048_0_0))
      (shapeCast _ (extractStridedSlice S1x2048x1024 off4 W2 h4) shapeCasts_S1x2048x1024_S2048x1024))

end Cert.Moe.Ref

end
-- ==== Proof.LibHostRead.lean ====
/-
  A jnp reference's host operations read at an index, on the extended reals, for any extents.

  The broadcasts a reduction with keepdims or a row / column operand prints: a vector kept as a one-column or one-row
  matrix, a one-column or one-row matrix spread over the other axis, the same with a trailing unit axis of a three-axis
  array; a literal splat to any shape; the host's sum over the last axis of a matrix or of a three-axis array from an
  initial value that is zero, as the plain sum over that axis's coordinates; the host's quotient, square root,
  reciprocal square root and logarithm entry by entry; and a reshape that splits the second axis of a matrix in two:
  entry (r, k, p) of the [a, c, d] array is entry (r, k · d + p) of the [a, c · d] matrix.
-/
import Idealize.ShloMosaic.Lib.ValueIdx
import Idealize.ShloMosaic.Lib.Pipeline.Value
import Idealize.ShloMosaic.PureOps.Ideal.Laws

noncomputable section

namespace Cert.LibHostRead

open Idealize.ShloMosaic Idealize.ShloMosaic.ValueIdx
open scoped BigOperators

/-! ## Host operations read at an index, for any extents -/

section Helpers
variable {α : Type}

/-- A splat of a literal, broadcast to any shape, is the literal's value at every index. -/
theorem bcastConst_apply {s t : Shape} (dims : Fin s.rank → Fin t.rank) (h : s.BroadcastsInDim t dims) (w : BitVec 32)
    (j : t.Idx) : broadcastInDim t dims h (constant (F := Ideal) s .f32 w) j = Ideal.ofBits .f32 w := rfl

/-- A vector kept as a one-column matrix reads, at `(r, z)`, entry `r`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (r : Fin a) (z : Fin 1) :
    broadcastInDim ⟨2, ![a, 1]⟩ (![0] : Fin 1 → Fin 2) h x (ix2 r z) = x (ix1 r) := by
  refine broadcastInDim_apply _ h x (ix2 r z) (ix1 r) fun ax => ?_
  match ax with
  | ⟨0, _⟩ =>
    show r.val = if a = 1 then 0 else r.val
    split
    · have := r.isLt; omega
    · rfl

/-- A one-column matrix spread over `b` columns reads, at `(r, d)`, the column's entry of row `r`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 r (0 : Fin 1)) := by
  refine broadcastInDim_apply _ h x (ix2 r d) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else d.val
    rw [if_pos rfl]

/-- A vector kept as a one-row matrix reads, at `(z, d)`, entry `d`. -/
theorem bcast_b_1b_apply {b : ℕ} (x : (⟨1, ![b]⟩ : Shape).Idx → α)
    (h : (⟨1, ![b]⟩ : Shape).BroadcastsInDim ⟨2, ![1, b]⟩ (![1] : Fin 1 → Fin 2)) (z : Fin 1) (d : Fin b) :
    broadcastInDim ⟨2, ![1, b]⟩ (![1] : Fin 1 → Fin 2) h x (ix2 z d) = x (ix1 d) := by
  refine broadcastInDim_apply _ h x (ix2 z d) (ix1 d) fun ax => ?_
  match ax with
  | ⟨0, _⟩ =>
    show d.val = if b = 1 then 0 else d.val
    split
    · have := d.isLt; omega
    · rfl

/-- A one-row matrix spread over `a` rows reads, at `(r, d)`, the row's entry of column `d`. -/
theorem bcast_1b_ab_apply {a b : ℕ} (x : (⟨2, ![1, b]⟩ : Shape).Idx → α)
    (h : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 (0 : Fin 1) d) := by
  refine broadcastInDim_apply _ h x (ix2 r d) (ix2 (0 : Fin 1) d) fun ax => ?_
  match ax with
  | ⟨0, _⟩ =>
    show (0 : ℕ) = if (1 : ℕ) = 1 then 0 else r.val
    rw [if_pos rfl]
  | ⟨1, _⟩ =>
    show d.val = if b = 1 then 0 else d.val
    split
    · have := d.isLt; omega
    · rfl

/-- A vector spread over the rows of a matrix, through a one-row matrix: at `(r, d)`, entry `d`. -/
theorem bcastRow_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h2 (broadcastInDim ⟨2, ![1, b]⟩ (![1] : Fin 1 → Fin 2) h1 x) (ix2 r d)
      = x (ix1 d) :=
  (bcast_1b_ab_apply _ h2 r d).trans (bcast_b_1b_apply x h1 0 d)

/-- An `[a, b]` array kept as `[a, b, 1]` reads, at `(i, j, z)`, entry `(i, j)`. -/
theorem bcast_ab_ab1_apply {a b : ℕ} (x : (⟨2, ![a, b]⟩ : Shape).Idx → α)
    (h : (⟨2, ![a, b]⟩ : Shape).BroadcastsInDim ⟨3, ![a, b, 1]⟩ (![0, 1] : Fin 2 → Fin 3)) (i : Fin a) (j : Fin b) (z : Fin 1) :
    broadcastInDim ⟨3, ![a, b, 1]⟩ (![0, 1] : Fin 2 → Fin 3) h x (ix3 i j z) = x (ix2 i j) := by
  refine broadcastInDim_apply _ h x (ix3 i j z) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- An `[a, b, 1]` array spread over `c` entries of the last axis reads, at `(i, j, k)`, entry `(i, j, 0)`. -/
theorem bcast_ab1_abc_apply {a b c : ℕ} (x : (⟨3, ![a, b, 1]⟩ : Shape).Idx → α)
    (h : (⟨3, ![a, b, 1]⟩ : Shape).BroadcastsInDim ⟨3, ![a, b, c]⟩ (![0, 1, 2] : Fin 3 → Fin 3)) (i : Fin a) (j : Fin b) (k : Fin c) :
    broadcastInDim ⟨3, ![a, b, c]⟩ (![0, 1, 2] : Fin 3 → Fin 3) h x (ix3 i j k) = x (ix3 i j (0 : Fin 1)) := by
  refine broadcastInDim_apply _ h x (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- The host's sum of each row of a matrix, from an initial value that is zero: at row `r`, the sum over the columns. -/
theorem hostSumAxis1_apply {a b : ℕ} (x : (⟨2, ![a, b]⟩ : Shape).Idx → EReal) {u : Shape} (init : u.Idx → EReal)
    (h' : (⟨2, ![a, b]⟩ : Shape).ReducesTo [1] ⟨1, ![a]⟩) (hu : 0 < u.numel)
    (hinit : init (Shape.Idx.first hu) = 0) (r : Fin a) :
    Host.reduceAdd (F := Ideal) (φ := .f32) x init h' hu (ix1 r) = ∑ d : Fin b, x (ix2 r d) := by
  have h : (⟨2, ![a, b]⟩ : Shape).Reduces [1] ⟨1, ![a]⟩ := ⟨h'.1, Nat.one_pos, h'.2⟩
  show Ideal.hostReduceAdd h' x (init (Shape.Idx.first hu)) (ix1 r) = _
  rw [hinit, Ideal.hostReduceAdd_single h' h x 0 (ix1 r), zero_add]
  exact Finset.sum_congr rfl fun k _ => congrArg x (funext fun ax => Fin.ext (match ax with | ⟨0, _⟩ => rfl | ⟨1, _⟩ => rfl))

/-- The host's sum over the last axis of a three-axis array, from zero: at `(i, j)`, the sum over `k` of the entries `(i, j, k)`. -/
theorem hostSumAxis2_apply {a b c : ℕ} (x : (⟨3, ![a, b, c]⟩ : Shape).Idx → EReal) {u : Shape} (init : u.Idx → EReal)
    (h' : (⟨3, ![a, b, c]⟩ : Shape).ReducesTo [2] ⟨2, ![a, b]⟩) (hu : 0 < u.numel)
    (hinit : init (Shape.Idx.first hu) = 0) (i : Fin a) (j : Fin b) :
    Host.reduceAdd (F := Ideal) (φ := .f32) x init h' hu (ix2 i j) = ∑ k : Fin c, x (ix3 i j k) := by
  have h : (⟨3, ![a, b, c]⟩ : Shape).Reduces [2] ⟨2, ![a, b]⟩ := ⟨h'.1, Nat.two_pos, h'.2⟩
  show Ideal.hostReduceAdd h' x (init (Shape.Idx.first hu)) (ix2 i j) = _
  rw [hinit, Ideal.hostReduceAdd_single h' h x 0 (ix2 i j), zero_add]
  refine Finset.sum_congr rfl fun k _ => congrArg x (funext fun ax => Fin.ext ?_)
  match ax with
  | ⟨0, _⟩ => rfl
  | ⟨1, _⟩ => rfl
  | ⟨2, _⟩ => rfl

end Helpers

/-! ## Pointwise host operations at the extended reals -/

theorem hostDivf_apply {s : Shape} (x y : FVec Ideal s .f32) (i : s.Idx) : Host.divf x y i = Ideal.div (x i) (y i) := rfl
theorem hostSqrt_apply {s : Shape} (x : FVec Ideal s .f32) (i : s.Idx) : Host.sqrt x i = Ideal.sqrt (x i) := rfl
theorem hostRsqrt_apply {s : Shape} (x : FVec Ideal s .f32) (i : s.Idx) : Host.rsqrt x i = Ideal.rsqrt (x i) := rfl
theorem hostLog_apply {s : Shape} (x : FVec Ideal s .f32) (i : s.Idx) : Host.log x i = Ideal.log (x i) := rfl

/-- A matrix whose second axis is split in two reads, at `(r, k, p)`, the matrix at `(r, k · d + p)`. -/
theorem shapeCast_ab_acd_apply {α : Type} {a b c d : ℕ} (X : (⟨2, ![a, b]⟩ : Shape).Idx → α)
    (h : (⟨2, ![a, b]⟩ : Shape).ShapeCasts ⟨3, ![a, c, d]⟩) (hb : b = c * d) (r : Fin a) (k : Fin c) (p : Fin d) (kp : Fin b)
    (hkp : kp.val = k.val * d + p.val) : shapeCast ⟨3, ![a, c, d]⟩ X h (ix3 r k p) = X (ix2 r kp) :=
  shapeCast_apply X h _ _ (by
    rw [Shape.rowMajor_val_two, Shape.rowMajor_val_three]
    show r.val * b + kp.val = (r.val * c + k.val) * d + p.val
    rw [hkp, hb]; ring)

end Cert.LibHostRead

end
-- ==== Proof.RefExpertAt.lean ====
/-
  One expert of the reference read at an entry: the composed host term of expert `e`, at `(t, d)`, is the
  expert's contribution of the specification — the token's routing weight for `e` times the gated feed-forward
  result.  Each host operation is read at an index in turn: the slices and reshapes of the stacked weights pick
  expert `e`'s matrices, the two matrix products are sums over the contracted coordinate, the quotient
  `1 / (1 + exp (−g))` is the logistic function, and the row sum of "probability times the bit of the comparison"
  is the sum of the probabilities of the slots that name the expert.
-/
import proofs.«121355_j88287347736701_1_alg».proof.Proof.Spec
import proofs.«121355_j88287347736701_1_alg».proof.Proof.RefExpert
import proofs.«121355_j88287347736701_1_alg».proof.Proof.LibDot
import proofs.«121355_j88287347736701_1_alg».proof.Proof.LibHostRead
import Idealize.ShloMosaic.Lib.Pipeline.Value
import Idealize.ShloMosaic.Lib.ValueIdx
import Idealize.ShloMosaic.PureOps.Ideal.Laws

noncomputable section

namespace Cert.Moe.Ref

open Idealize.ShloMosaic Idealize.ShloMosaic.ValueIdx Cert.ReferenceIdeal Cert.ReferenceIdeal.Facts₀
open scoped BigOperators

variable [Cert.ReferenceIdeal.Facts₀]

/-- The single-precision pattern of the number one. -/
theorem ofBits_one_f32 : Ideal.ofBits .f32 0x3F800000#32 = 1 := by
  simp [Ideal.ofBits, Ideal.ieee, -EReal.coe_mul]; norm_num

/-- Expert `e`'s first weight matrix, cut out of the stack and reshaped, at `(c, j)`. -/
theorem w13_at (e : Fin 8) (off3 : Fin 3 → Nat) (h3 : S8x1024x4096.Slices off3 S1x1024x4096)
    (hoff3 : off3 = ![e.val, 0, 0]) (W13 : (⟨S8x1024x4096, .f32⟩ : BufTy).Contents (Elt Ideal))
    (c : Fin 1024) (j : Fin 4096) :
    shapeCast S1024x4096 (extractStridedSlice S1x1024x4096 off3 W13 h3) shapeCasts_S1x1024x4096_S1024x4096 (ix2 c j)
      = W13 (ix3 e c j) := by
  subst hoff3
  refine (shapeCast_dropUnit_apply ![1024, 4096] _ shapeCasts_S1x1024x4096_S1024x4096 (ix2 c j)).trans ?_
  refine extractStridedSlice_apply _ W13 h3 _ (ix3 e c j) fun a => ?_
  match a with
  | ⟨0, _⟩ => rfl
  | ⟨1, _⟩ => show c.val = 0 + c.val; omega
  | ⟨2, _⟩ => show j.val = 0 + j.val; omega

/-- Expert `e`'s second weight matrix, cut out of the stack and reshaped, at `(k, d)`. -/
theorem w2_at (e : Fin 8) (off4 : Fin 3 → Nat) (h4 : S8x2048x1024.Slices off4 S1x2048x1024)
    (hoff4 : off4 = ![e.val, 0, 0]) (W2 : (⟨S8x2048x1024, .f32⟩ : BufTy).Contents (Elt Ideal))
    (k : Fin 2048) (d : Fin 1024) :
    shapeCast S2048x1024 (extractStridedSlice S1x2048x1024 off4 W2 h4) shapeCasts_S1x2048x1024_S2048x1024 (ix2 k d)
      = W2 (ix3 e k d) := by
  subst hoff4
  refine (shapeCast_dropUnit_apply ![2048, 1024] _ shapeCasts_S1x2048x1024_S2048x1024 (ix2 k d)).trans ?_
  refine extractStridedSlice_apply _ W2 h4 _ (ix3 e k d) fun a => ?_
  match a with
  | ⟨0, _⟩ => rfl
  | ⟨1, _⟩ => show k.val = 0 + k.val; omega
  | ⟨2, _⟩ => show d.val = 0 + d.val; omega

/-- The first product at `(t, j)`: the token's row against column `j` of expert `e`'s first weight matrix. -/
theorem proj_at (e : Fin 8) (off3 : Fin 3 → Nat) (h3 : S8x1024x4096.Slices off3 S1x1024x4096)
    (hoff3 : off3 = ![e.val, 0, 0]) (XF : (⟨S8192x1024, .f32⟩ : BufTy).Contents (Elt Ideal))
    (W13 : (⟨S8x1024x4096, .f32⟩ : BufTy).Contents (Elt Ideal)) (t : Fin 8192) (j : Fin 4096) :
    Host.dotGeneral (F := Ideal) (φ₁ := .f32) (φ₂ := .f32) dot_S8192x1024_S1024x4096_S8192x4096_1_0_0_1_n_n none XF
        (shapeCast S1024x4096 (extractStridedSlice S1x1024x4096 off3 W13 h3) shapeCasts_S1x1024x4096_S1024x4096) (ix2 t j)
      = Cert.Moe.proj XF W13 e t j := by
  have h := Cert.LibDot.dotGeneral_apply (φ₁ := .f32) (φ₂ := .f32) dot_S8192x1024_S1024x4096_S8192x4096_1_0_0_1_n_n_wf none XF
    (shapeCast S1024x4096 (extractStridedSlice S1x1024x4096 off3 W13 h3) shapeCasts_S1x1024x4096_S1024x4096) t j
  refine h.trans ?_
  unfold Cert.Moe.proj
  exact Finset.sum_congr rfl fun c _ => by rw [w13_at e off3 h3 hoff3 W13 c j]

/-- The gate half of a 4096-column array at `(t, k)`: column `2048 + k`. -/
theorem high_at (D : S8192x4096.Idx → EReal) (t : Fin 8192) (k : Fin 2048) :
    extractStridedSlice S8192x2048 ![0, 2048] D slices_S8192x4096_S8192x2048_0_2048 (ix2 t k)
      = D (ix2 t (Cert.Moe.highHalf k)) := by
  refine extractStridedSlice_apply _ D _ (ix2 t k) (ix2 t (Cert.Moe.highHalf k)) fun a => ?_
  match a with
  | ⟨0, _⟩ => show t.val = 0 + t.val; omega
  | ⟨1, _⟩ => rfl

/-- The value half at `(t, k)`: column `k`. -/
theorem low_at (D : S8192x4096.Idx → EReal) (t : Fin 8192) (k : Fin 2048) :
    extractStridedSlice S8192x2048 ![0, 0] D slices_S8192x4096_S8192x2048_0_0 (ix2 t k)
      = D (ix2 t (Cert.Moe.lowHalf k)) := by
  refine extractStridedSlice_apply _ D _ (ix2 t k) (ix2 t (Cert.Moe.lowHalf k)) fun a => ?_
  match a with
  | ⟨0, _⟩ => show t.val = 0 + t.val; omega
  | ⟨1, _⟩ => show k.val = 0 + k.val; omega

/-- The quotient `1 / (1 + exp (−g))`, entry by entry, is the logistic function of `g`. -/
theorem logistic_at (G : FVec Ideal S8192x2048 .f32) (i : S8192x2048.Idx) :
    Host.divf (F := Ideal) (φ := .f32)
      (broadcastInDim S8192x2048 ![] bcast_S_S8192x2048 (constant (F := Ideal) S_ .f32 0x3F800000#32))
      (addf (broadcastInDim S8192x2048 ![] bcast_S_S8192x2048 (constant (F := Ideal) S_ .f32 0x3F800000#32))
        (Host.exp (Host.negf G))) i = Ideal.logistic (G i) := by
  show Ideal.div (Ideal.ofBits .f32 0x3F800000#32) (Ideal.ofBits .f32 0x3F800000#32 + Ideal.exp (-(G i))) = _
  rw [ofBits_one_f32]; rfl

/-- The hidden entry `(t, k)`: gate times its logistic, times value. -/
theorem hidden_at (e : Fin 8) (off3 : Fin 3 → Nat) (h3 : S8x1024x4096.Slices off3 S1x1024x4096)
    (hoff3 : off3 = ![e.val, 0, 0]) (XF : (⟨S8192x1024, .f32⟩ : BufTy).Contents (Elt Ideal))
    (W13 : (⟨S8x1024x4096, .f32⟩ : BufTy).Contents (Elt Ideal)) (t : Fin 8192) (k : Fin 2048) :
    mulf (F := Ideal) (φ := .f32)
        (mulf
          (extractStridedSlice S8192x2048 ![0, 2048]
            (Host.dotGeneral (F := Ideal) (φ₁ := .f32) (φ₂ := .f32) dot_S8192x1024_S1024x4096_S8192x4096_1_0_0_1_n_n none XF
              (shapeCast S1024x4096 (extractStridedSlice S1x1024x4096 off3 W13 h3) shapeCasts_S1x1024x4096_S1024x4096))
            slices_S8192x4096_S8192x2048_0_2048)
          (Host.divf (broadcastInDim S8192x2048 ![] bcast_S_S8192x2048 (constant S_ .f32 0x3F800000#32))
            (addf (broadcastInDim S8192x2048 ![] bcast_S_S8192x2048 (constant S_ .f32 0x3F800000#32))
              (Host.exp (Host.negf
                (extractStridedSlice S8192x2048 ![0, 2048]
                  (Host.dotGeneral (F := Ideal) (φ₁ := .f32) (φ₂ := .f32) dot_S8192x1024_S1024x4096_S8192x4096_1_0_0_1_n_n none XF
                    (shapeCast S1024x4096 (extractStridedSlice S1x1024x4096 off3 W13 h3) shapeCasts_S1x1024x4096_S1024x4096))
                  slices_S8192x4096_S8192x2048_0_2048))))))
        (extractStridedSlice S8192x2048 ![0, 0]
          (Host.dotGeneral (F := Ideal) (φ₁ := .f32) (φ₂ := .f32) dot_S8192x1024_S1024x4096_S8192x4096_1_0_0_1_n_n none XF
            (shapeCast S1024x4096 (extractStridedSlice S1x1024x4096 off3 W13 h3) shapeCasts_S1x1024x4096_S1024x4096))
          slices_S8192x4096_S8192x2048_0_0) (ix2 t k)
      = Cert.Moe.hidden XF W13 e t k := by
  rw [mulf_apply, mulf_apply, logistic_at, high_at, low_at, proj_at e off3 h3 hoff3, proj_at e off3 h3 hoff3]
  rfl

/-- One routing slot's term: the probability times the bit "the slot names `ec`" read as a number —
    the probability itself when it does (`p · 1`), zero when not (`p · 0`, for every extended real `p`). -/
theorem slot_at (ec : BitVec 32) (P : (⟨S8192x2, .f32⟩ : BufTy).Contents (Elt Ideal))
    (I : (⟨S8192x2, .i32⟩ : BufTy).Contents (Elt Ideal)) (t : Fin 8192) (j : Fin 2) :
    mulf (F := Ideal) (φ := .f32) P
        (uitofp .f32 (cmpi .eq I (broadcastInDim S8192x2 ![] bcast_S_S8192x2 (constantI S_ 32 ec)))) (ix2 t j)
      = if I (ix2 t j) = ec then P (ix2 t j) else 0 := by
  show P (ix2 t j) * (((IntOp.cmpi .eq (I (ix2 t j)) ec).toNat : ℝ) : EReal) = _
  by_cases h : I (ix2 t j) = ec
  · rw [if_pos h, h]; simp [IntOp.cmpi]
  · rw [if_neg h]; simp [IntOp.cmpi, h]

/-- The routing weight, kept as a column and spread over the 1024 entries, at `(t, d)`. -/
theorem weight_at (e : Fin 8) (ec : BitVec 32) (hec : ec = BitVec.ofNat 32 e.val)
    (P : (⟨S8192x2, .f32⟩ : BufTy).Contents (Elt Ideal)) (I : (⟨S8192x2, .i32⟩ : BufTy).Contents (Elt Ideal))
    (t : Fin 8192) (d : Fin 1024) :
    broadcastInDim S8192x1024 ![0, 1] bcast_S8192x1_S8192x1024_0_1
        (broadcastInDim S8192x1 ![0] bcast_S8192_S8192x1_0
          (Host.reduceAdd (F := Ideal) (φ := .f32)
            (mulf P (uitofp .f32 (cmpi .eq I (broadcastInDim S8192x2 ![] bcast_S_S8192x2 (constantI S_ 32 ec)))))
            (constant S_ .f32 0x00000000#32) reducesTo_S8192x2_S8192_d1 h_S_)) (ix2 t d)
      = Cert.Moe.weight P I e t := by
  rw [Cert.LibHostRead.bcast_a1_ab_apply, Cert.LibHostRead.bcast_a_a1_apply,
    Cert.LibHostRead.hostSumAxis1_apply _ _ _ _ Ideal.ofBits_zero_f32]
  unfold Cert.Moe.weight
  subst hec
  exact Finset.sum_congr rfl fun j _ => slot_at _ P I t j

/-- The second product at `(t, d)`: the hidden row against column `d` of expert `e`'s second weight matrix. -/
theorem mixed_at (e : Fin 8) (off3 : Fin 3 → Nat) (h3 : S8x1024x4096.Slices off3 S1x1024x4096)
    (off4 : Fin 3 → Nat) (h4 : S8x2048x1024.Slices off4 S1x2048x1024)
    (hoff3 : off3 = ![e.val, 0, 0]) (hoff4 : off4 = ![e.val, 0, 0])
    (XF : (⟨S8192x1024, .f32⟩ : BufTy).Contents (Elt Ideal)) (W13 : (⟨S8x1024x4096, .f32⟩ : BufTy).Contents (Elt Ideal))
    (W2 : (⟨S8x2048x1024, .f32⟩ : BufTy).Contents (Elt Ideal)) (t : Fin 8192) (d : Fin 1024) :
    Host.dotGeneral (F := Ideal) (φ₁ := .f32) (φ₂ := .f32) dot_S8192x2048_S2048x1024_S8192x1024_1_0_0_1_n_n none
      (mulf (F := Ideal) (φ := .f32)
        (mulf
          (extractStridedSlice S8192x2048 ![0, 2048]
            (Host.dotGeneral (F := Ideal) (φ₁ := .f32) (φ₂ := .f32) dot_S8192x1024_S1024x4096_S8192x4096_1_0_0_1_n_n none XF
              (shapeCast S1024x4096 (extractStridedSlice S1x1024x4096 off3 W13 h3) shapeCasts_S1x1024x4096_S1024x4096))
            slices_S8192x4096_S8192x2048_0_2048)
          (Host.divf (broadcastInDim S8192x2048 ![] bcast_S_S8192x2048 (constant S_ .f32 0x3F800000#32))
            (addf (broadcastInDim S8192x2048 ![] bcast_S_S8192x2048 (constant S_ .f32 0x3F800000#32))
              (Host.exp (Host.negf
                (extractStridedSlice S8192x2048 ![0, 2048]
                  (Host.dotGeneral (F := Ideal) (φ₁ := .f32) (φ₂ := .f32) dot_S8192x1024_S1024x4096_S8192x4096_1_0_0_1_n_n none XF
                    (shapeCast S1024x4096 (extractStridedSlice S1x1024x4096 off3 W13 h3) shapeCasts_S1x1024x4096_S1024x4096))
                  slices_S8192x4096_S8192x2048_0_2048))))))
        (extractStridedSlice S8192x2048 ![0, 0]
          (Host.dotGeneral (F := Ideal) (φ₁ := .f32) (φ₂ := .f32) dot_S8192x1024_S1024x4096_S8192x4096_1_0_0_1_n_n none XF
            (shapeCast S1024x4096 (extractStridedSlice S1x1024x4096 off3 W13 h3) shapeCasts_S1x1024x4096_S1024x4096))
          slices_S8192x4096_S8192x2048_0_0))
      (shapeCast S2048x1024 (extractStridedSlice S1x2048x1024 off4 W2 h4) shapeCasts_S1x2048x1024_S2048x1024) (ix2 t d)
      = Cert.Moe.mixed XF W13 W2 e t d := by
  refine (Cert.LibDot.dotGeneral_apply (φ₁ := .f32) (φ₂ := .f32)
    dot_S8192x2048_S2048x1024_S8192x1024_1_0_0_1_n_n_wf none _ _ t d).trans ?_
  unfold Cert.Moe.mixed
  exact Finset.sum_congr rfl fun k _ => by
    rw [hidden_at e off3 h3 hoff3 XF W13 t k, w2_at e off4 h4 hoff4 W2 k d]

/-- Expert `e`'s composed host term at `(t, d)` is the expert's contribution of the specification. -/
theorem hostExpert_apply (e : Fin 8) (off3 : Fin 3 → Nat) (h3 : S8x1024x4096.Slices off3 S1x1024x4096)
    (off4 : Fin 3 → Nat) (h4 : S8x2048x1024.Slices off4 S1x2048x1024) (ec : BitVec 32)
    (hoff3 : off3 = ![e.val, 0, 0]) (hoff4 : off4 = ![e.val, 0, 0]) (hec : ec = BitVec.ofNat 32 e.val)
    (XF : (⟨S8192x1024, .f32⟩ : BufTy).Contents (Elt Ideal)) (P : (⟨S8192x2, .f32⟩ : BufTy).Contents (Elt Ideal))
    (I : (⟨S8192x2, .i32⟩ : BufTy).Contents (Elt Ideal)) (W13 : (⟨S8x1024x4096, .f32⟩ : BufTy).Contents (Elt Ideal))
    (W2 : (⟨S8x2048x1024, .f32⟩ : BufTy).Contents (Elt Ideal)) (t : Fin 8192) (d : Fin 1024) :
    hostExpert (F := Ideal) off3 h3 off4 h4 ec XF P I W13 W2 (ValueIdx.ix2 t d)
      = Cert.Moe.term XF P I W13 W2 e t d := by
  unfold hostExpert
  rw [mulf_apply, weight_at e ec hec P I t d]
  exact congrArg (Cert.Moe.weight P I e t * ·) (mixed_at e off3 h3 off4 h4 hoff3 hoff4 XF W13 W2 t d)

end Cert.Moe.Ref

end
-- ==== Proof.LibHostLine.lean ====
/-
  A straight line of host operations each of which writes one buffer of its own.

  When the operations of a line write pairwise different buffers, what a buffer holds after the line (or after a
  prefix of it) is decided locally: a buffer nobody writes keeps its contents (`after_take_unwritten`), and the
  buffer written at position `n` holds the result of operation `n` over the contents just before it, whatever
  follows (`after_take_at`). The corollaries name the four builders a printed reference uses, so that the
  operation at a literal position is recovered by unification (`hop` by `rfl`) and the statement speaks of its
  function and operand buffers directly.
-/
import Idealize.ShloMosaic.Lib.StableHlo.Run

noncomputable section

namespace Idealize.ShloMosaic.StableHlo

open Idealize.ShloMosaic.TcCoe

variable {τ : Topo} {sig : RefSig} {Val : EltTy → Type}

/-- Running two lines one after the other. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- The operations `ops` write the buffers `W`, one each, in order. -/
def WritesOne (ops : List (HloOp τ sig Val)) (W : List (Ref sig .tc)) : Prop :=
  List.Forall₂ (fun op y => op.writes = {Proc.devRef (τ := τ) .tc y}) ops W

theorem WritesOne.append {l₁ l₂ : List (HloOp τ sig Val)} {W₁ W₂ : List (Ref sig .tc)} (h₁ : WritesOne l₁ W₁)
    (h₂ : WritesOne l₂ W₂) : WritesOne (l₁ ++ l₂) (W₁ ++ W₂) := by
  induction h₁ with
  | nil => exact h₂
  | cons hw _ ih => exact List.Forall₂.cons hw ih

theorem WritesOne.take {ops : List (HloOp τ sig Val)} {W : List (Ref sig .tc)} (h : WritesOne ops W) (N : Nat) :
    WritesOne (ops.take N) (W.take N) := by
  induction h generalizing N with
  | nil => simp only [List.take_nil]; exact List.Forall₂.nil
  | cons hw _ ih =>
    cases N with
    | zero => exact List.Forall₂.nil
    | succ N => exact List.Forall₂.cons hw (ih N)

theorem WritesOne.length_eq {ops : List (HloOp τ sig Val)} {W : List (Ref sig .tc)} (h : WritesOne ops W) :
    ops.length = W.length := List.Forall₂.length_eq h

/-- A buffer that is none of the written ones keeps its contents through the line. -/
theorem after_unwritten {ops : List (HloOp τ sig Val)} {W : List (Ref sig .tc)} (h : WritesOne ops W) {b : Ref sig .tc}
    (hb : b ∉ W) (V : Valuation τ sig Val) : after ops V (Proc.devRef .tc b) = V (Proc.devRef .tc b) := by
  induction h generalizing V with
  | nil => rfl
  | @cons op y ops W hw _ ih =>
    have hby : b ≠ y := fun e => hb (e ▸ List.mem_cons_self)
    rw [after_cons, ih (fun hm => hb (List.mem_cons_of_mem _ hm)),
      op.result_of_not_mem V (by rw [hw, Finset.mem_singleton]; exact fun e => hby (Proc.devRef_injective _ e))]

/-- And through any prefix of it. -/
theorem after_take_unwritten {ops : List (HloOp τ sig Val)} {W : List (Ref sig .tc)} (h : WritesOne ops W) {b : Ref sig .tc}
    (hb : b ∉ W) (V : Valuation τ sig Val) (N : Nat) :
    after (ops.take N) V (Proc.devRef .tc b) = V (Proc.devRef .tc b) :=
  after_unwritten (h.take N) (fun hm => hb (List.mem_of_mem_take hm)) V

/-- **The buffer written at position `n`**, after any prefix that includes that position, holds operation `n`'s
    result over the contents just before it: no later operation writes it again. -/
theorem after_take_at {ops : List (HloOp τ sig Val)} {W : List (Ref sig .tc)} (h : WritesOne ops W) (hnd : W.Nodup)
    (V : Valuation τ sig Val) (n N : Nat) (hnN : n < N) (hn : n < ops.length) (hn' : n < W.length) :
    after (ops.take N) V (Proc.devRef .tc W[n]) = (ops[n]).result (after (ops.take n) V) (Proc.devRef .tc W[n]) := by
  induction h generalizing V n N with
  | nil => exact absurd hn (Nat.not_lt_zero _)
  | @cons op y ops W hw hrest ih =>
    obtain ⟨N, rfl⟩ : ∃ N', N = N' + 1 := ⟨N - 1, by omega⟩
    have hy : y ∉ W := (List.nodup_cons.1 hnd).1
    cases n with
    | zero =>
      show after (ops.take N) (op.result V) (Proc.devRef .tc y) = op.result V (Proc.devRef .tc y)
      exact after_take_unwritten hrest hy _ N
    | succ n =>
      have hn0 : n < ops.length := by simpa using hn
      have hn0' : n < W.length := by simpa using hn'
      show after (ops.take N) (op.result V) (Proc.devRef .tc W[n]) = (ops[n]).result (after (ops.take n) (op.result V)) (Proc.devRef .tc W[n])
      exact ih (List.nodup_cons.1 hnd).2 (op.result V) n N (by omega) hn0 hn0'

section Builders

variable {ops : List (HloOp τ sig Val)} {W : List (Ref sig .tc)}

/-- Position `n` is a constant: its buffer holds the constant. -/
theorem after_take_nullary (h : WritesOne ops W) (hnd : W.Nodup) (V : Valuation τ sig Val) (n N : Nat) (hnN : n < N)
    (hn : n < ops.length) (hn' : n < W.length) (y : Ref sig .tc) (v : y.ty.Contents Val) (hy)
    (hop : ops[n] = nullary y v hy) (hW : W[n] = y) :
    after (ops.take N) V (Proc.devRef .tc y) = v := by
  have e := after_take_at h hnd V n N hnN hn hn'
  rw [hop, hW] at e
  exact e.trans (nullary_result y v hy _)

/-- Position `n` applies `f` to the buffer `x`: its buffer holds `f` of what `x` held just before. -/
theorem after_take_unary (h : WritesOne ops W) (hnd : W.Nodup) (V : Valuation τ sig Val) (n N : Nat) (hnN : n < N)
    (hn : n < ops.length) (hn' : n < W.length) (x y : Ref sig .tc) (f : x.ty.Contents Val → y.ty.Contents Val) (hx hy)
    (hop : ops[n] = unary x y f hx hy) (hW : W[n] = y) :
    after (ops.take N) V (Proc.devRef .tc y) = f (after (ops.take n) V (Proc.devRef .tc x)) := by
  have e := after_take_at h hnd V n N hnN hn hn'
  rw [hop, hW] at e
  exact e.trans (unary_result x y f hx hy _)

/-- Position `n` applies `f` to the buffers `a` and `b`. -/
theorem after_take_binary (h : WritesOne ops W) (hnd : W.Nodup) (V : Valuation τ sig Val) (n N : Nat) (hnN : n < N)
    (hn : n < ops.length) (hn' : n < W.length) (a b y : Ref sig .tc)
    (f : a.ty.Contents Val → b.ty.Contents Val → y.ty.Contents Val) (ha hb hy)
    (hop : ops[n] = binary a b y f ha hb hy) (hW : W[n] = y) :
    after (ops.take N) V (Proc.devRef .tc y)
      = f (after (ops.take n) V (Proc.devRef .tc a)) (after (ops.take n) V (Proc.devRef .tc b)) := by
  have e := after_take_at h hnd V n N hnN hn hn'
  rw [hop, hW] at e
  exact e.trans (binary_result a b y f ha hb hy _)

/-- Position `n` applies `f` to a family of buffers. -/
theorem after_take_nary (h : WritesOne ops W) (hnd : W.Nodup) (V : Valuation τ sig Val) (n N : Nat) (hnN : n < N)
    (hn : n < ops.length) (hn' : n < W.length) {k : Nat} (xs : Fin k → Ref sig .tc) (y : Ref sig .tc)
    (f : ((i : Fin k) → (xs i).ty.Contents Val) → y.ty.Contents Val) (hxs hy)
    (hop : ops[n] = nary xs y f hxs hy) (hW : W[n] = y) :
    after (ops.take N) V (Proc.devRef .tc y) = f (fun i => after (ops.take n) V (Proc.devRef .tc (xs i))) := by
  have e := after_take_at h hnd V n N hnN hn hn'
  rw [hop, hW] at e
  exact e.trans (nary_result xs y f hxs hy _)

end Builders

end Idealize.ShloMosaic.StableHlo

end
-- ==== Proof.RefValue.lean ====
/-
  The value of the reference's run.  The fold of the operations over the launch contents, read at the result
  buffer, is: the first argument flattened to 8192 rows, each expert's composed term of it and of the four other
  arguments added in the order of the experts from the zero array, reshaped back.  Entry by entry on the extended
  reals each expert's term is its contribution of the specification, so the sum is the routed mixture.  No
  operation writes an argument.
-/
import proofs.«121355_j88287347736701_1_alg».proof.Proof.RefRun
import proofs.«121355_j88287347736701_1_alg».proof.Proof.RefExpertAt
import proofs.«121355_j88287347736701_1_alg».proof.Proof.LibHostLine

noncomputable section

namespace Cert.Moe.Ref

open Cert.ReferenceIdeal Cert.ReferenceIdeal.Facts₀ Cert.ReferenceIdeal.Facts Idealize.ShloMosaic Idealize.ShloMosaic.TcCoe
  Idealize.SL.Sem Idealize.ShloMosaic.StableHlo

section Fold

variable {F : FTy → Type} [FloatOps F] [Cert.ReferenceIdeal.Facts]

/-! ## Which buffer each operation writes -/

/-- The buffers written before the loop. -/
def wPre : List (Ref sig .tc) := [main_v0, main_cst, main_v1]
theorem opsPre_writes : WritesOne (τ := τ) (opsPre (F := F)) wPre := by
  unfold WritesOne opsPre wPre
  repeat (first | exact List.Forall₂.nil | refine List.Forall₂.cons rfl ?_)

/-- The buffers expert 0's operations write, in order. -/
def wE0 : List (Ref sig .tc) :=
  [main_v2, main_v3, main_v4, main_v5, main_v6] ++ ([main_call0.v0.ref, main_call0.v1.ref, main_call0.cst.ref, main_call0.v2.ref, main_call0.v3.ref, main_call0.cst_0.ref, main_call0.v4.ref, main_call0.v5.ref, main_call0.v6.ref] ++
    [main_v8, main_v9, main_v10, main_v11, main_c, main_v12, main_v13, main_v14, main_v15, main_cst_0, main_v16, main_v17, main_v18, main_v19, main_v20])
theorem opsE0_writes : WritesOne (τ := τ) (opsE0 (F := F)) wE0 := by
  unfold WritesOne opsE0 opsE0a opsE0c siluOps wE0
  repeat (first | exact List.Forall₂.nil | refine List.Forall₂.cons rfl ?_)

/-- The buffers expert 1's operations write, in order. -/
def wE1 : List (Ref sig .tc) :=
  [main_v21, main_v22, main_v23, main_v24, main_v25] ++ ([main_call1.v0.ref, main_call1.v1.ref, main_call1.cst.ref, main_call1.v2.ref, main_call1.v3.ref, main_call1.cst_0.ref, main_call1.v4.ref, main_call1.v5.ref, main_call1.v6.ref] ++
    [main_v27, main_v28, main_v29, main_v30, main_c_1, main_v31, main_v32, main_v33, main_v34, main_cst_2, main_v35, main_v36, main_v37, main_v38, main_v39])
theorem opsE1_writes : WritesOne (τ := τ) (opsE1 (F := F)) wE1 := by
  unfold WritesOne opsE1 opsE1a opsE1c siluOps wE1
  repeat (first | exact List.Forall₂.nil | refine List.Forall₂.cons rfl ?_)

/-- The buffers expert 2's operations write, in order. -/
def wE2 : List (Ref sig .tc) :=
  [main_v40, main_v41, main_v42, main_v43, main_v44] ++ ([main_call2.v0.ref, main_call2.v1.ref, main_call2.cst.ref, main_call2.v2.ref, main_call2.v3.ref, main_call2.cst_0.ref, main_call2.v4.ref, main_call2.v5.ref, main_call2.v6.ref] ++
    [main_v46, main_v47, main_v48, main_v49, main_c_3, main_v50, main_v51, main_v52, main_v53, main_cst_4, main_v54, main_v55, main_v56, main_v57, main_v58])
theorem opsE2_writes : WritesOne (τ := τ) (opsE2 (F := F)) wE2 := by
  unfold WritesOne opsE2 opsE2a opsE2c siluOps wE2
  repeat (first | exact List.Forall₂.nil | refine List.Forall₂.cons rfl ?_)

/-- The buffers expert 3's operations write, in order. -/
def wE3 : List (Ref sig .tc) :=
  [main_v59, main_v60, main_v61, main_v62, main_v63] ++ ([main_call3.v0.ref, main_call3.v1.ref, main_call3.cst.ref, main_call3.v2.ref, main_call3.v3.ref, main_call3.cst_0.ref, main_call3.v4.ref, main_call3.v5.ref, main_call3.v6.ref] ++
    [main_v65, main_v66, main_v67, main_v68, main_c_5, main_v69, main_v70, main_v71, main_v72, main_cst_6, main_v73, main_v74, main_v75, main_v76, main_v77])
theorem opsE3_writes : WritesOne (τ := τ) (opsE3 (F := F)) wE3 := by
  unfold WritesOne opsE3 opsE3a opsE3c siluOps wE3
  repeat (first | exact List.Forall₂.nil | refine List.Forall₂.cons rfl ?_)

/-- The buffers expert 4's operations write, in order. -/
def wE4 : List (Ref sig .tc) :=
  [main_v78, main_v79, main_v80, main_v81, main_v82] ++ ([main_call4.v0.ref, main_call4.v1.ref, main_call4.cst.ref, main_call4.v2.ref, main_call4.v3.ref, main_call4.cst_0.ref, main_call4.v4.ref, main_call4.v5.ref, main_call4.v6.ref] ++
    [main_v84, main_v85, main_v86, main_v87, main_c_7, main_v88, main_v89, main_v90, main_v91, main_cst_8, main_v92, main_v93, main_v94, main_v95, main_v96])
theorem opsE4_writes : WritesOne (τ := τ) (opsE4 (F := F)) wE4 := by
  unfold WritesOne opsE4 opsE4a opsE4c siluOps wE4
  repeat (first | exact List.Forall₂.nil | refine List.Forall₂.cons rfl ?_)

/-- The buffers expert 5's operations write, in order. -/
def wE5 : List (Ref sig .tc) :=
  [main_v97, main_v98, main_v99, main_v100, main_v101] ++ ([main_call5.v0.ref, main_call5.v1.ref, main_call5.cst.ref, main_call5.v2.ref, main_call5.v3.ref, main_call5.cst_0.ref, main_call5.v4.ref, main_call5.v5.ref, main_call5.v6.ref] ++
    [main_v103, main_v104, main_v105, main_v106, main_c_9, main_v107, main_v108, main_v109, main_v110, main_cst_10, main_v111, main_v112, main_v113, main_v114, main_v115])
theorem opsE5_writes : WritesOne (τ := τ) (opsE5 (F := F)) wE5 := by
  unfold WritesOne opsE5 opsE5a opsE5c siluOps wE5
  repeat (first | exact List.Forall₂.nil | refine List.Forall₂.cons rfl ?_)

/-- The buffers expert 6's operations write, in order. -/
def wE6 : List (Ref sig .tc) :=
  [main_v116, main_v117, main_v118, main_v119, main_v120] ++ ([main_call6.v0.ref, main_call6.v1.ref, main_call6.cst.ref, main_call6.v2.ref, main_call6.v3.ref, main_call6.cst_0.ref, main_call6.v4.ref, main_call6.v5.ref, main_call6.v6.ref] ++
    [main_v122, main_v123, main_v124, main_v125, main_c_11, main_v126, main_v127, main_v128, main_v129, main_cst_12, main_v130, main_v131, main_v132, main_v133, main_v134])
theorem opsE6_writes : WritesOne (τ := τ) (opsE6 (F := F)) wE6 := by
  unfold WritesOne opsE6 opsE6a opsE6c siluOps wE6
  repeat (first | exact List.Forall₂.nil | refine List.Forall₂.cons rfl ?_)

/-- The buffers expert 7's operations write, in order. -/
def wE7 : List (Ref sig .tc) :=
  [main_v135, main_v136, main_v137, main_v138, main_v139] ++ ([main_call7.v0.ref, main_call7.v1.ref, main_call7.cst.ref, main_call7.v2.ref, main_call7.v3.ref, main_call7.cst_0.ref, main_call7.v4.ref, main_call7.v5.ref, main_call7.v6.ref] ++
    [main_v141, main_v142, main_v143, main_v144, main_c_13, main_v145, main_v146, main_v147, main_v148, main_cst_14, main_v149, main_v150, main_v151, main_v152, main_v153])
theorem opsE7_writes : WritesOne (τ := τ) (opsE7 (F := F)) wE7 := by
  unfold WritesOne opsE7 opsE7a opsE7c siluOps wE7
  repeat (first | exact List.Forall₂.nil | refine List.Forall₂.cons rfl ?_)

/-- The buffer written after the loop. -/
def wTail : List (Ref sig .tc) := [main_v154]
theorem opsTail_writes : WritesOne (τ := τ) (opsTail (F := F)) wTail := by
  unfold WritesOne opsTail wTail
  repeat (first | exact List.Forall₂.nil | refine List.Forall₂.cons rfl ?_)

/-- Every buffer the program writes, in order. -/
def wAll : List (Ref sig .tc) :=
  wPre ++ (wE0 ++ (wE1 ++ (wE2 ++ (wE3 ++ (wE4 ++ (wE5 ++ (wE6 ++ (wE7 ++ wTail))))))))
theorem ops_writes : WritesOne (τ := τ) (ops (F := F)) wAll :=
  opsPre_writes.append (opsE0_writes.append (opsE1_writes.append (opsE2_writes.append (opsE3_writes.append
    (opsE4_writes.append (opsE5_writes.append (opsE6_writes.append (opsE7_writes.append opsTail_writes))))))))

/-! ## The arguments are never written -/

theorem arg0_keep (V : Valuation τ sig (Elt F)) :
    after (ops (F := F)) V (Proc.devRef .tc main_arg0) = V (Proc.devRef .tc main_arg0) := after_unwritten ops_writes (by decide) V
theorem arg1_keep (V : Valuation τ sig (Elt F)) :
    after (ops (F := F)) V (Proc.devRef .tc main_arg1) = V (Proc.devRef .tc main_arg1) := after_unwritten ops_writes (by decide) V
theorem arg2_keep (V : Valuation τ sig (Elt F)) :
    after (ops (F := F)) V (Proc.devRef .tc main_arg2) = V (Proc.devRef .tc main_arg2) := after_unwritten ops_writes (by decide) V
theorem arg3_keep (V : Valuation τ sig (Elt F)) :
    after (ops (F := F)) V (Proc.devRef .tc main_arg3) = V (Proc.devRef .tc main_arg3) := after_unwritten ops_writes (by decide) V
theorem arg4_keep (V : Valuation τ sig (Elt F)) :
    after (ops (F := F)) V (Proc.devRef .tc main_arg4) = V (Proc.devRef .tc main_arg4) := after_unwritten ops_writes (by decide) V

/-! ## Before the loop -/

/-- The flattened activations. -/
theorem pre_v0 (V : Valuation τ sig (Elt F)) :
    after (opsPre (F := F)) V (Proc.devRef .tc main_v0) = shapeCast S8192x1024 (V (Proc.devRef .tc main_arg0)) shapeCasts_S2x4096x1024_S8192x1024 := by
  simp only [opsPre]
  after_results_simp
  rfl

/-- The zero array. -/
theorem pre_v1 (V : Valuation τ sig (Elt F)) :
    after (opsPre (F := F)) V (Proc.devRef .tc main_v1)
      = broadcastInDim S8192x1024 ![] bcast_S_S8192x1024 (constant (F := F) S_ .f32 0x00000000#32) := by
  simp only [opsPre]
  after_results_simp

/-! ## One expert -/

/-- What every expert reads: the flattened activations and the four other arguments. -/
structure Holds (X : (⟨S8192x1024, .f32⟩ : BufTy).Contents (Elt F)) (P : (⟨S8192x2, .f32⟩ : BufTy).Contents (Elt F))
    (I : (⟨S8192x2, .i32⟩ : BufTy).Contents (Elt F)) (W13 : (⟨S8x1024x4096, .f32⟩ : BufTy).Contents (Elt F))
    (W2 : (⟨S8x2048x1024, .f32⟩ : BufTy).Contents (Elt F)) (V : Valuation τ sig (Elt F)) : Prop where
  x : V (Proc.devRef .tc main_v0) = X
  p : V (Proc.devRef .tc main_arg1) = P
  i : V (Proc.devRef .tc main_arg2) = I
  w13 : V (Proc.devRef .tc main_arg3) = W13
  w2 : V (Proc.devRef .tc main_arg4) = W2

set_option maxHeartbeats 400000 in
/-- Expert 0's operations leave, in the buffer of the running sum, the sum so far plus the expert's term of the
    buffers they read. -/
theorem E0_val (V : Valuation τ sig (Elt F)) :
    after (opsE0 (F := F)) V (Proc.devRef .tc main_v20)
      = addf (V (Proc.devRef .tc main_v1))
          (hostExpert ![0, 0, 0] slices_S8x1024x4096_S1x1024x4096_0_0_0 ![0, 0, 0] slices_S8x2048x1024_S1x2048x1024_0_0_0 0#32
            (V (Proc.devRef .tc main_v0)) (V (Proc.devRef .tc main_arg1)) (V (Proc.devRef .tc main_arg2))
            (V (Proc.devRef .tc main_arg3)) (V (Proc.devRef .tc main_arg4))) := by
  simp only [opsE0, opsE0a, opsE0c, siluOps, List.cons_append, List.nil_append]
  after_results_simp
  rfl

/-- And they write none of the buffers the experts read. -/
theorem E0_step {X : (⟨S8192x1024, .f32⟩ : BufTy).Contents (Elt F)} {P : (⟨S8192x2, .f32⟩ : BufTy).Contents (Elt F)}
    {I : (⟨S8192x2, .i32⟩ : BufTy).Contents (Elt F)} {W13 : (⟨S8x1024x4096, .f32⟩ : BufTy).Contents (Elt F)}
    {W2 : (⟨S8x2048x1024, .f32⟩ : BufTy).Contents (Elt F)} {V : Valuation τ sig (Elt F)} (h : Holds X P I W13 W2 V) :
    Holds X P I W13 W2 (after (opsE0 (F := F)) V)
      ∧ after (opsE0 (F := F)) V (Proc.devRef .tc main_v20)
        = addf (V (Proc.devRef .tc main_v1))
          (hostExpert ![0, 0, 0] slices_S8x1024x4096_S1x1024x4096_0_0_0 ![0, 0, 0] slices_S8x2048x1024_S1x2048x1024_0_0_0 0#32
            X P I
            W13 W2) :=
  ⟨⟨(after_unwritten opsE0_writes (by decide) V).trans h.x, (after_unwritten opsE0_writes (by decide) V).trans h.p,
      (after_unwritten opsE0_writes (by decide) V).trans h.i, (after_unwritten opsE0_writes (by decide) V).trans h.w13,
      (after_unwritten opsE0_writes (by decide) V).trans h.w2⟩,
    by rw [E0_val, h.x, h.p, h.i, h.w13, h.w2]⟩

set_option maxHeartbeats 400000 in
/-- Expert 1's operations leave, in the buffer of the running sum, the sum so far plus the expert's term of the
    buffers they read. -/
theorem E1_val (V : Valuation τ sig (Elt F)) :
    after (opsE1 (F := F)) V (Proc.devRef .tc main_v39)
      = addf (V (Proc.devRef .tc main_v20))
          (hostExpert ![1, 0, 0] slices_S8x1024x4096_S1x1024x4096_1_0_0 ![1, 0, 0] slices_S8x2048x1024_S1x2048x1024_1_0_0 1#32
            (V (Proc.devRef .tc main_v0)) (V (Proc.devRef .tc main_arg1)) (V (Proc.devRef .tc main_arg2))
            (V (Proc.devRef .tc main_arg3)) (V (Proc.devRef .tc main_arg4))) := by
  simp only [opsE1, opsE1a, opsE1c, siluOps, List.cons_append, List.nil_append]
  after_results_simp
  rfl

/-- And they write none of the buffers the experts read. -/
theorem E1_step {X : (⟨S8192x1024, .f32⟩ : BufTy).Contents (Elt F)} {P : (⟨S8192x2, .f32⟩ : BufTy).Contents (Elt F)}
    {I : (⟨S8192x2, .i32⟩ : BufTy).Contents (Elt F)} {W13 : (⟨S8x1024x4096, .f32⟩ : BufTy).Contents (Elt F)}
    {W2 : (⟨S8x2048x1024, .f32⟩ : BufTy).Contents (Elt F)} {V : Valuation τ sig (Elt F)} (h : Holds X P I W13 W2 V) :
    Holds X P I W13 W2 (after (opsE1 (F := F)) V)
      ∧ after (opsE1 (F := F)) V (Proc.devRef .tc main_v39)
        = addf (V (Proc.devRef .tc main_v20))
          (hostExpert ![1, 0, 0] slices_S8x1024x4096_S1x1024x4096_1_0_0 ![1, 0, 0] slices_S8x2048x1024_S1x2048x1024_1_0_0 1#32
            X P I
            W13 W2) :=
  ⟨⟨(after_unwritten opsE1_writes (by decide) V).trans h.x, (after_unwritten opsE1_writes (by decide) V).trans h.p,
      (after_unwritten opsE1_writes (by decide) V).trans h.i, (after_unwritten opsE1_writes (by decide) V).trans h.w13,
      (after_unwritten opsE1_writes (by decide) V).trans h.w2⟩,
    by rw [E1_val, h.x, h.p, h.i, h.w13, h.w2]⟩

set_option maxHeartbeats 400000 in
/-- Expert 2's operations leave, in the buffer of the running sum, the sum so far plus the expert's term of the
    buffers they read. -/
theorem E2_val (V : Valuation τ sig (Elt F)) :
    after (opsE2 (F := F)) V (Proc.devRef .tc main_v58)
      = addf (V (Proc.devRef .tc main_v39))
          (hostExpert ![2, 0, 0] slices_S8x1024x4096_S1x1024x4096_2_0_0 ![2, 0, 0] slices_S8x2048x1024_S1x2048x1024_2_0_0 2#32
            (V (Proc.devRef .tc main_v0)) (V (Proc.devRef .tc main_arg1)) (V (Proc.devRef .tc main_arg2))
            (V (Proc.devRef .tc main_arg3)) (V (Proc.devRef .tc main_arg4))) := by
  simp only [opsE2, opsE2a, opsE2c, siluOps, List.cons_append, List.nil_append]
  after_results_simp
  rfl

/-- And they write none of the buffers the experts read. -/
theorem E2_step {X : (⟨S8192x1024, .f32⟩ : BufTy).Contents (Elt F)} {P : (⟨S8192x2, .f32⟩ : BufTy).Contents (Elt F)}
    {I : (⟨S8192x2, .i32⟩ : BufTy).Contents (Elt F)} {W13 : (⟨S8x1024x4096, .f32⟩ : BufTy).Contents (Elt F)}
    {W2 : (⟨S8x2048x1024, .f32⟩ : BufTy).Contents (Elt F)} {V : Valuation τ sig (Elt F)} (h : Holds X P I W13 W2 V) :
    Holds X P I W13 W2 (after (opsE2 (F := F)) V)
      ∧ after (opsE2 (F := F)) V (Proc.devRef .tc main_v58)
        = addf (V (Proc.devRef .tc main_v39))
          (hostExpert ![2, 0, 0] slices_S8x1024x4096_S1x1024x4096_2_0_0 ![2, 0, 0] slices_S8x2048x1024_S1x2048x1024_2_0_0 2#32
            X P I
            W13 W2) :=
  ⟨⟨(after_unwritten opsE2_writes (by decide) V).trans h.x, (after_unwritten opsE2_writes (by decide) V).trans h.p,
      (after_unwritten opsE2_writes (by decide) V).trans h.i, (after_unwritten opsE2_writes (by decide) V).trans h.w13,
      (after_unwritten opsE2_writes (by decide) V).trans h.w2⟩,
    by rw [E2_val, h.x, h.p, h.i, h.w13, h.w2]⟩

set_option maxHeartbeats 400000 in
/-- Expert 3's operations leave, in the buffer of the running sum, the sum so far plus the expert's term of the
    buffers they read. -/
theorem E3_val (V : Valuation τ sig (Elt F)) :
    after (opsE3 (F := F)) V (Proc.devRef .tc main_v77)
      = addf (V (Proc.devRef .tc main_v58))
          (hostExpert ![3, 0, 0] slices_S8x1024x4096_S1x1024x4096_3_0_0 ![3, 0, 0] slices_S8x2048x1024_S1x2048x1024_3_0_0 3#32
            (V (Proc.devRef .tc main_v0)) (V (Proc.devRef .tc main_arg1)) (V (Proc.devRef .tc main_arg2))
            (V (Proc.devRef .tc main_arg3)) (V (Proc.devRef .tc main_arg4))) := by
  simp only [opsE3, opsE3a, opsE3c, siluOps, List.cons_append, List.nil_append]
  after_results_simp
  rfl

/-- And they write none of the buffers the experts read. -/
theorem E3_step {X : (⟨S8192x1024, .f32⟩ : BufTy).Contents (Elt F)} {P : (⟨S8192x2, .f32⟩ : BufTy).Contents (Elt F)}
    {I : (⟨S8192x2, .i32⟩ : BufTy).Contents (Elt F)} {W13 : (⟨S8x1024x4096, .f32⟩ : BufTy).Contents (Elt F)}
    {W2 : (⟨S8x2048x1024, .f32⟩ : BufTy).Contents (Elt F)} {V : Valuation τ sig (Elt F)} (h : Holds X P I W13 W2 V) :
    Holds X P I W13 W2 (after (opsE3 (F := F)) V)
      ∧ after (opsE3 (F := F)) V (Proc.devRef .tc main_v77)
        = addf (V (Proc.devRef .tc main_v58))
          (hostExpert ![3, 0, 0] slices_S8x1024x4096_S1x1024x4096_3_0_0 ![3, 0, 0] slices_S8x2048x1024_S1x2048x1024_3_0_0 3#32
            X P I
            W13 W2) :=
  ⟨⟨(after_unwritten opsE3_writes (by decide) V).trans h.x, (after_unwritten opsE3_writes (by decide) V).trans h.p,
      (after_unwritten opsE3_writes (by decide) V).trans h.i, (after_unwritten opsE3_writes (by decide) V).trans h.w13,
      (after_unwritten opsE3_writes (by decide) V).trans h.w2⟩,
    by rw [E3_val, h.x, h.p, h.i, h.w13, h.w2]⟩

set_option maxHeartbeats 400000 in
/-- Expert 4's operations leave, in the buffer of the running sum, the sum so far plus the expert's term of the
    buffers they read. -/
theorem E4_val (V : Valuation τ sig (Elt F)) :
    after (opsE4 (F := F)) V (Proc.devRef .tc main_v96)
      = addf (V (Proc.devRef .tc main_v77))
          (hostExpert ![4, 0, 0] slices_S8x1024x4096_S1x1024x4096_4_0_0 ![4, 0, 0] slices_S8x2048x1024_S1x2048x1024_4_0_0 4#32
            (V (Proc.devRef .tc main_v0)) (V (Proc.devRef .tc main_arg1)) (V (Proc.devRef .tc main_arg2))
            (V (Proc.devRef .tc main_arg3)) (V (Proc.devRef .tc main_arg4))) := by
  simp only [opsE4, opsE4a, opsE4c, siluOps, List.cons_append, List.nil_append]
  after_results_simp
  rfl

/-- And they write none of the buffers the experts read. -/
theorem E4_step {X : (⟨S8192x1024, .f32⟩ : BufTy).Contents (Elt F)} {P : (⟨S8192x2, .f32⟩ : BufTy).Contents (Elt F)}
    {I : (⟨S8192x2, .i32⟩ : BufTy).Contents (Elt F)} {W13 : (⟨S8x1024x4096, .f32⟩ : BufTy).Contents (Elt F)}
    {W2 : (⟨S8x2048x1024, .f32⟩ : BufTy).Contents (Elt F)} {V : Valuation τ sig (Elt F)} (h : Holds X P I W13 W2 V) :
    Holds X P I W13 W2 (after (opsE4 (F := F)) V)
      ∧ after (opsE4 (F := F)) V (Proc.devRef .tc main_v96)
        = addf (V (Proc.devRef .tc main_v77))
          (hostExpert ![4, 0, 0] slices_S8x1024x4096_S1x1024x4096_4_0_0 ![4, 0, 0] slices_S8x2048x1024_S1x2048x1024_4_0_0 4#32
            X P I
            W13 W2) :=
  ⟨⟨(after_unwritten opsE4_writes (by decide) V).trans h.x, (after_unwritten opsE4_writes (by decide) V).trans h.p,
      (after_unwritten opsE4_writes (by decide) V).trans h.i, (after_unwritten opsE4_writes (by decide) V).trans h.w13,
      (after_unwritten opsE4_writes (by decide) V).trans h.w2⟩,
    by rw [E4_val, h.x, h.p, h.i, h.w13, h.w2]⟩

set_option maxHeartbeats 400000 in
/-- Expert 5's operations leave, in the buffer of the running sum, the sum so far plus the expert's term of the
    buffers they read. -/
theorem E5_val (V : Valuation τ sig (Elt F)) :
    after (opsE5 (F := F)) V (Proc.devRef .tc main_v115)
      = addf (V (Proc.devRef .tc main_v96))
          (hostExpert ![5, 0, 0] slices_S8x1024x4096_S1x1024x4096_5_0_0 ![5, 0, 0] slices_S8x2048x1024_S1x2048x1024_5_0_0 5#32
            (V (Proc.devRef .tc main_v0)) (V (Proc.devRef .tc main_arg1)) (V (Proc.devRef .tc main_arg2))
            (V (Proc.devRef .tc main_arg3)) (V (Proc.devRef .tc main_arg4))) := by
  simp only [opsE5, opsE5a, opsE5c, siluOps, List.cons_append, List.nil_append]
  after_results_simp
  rfl

/-- And they write none of the buffers the experts read. -/
theorem E5_step {X : (⟨S8192x1024, .f32⟩ : BufTy).Contents (Elt F)} {P : (⟨S8192x2, .f32⟩ : BufTy).Contents (Elt F)}
    {I : (⟨S8192x2, .i32⟩ : BufTy).Contents (Elt F)} {W13 : (⟨S8x1024x4096, .f32⟩ : BufTy).Contents (Elt F)}
    {W2 : (⟨S8x2048x1024, .f32⟩ : BufTy).Contents (Elt F)} {V : Valuation τ sig (Elt F)} (h : Holds X P I W13 W2 V) :
    Holds X P I W13 W2 (after (opsE5 (F := F)) V)
      ∧ after (opsE5 (F := F)) V (Proc.devRef .tc main_v115)
        = addf (V (Proc.devRef .tc main_v96))
          (hostExpert ![5, 0, 0] slices_S8x1024x4096_S1x1024x4096_5_0_0 ![5, 0, 0] slices_S8x2048x1024_S1x2048x1024_5_0_0 5#32
            X P I
            W13 W2) :=
  ⟨⟨(after_unwritten opsE5_writes (by decide) V).trans h.x, (after_unwritten opsE5_writes (by decide) V).trans h.p,
      (after_unwritten opsE5_writes (by decide) V).trans h.i, (after_unwritten opsE5_writes (by decide) V).trans h.w13,
      (after_unwritten opsE5_writes (by decide) V).trans h.w2⟩,
    by rw [E5_val, h.x, h.p, h.i, h.w13, h.w2]⟩

set_option maxHeartbeats 400000 in
/-- Expert 6's operations leave, in the buffer of the running sum, the sum so far plus the expert's term of the
    buffers they read. -/
theorem E6_val (V : Valuation τ sig (Elt F)) :
    after (opsE6 (F := F)) V (Proc.devRef .tc main_v134)
      = addf (V (Proc.devRef .tc main_v115))
          (hostExpert ![6, 0, 0] slices_S8x1024x4096_S1x1024x4096_6_0_0 ![6, 0, 0] slices_S8x2048x1024_S1x2048x1024_6_0_0 6#32
            (V (Proc.devRef .tc main_v0)) (V (Proc.devRef .tc main_arg1)) (V (Proc.devRef .tc main_arg2))
            (V (Proc.devRef .tc main_arg3)) (V (Proc.devRef .tc main_arg4))) := by
  simp only [opsE6, opsE6a, opsE6c, siluOps, List.cons_append, List.nil_append]
  after_results_simp
  rfl

/-- And they write none of the buffers the experts read. -/
theorem E6_step {X : (⟨S8192x1024, .f32⟩ : BufTy).Contents (Elt F)} {P : (⟨S8192x2, .f32⟩ : BufTy).Contents (Elt F)}
    {I : (⟨S8192x2, .i32⟩ : BufTy).Contents (Elt F)} {W13 : (⟨S8x1024x4096, .f32⟩ : BufTy).Contents (Elt F)}
    {W2 : (⟨S8x2048x1024, .f32⟩ : BufTy).Contents (Elt F)} {V : Valuation τ sig (Elt F)} (h : Holds X P I W13 W2 V) :
    Holds X P I W13 W2 (after (opsE6 (F := F)) V)
      ∧ after (opsE6 (F := F)) V (Proc.devRef .tc main_v134)
        = addf (V (Proc.devRef .tc main_v115))
          (hostExpert ![6, 0, 0] slices_S8x1024x4096_S1x1024x4096_6_0_0 ![6, 0, 0] slices_S8x2048x1024_S1x2048x1024_6_0_0 6#32
            X P I
            W13 W2) :=
  ⟨⟨(after_unwritten opsE6_writes (by decide) V).trans h.x, (after_unwritten opsE6_writes (by decide) V).trans h.p,
      (after_unwritten opsE6_writes (by decide) V).trans h.i, (after_unwritten opsE6_writes (by decide) V).trans h.w13,
      (after_unwritten opsE6_writes (by decide) V).trans h.w2⟩,
    by rw [E6_val, h.x, h.p, h.i, h.w13, h.w2]⟩

set_option maxHeartbeats 400000 in
/-- Expert 7's operations leave, in the buffer of the running sum, the sum so far plus the expert's term of the
    buffers they read. -/
theorem E7_val (V : Valuation τ sig (Elt F)) :
    after (opsE7 (F := F)) V (Proc.devRef .tc main_v153)
      = addf (V (Proc.devRef .tc main_v134))
          (hostExpert ![7, 0, 0] slices_S8x1024x4096_S1x1024x4096_7_0_0 ![7, 0, 0] slices_S8x2048x1024_S1x2048x1024_7_0_0 7#32
            (V (Proc.devRef .tc main_v0)) (V (Proc.devRef .tc main_arg1)) (V (Proc.devRef .tc main_arg2))
            (V (Proc.devRef .tc main_arg3)) (V (Proc.devRef .tc main_arg4))) := by
  simp only [opsE7, opsE7a, opsE7c, siluOps, List.cons_append, List.nil_append]
  after_results_simp
  rfl

/-- And they write none of the buffers the experts read. -/
theorem E7_step {X : (⟨S8192x1024, .f32⟩ : BufTy).Contents (Elt F)} {P : (⟨S8192x2, .f32⟩ : BufTy).Contents (Elt F)}
    {I : (⟨S8192x2, .i32⟩ : BufTy).Contents (Elt F)} {W13 : (⟨S8x1024x4096, .f32⟩ : BufTy).Contents (Elt F)}
    {W2 : (⟨S8x2048x1024, .f32⟩ : BufTy).Contents (Elt F)} {V : Valuation τ sig (Elt F)} (h : Holds X P I W13 W2 V) :
    Holds X P I W13 W2 (after (opsE7 (F := F)) V)
      ∧ after (opsE7 (F := F)) V (Proc.devRef .tc main_v153)
        = addf (V (Proc.devRef .tc main_v134))
          (hostExpert ![7, 0, 0] slices_S8x1024x4096_S1x1024x4096_7_0_0 ![7, 0, 0] slices_S8x2048x1024_S1x2048x1024_7_0_0 7#32
            X P I
            W13 W2) :=
  ⟨⟨(after_unwritten opsE7_writes (by decide) V).trans h.x, (after_unwritten opsE7_writes (by decide) V).trans h.p,
      (after_unwritten opsE7_writes (by decide) V).trans h.i, (after_unwritten opsE7_writes (by decide) V).trans h.w13,
      (after_unwritten opsE7_writes (by decide) V).trans h.w2⟩,
    by rw [E7_val, h.x, h.p, h.i, h.w13, h.w2]⟩

/-! ## After the loop, and the whole line -/

theorem tail_val (V : Valuation τ sig (Elt F)) :
    after (opsTail (F := F)) V (Proc.devRef .tc main_v154) = shapeCast S2x4096x1024 (V (Proc.devRef .tc main_v153)) shapeCasts_S8192x1024_S2x4096x1024 := by
  simp only [opsTail]
  after_results_simp
  rfl

/-- The eight experts' terms added in order, from the zero array. -/
def hostSum (X : (⟨S8192x1024, .f32⟩ : BufTy).Contents (Elt F)) (P : (⟨S8192x2, .f32⟩ : BufTy).Contents (Elt F))
    (I : (⟨S8192x2, .i32⟩ : BufTy).Contents (Elt F)) (W13 : (⟨S8x1024x4096, .f32⟩ : BufTy).Contents (Elt F))
    (W2 : (⟨S8x2048x1024, .f32⟩ : BufTy).Contents (Elt F)) : (⟨S8192x1024, .f32⟩ : BufTy).Contents (Elt F) :=
  (addf (addf (addf (addf (addf (addf (addf (addf (broadcastInDim S8192x1024 ![] bcast_S_S8192x1024 (constant (F := F) S_ .f32 0x00000000#32))
        (hostExpert ![0, 0, 0] slices_S8x1024x4096_S1x1024x4096_0_0_0 ![0, 0, 0] slices_S8x2048x1024_S1x2048x1024_0_0_0 0#32 X P I W13 W2))
        (hostExpert ![1, 0, 0] slices_S8x1024x4096_S1x1024x4096_1_0_0 ![1, 0, 0] slices_S8x2048x1024_S1x2048x1024_1_0_0 1#32 X P I W13 W2))
        (hostExpert ![2, 0, 0] slices_S8x1024x4096_S1x1024x4096_2_0_0 ![2, 0, 0] slices_S8x2048x1024_S1x2048x1024_2_0_0 2#32 X P I W13 W2))
        (hostExpert ![3, 0, 0] slices_S8x1024x4096_S1x1024x4096_3_0_0 ![3, 0, 0] slices_S8x2048x1024_S1x2048x1024_3_0_0 3#32 X P I W13 W2))
        (hostExpert ![4, 0, 0] slices_S8x1024x4096_S1x1024x4096_4_0_0 ![4, 0, 0] slices_S8x2048x1024_S1x2048x1024_4_0_0 4#32 X P I W13 W2))
        (hostExpert ![5, 0, 0] slices_S8x1024x4096_S1x1024x4096_5_0_0 ![5, 0, 0] slices_S8x2048x1024_S1x2048x1024_5_0_0 5#32 X P I W13 W2))
        (hostExpert ![6, 0, 0] slices_S8x1024x4096_S1x1024x4096_6_0_0 ![6, 0, 0] slices_S8x2048x1024_S1x2048x1024_6_0_0 6#32 X P I W13 W2))
        (hostExpert ![7, 0, 0] slices_S8x1024x4096_S1x1024x4096_7_0_0 ![7, 0, 0] slices_S8x2048x1024_S1x2048x1024_7_0_0 7#32 X P I W13 W2))

/-- The result buffer after the whole line: that sum, of the flattened first argument and the four others, reshaped. -/
theorem out_fold (V : Valuation τ sig (Elt F)) :
    after (ops (F := F)) V (Proc.devRef .tc main_v154)
      = shapeCast S2x4096x1024
          (hostSum (shapeCast S8192x1024 (V (Proc.devRef .tc main_arg0)) shapeCasts_S2x4096x1024_S8192x1024)
            (V (Proc.devRef .tc main_arg1)) (V (Proc.devRef .tc main_arg2)) (V (Proc.devRef .tc main_arg3)) (V (Proc.devRef .tc main_arg4)))
          shapeCasts_S8192x1024_S2x4096x1024 := by
  have h0 : Holds (shapeCast S8192x1024 (V (Proc.devRef .tc main_arg0)) shapeCasts_S2x4096x1024_S8192x1024)
      (V (Proc.devRef .tc main_arg1)) (V (Proc.devRef .tc main_arg2)) (V (Proc.devRef .tc main_arg3)) (V (Proc.devRef .tc main_arg4)) (after (opsPre (F := F)) V) :=
    ⟨pre_v0 V, after_unwritten opsPre_writes (by decide) V, after_unwritten opsPre_writes (by decide) V,
      after_unwritten opsPre_writes (by decide) V, after_unwritten opsPre_writes (by decide) V⟩
  obtain ⟨h1, s1⟩ := E0_step h0
  obtain ⟨h2, s2⟩ := E1_step h1
  obtain ⟨h3, s3⟩ := E2_step h2
  obtain ⟨h4, s4⟩ := E3_step h3
  obtain ⟨h5, s5⟩ := E4_step h4
  obtain ⟨h6, s6⟩ := E5_step h5
  obtain ⟨h7, s7⟩ := E6_step h6
  obtain ⟨_, s8⟩ := E7_step h7
  unfold ops hostSum
  simp only [after_append]
  rw [tail_val, s8, s7, s6, s5, s4, s3, s2, s1, pre_v1]

end Fold

section Value

variable [Cert.ReferenceIdeal.Facts]

/-- On the extended reals the host's sum of the eight experts' terms is the routed mixture, entry by entry. -/
theorem hostSum_eq (X : (⟨S8192x1024, .f32⟩ : BufTy).Contents (Elt Ideal)) (P : (⟨S8192x2, .f32⟩ : BufTy).Contents (Elt Ideal))
    (I : (⟨S8192x2, .i32⟩ : BufTy).Contents (Elt Ideal)) (W13 : (⟨S8x1024x4096, .f32⟩ : BufTy).Contents (Elt Ideal))
    (W2 : (⟨S8x2048x1024, .f32⟩ : BufTy).Contents (Elt Ideal)) :
    hostSum (F := Ideal) X P I W13 W2 = Cert.Moe.out X P I W13 W2 := by
  funext i
  obtain ⟨t, d, rfl⟩ : ∃ t d, i = ValueIdx.ix2 t d := ⟨i 0, i 1, ValueIdx.eq_ix2 i⟩
  rw [Cert.Moe.out_eq]
  show (broadcastInDim S8192x1024 ![] bcast_S_S8192x1024 (constant (F := Ideal) S_ .f32 0x00000000#32)) (ValueIdx.ix2 t d)
      + (hostExpert ![0, 0, 0] slices_S8x1024x4096_S1x1024x4096_0_0_0 ![0, 0, 0] slices_S8x2048x1024_S1x2048x1024_0_0_0 0#32 X P I W13 W2) (ValueIdx.ix2 t d)
      + (hostExpert ![1, 0, 0] slices_S8x1024x4096_S1x1024x4096_1_0_0 ![1, 0, 0] slices_S8x2048x1024_S1x2048x1024_1_0_0 1#32 X P I W13 W2) (ValueIdx.ix2 t d)
      + (hostExpert ![2, 0, 0] slices_S8x1024x4096_S1x1024x4096_2_0_0 ![2, 0, 0] slices_S8x2048x1024_S1x2048x1024_2_0_0 2#32 X P I W13 W2) (ValueIdx.ix2 t d)
      + (hostExpert ![3, 0, 0] slices_S8x1024x4096_S1x1024x4096_3_0_0 ![3, 0, 0] slices_S8x2048x1024_S1x2048x1024_3_0_0 3#32 X P I W13 W2) (ValueIdx.ix2 t d)
      + (hostExpert ![4, 0, 0] slices_S8x1024x4096_S1x1024x4096_4_0_0 ![4, 0, 0] slices_S8x2048x1024_S1x2048x1024_4_0_0 4#32 X P I W13 W2) (ValueIdx.ix2 t d)
      + (hostExpert ![5, 0, 0] slices_S8x1024x4096_S1x1024x4096_5_0_0 ![5, 0, 0] slices_S8x2048x1024_S1x2048x1024_5_0_0 5#32 X P I W13 W2) (ValueIdx.ix2 t d)
      + (hostExpert ![6, 0, 0] slices_S8x1024x4096_S1x1024x4096_6_0_0 ![6, 0, 0] slices_S8x2048x1024_S1x2048x1024_6_0_0 6#32 X P I W13 W2) (ValueIdx.ix2 t d)
      + (hostExpert ![7, 0, 0] slices_S8x1024x4096_S1x1024x4096_7_0_0 ![7, 0, 0] slices_S8x2048x1024_S1x2048x1024_7_0_0 7#32 X P I W13 W2) (ValueIdx.ix2 t d)
    = 0 + Cert.Moe.term X P I W13 W2 0 t d + Cert.Moe.term X P I W13 W2 1 t d + Cert.Moe.term X P I W13 W2 2 t d + Cert.Moe.term X P I W13 W2 3 t d + Cert.Moe.term X P I W13 W2 4 t d + Cert.Moe.term X P I W13 W2 5 t d + Cert.Moe.term X P I W13 W2 6 t d + Cert.Moe.term X P I W13 W2 7 t d
  rw [hostExpert_apply 0 ![0, 0, 0] slices_S8x1024x4096_S1x1024x4096_0_0_0 ![0, 0, 0] slices_S8x2048x1024_S1x2048x1024_0_0_0 0#32 rfl rfl rfl X P I W13 W2 t d,
    hostExpert_apply 1 ![1, 0, 0] slices_S8x1024x4096_S1x1024x4096_1_0_0 ![1, 0, 0] slices_S8x2048x1024_S1x2048x1024_1_0_0 1#32 rfl rfl rfl X P I W13 W2 t d,
    hostExpert_apply 2 ![2, 0, 0] slices_S8x1024x4096_S1x1024x4096_2_0_0 ![2, 0, 0] slices_S8x2048x1024_S1x2048x1024_2_0_0 2#32 rfl rfl rfl X P I W13 W2 t d,
    hostExpert_apply 3 ![3, 0, 0] slices_S8x1024x4096_S1x1024x4096_3_0_0 ![3, 0, 0] slices_S8x2048x1024_S1x2048x1024_3_0_0 3#32 rfl rfl rfl X P I W13 W2 t d,
    hostExpert_apply 4 ![4, 0, 0] slices_S8x1024x4096_S1x1024x4096_4_0_0 ![4, 0, 0] slices_S8x2048x1024_S1x2048x1024_4_0_0 4#32 rfl rfl rfl X P I W13 W2 t d,
    hostExpert_apply 5 ![5, 0, 0] slices_S8x1024x4096_S1x1024x4096_5_0_0 ![5, 0, 0] slices_S8x2048x1024_S1x2048x1024_5_0_0 5#32 rfl rfl rfl X P I W13 W2 t d,
    hostExpert_apply 6 ![6, 0, 0] slices_S8x1024x4096_S1x1024x4096_6_0_0 ![6, 0, 0] slices_S8x2048x1024_S1x2048x1024_6_0_0 6#32 rfl rfl rfl X P I W13 W2 t d,
    hostExpert_apply 7 ![7, 0, 0] slices_S8x1024x4096_S1x1024x4096_7_0_0 ![7, 0, 0] slices_S8x2048x1024_S1x2048x1024_7_0_0 7#32 rfl rfl rfl X P I W13 W2 t d,
    Cert.LibHostRead.bcastConst_apply, Ideal.ofBits_zero_f32]

/-- The result buffer after the whole line, on the extended reals. -/
theorem out_val (V : Valuation τ sig (Elt Ideal)) :
    after (ops (F := Ideal)) V (Proc.devRef .tc main_v154)
      = shapeCast S2x4096x1024
          (Cert.Moe.out (shapeCast S8192x1024 (V (Proc.devRef .tc main_arg0)) shapeCasts_S2x4096x1024_S8192x1024)
            (V (Proc.devRef .tc main_arg1)) (V (Proc.devRef .tc main_arg2)) (V (Proc.devRef .tc main_arg3)) (V (Proc.devRef .tc main_arg4)))
          shapeCasts_S8192x1024_S2x4096x1024 := by
  rw [out_fold, hostSum_eq]

/-- **The reference's run.**  From any memory with zero counters every weakly fair execution of @main terminates,
    nothing faulting, with the result buffer at the routed mixture of the flattened first argument and the four
    others, reshaped to 2 × 4096 × 1024, and the five arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
      r.2.mem ((c.tc : Thread nD τ).loc main_v154)
          = shapeCast S2x4096x1024
              (Cert.Moe.out (shapeCast S8192x1024 (m ((c.tc : Thread nD τ).loc main_arg0)) shapeCasts_S2x4096x1024_S8192x1024)
                (m ((c.tc : Thread nD τ).loc main_arg1)) (m ((c.tc : Thread nD τ).loc main_arg2)) (m ((c.tc : Thread nD τ).loc main_arg3)) (m ((c.tc : Thread nD τ).loc main_arg4)))
              shapeCasts_S8192x1024_S2x4096x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c main_v154).trans (out_val (launchContents m c)),
        (h c main_arg0).trans (arg0_keep (launchContents m c)),
        (h c main_arg1).trans (arg1_keep (launchContents m c)),
        (h c main_arg2).trans (arg2_keep (launchContents m c)),
        (h c main_arg3).trans (arg3_keep (launchContents m c)),
        (h c main_arg4).trans (arg4_keep (launchContents m c))⟩)
    (run_ops m ρ)

end Value

end Cert.Moe.Ref

end
-- ==== Proof.lean ====
/-
  The routed mixture of gated feed-forward experts: the kernel against its reference, on the extended reals.

  Both programs compute, for every token `t` and output entry `d`,
      ∑ over the experts e of  weight(e, t) · ∑ over the 2048 hidden columns k of  hidden(e, t, k) · W2(e, k, d),
  with hidden(e, t, k) = gate · logistic(gate) · value, gate and value the token's row against columns `2048 + k` and
  `k` of the expert's first weights, and weight(e, t) the token's routing probabilities of the slots that name `e`
  (Proof/Spec.lean: `Cert.Moe.out`).  The reference is a loop over the experts on the whole arrays; it writes
  the logistic as 1 / (1 + exp(−x)) and the routing weight as probability × indicator.  The kernel works on tiles
  of 512 tokens; at the grid point of tile and expert it adds the hidden columns up in eight groups of 256,
  selects the probabilities by comparing the routing indices with the expert, keeps the running sum over the
  experts in a scratch buffer and writes the tile back after the last expert.  The sums are the same sums: a sum
  over 2048 columns is the sum of its eight groups, `p · 1 = p` and `p · 0 = 0` for every extended real, and
  1 / (1 + exp(−x)) is the logistic; changes of float format are the identity.  No law used needs the inputs
  to be finite.

  Proof/KBody.lean … KAcc.lean read the kernel's run (what each grid point leaves, the running sum by induction
  on the point), Proof/KValue.lean the output array and the last reshape; Proof/RefOps.lean … RefValue.lean run
  the reference's host operations and read its result; the idealization rewrote nothing, so `preserves` is trivial.
-/
import proofs.«121355_j88287347736701_1_alg».proof.Defs
import proofs.«121355_j88287347736701_1_alg».proof.Proof.Gen.Kernel
import proofs.«121355_j88287347736701_1_alg».proof.Proof.Gen.Kernel.Skeleton
import proofs.«121355_j88287347736701_1_alg».proof.Proof.Gen.Kernel.Launch
import proofs.«121355_j88287347736701_1_alg».proof.Proof.Gen.Kernel.Points
import proofs.«121355_j88287347736701_1_alg».proof.Proof.Gen.Kernel.Frame
import proofs.«121355_j88287347736701_1_alg».proof.Proof.Gen.KernelIdeal
import proofs.«121355_j88287347736701_1_alg».proof.Proof.Gen.KernelIdeal.Skeleton
import proofs.«121355_j88287347736701_1_alg».proof.Proof.Gen.KernelIdeal.Launch
import proofs.«121355_j88287347736701_1_alg».proof.Proof.Gen.KernelIdeal.Points
import proofs.«121355_j88287347736701_1_alg».proof.Proof.Gen.KernelIdeal.Frame
import proofs.«121355_j88287347736701_1_alg».proof.Proof.Gen.ReferenceIdeal
import proofs.«121355_j88287347736701_1_alg».proof.Proof.Gen.Pre_finite_inputs
import proofs.«121355_j88287347736701_1_alg».proof.Proof.KAcc
import proofs.«121355_j88287347736701_1_alg».proof.Proof.KValue
import proofs.«121355_j88287347736701_1_alg».proof.Proof.RefValue
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run with the result dropped. -/
theorem frame_reference : Cert.frame_ReferenceIdeal := fun m ρ _ =>
  (θ_run Cert.ReferenceIdeal.defs _ _).mono (fun _ h c => (h c).2) (Cert.Moe.Ref.run m ρ)

/-- The idealization rewrote no operation. -/
theorem preserves : Cert.preserves_Kernel_KernelIdeal := trivial

/-- Both idealized programs end with the result array at the one function `Cert.Moe.out` of the arguments,
    reshaped to the activations' shape: the kernel by its running sum over the experts, tile by tile, the
    reference by its loop over the experts. -/
theorem algebraic : Cert.algebraic_KernelIdeal_ReferenceIdeal := by
  intro m ρ m' ρ' _ hagree
  refine ⟨fun c => shapeCast Cert.KernelIdeal.S2x4096x1024 (Cert.Moe.K.result m c)
      Cert.KernelIdeal.Facts₀.shapeCasts_S8192x1024_S2x4096x1024,
    Cert.Moe.K.run m ρ (fun c t h7 p q hr => Cert.Moe.K.block_at m c t h7 p q hr), ?_⟩
  refine (θ_run Cert.ReferenceIdeal.defs _ _).mono (fun _ h c => ⟨(h c).1.trans ?_, (h c).2⟩)
    (Cert.Moe.Ref.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
